-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v131) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S384x384 : S_.BroadcastsInDim S384x384 (![] : Fin 0 → Fin S384x384.rank)
  reducesTo_S384x384_S_d0_1 : S384x384.ReducesTo [0, 1] S_
  bcast_S_S384 : S_.BroadcastsInDim S384 (![] : Fin 0 → Fin S384.rank)
  reducesTo_S384_S_d0 : S384.ReducesTo [0] S_
  bcast_S_S384x10 : S_.BroadcastsInDim S384x10 (![] : Fin 0 → Fin S384x10.rank)
  reducesTo_S384x10_S_d0_1 : S384x10.ReducesTo [0, 1] S_
  bcast_S_S10 : S_.BroadcastsInDim S10 (![] : Fin 0 → Fin S10.rank)
  reducesTo_S10_S_d0 : S10.ReducesTo [0] S_

variable [Facts]

def fn_part9 {F : FTy → Type} [FloatOps F] (main_arg24 : FVec F S128 .f32) (main_v151 : IVec S_ 1) (main_v152 : FVec F S128 .f32) : IVec S_ 1 :=
  let main_v153 : IVec S128 1 := cmpf .oge main_arg24 main_v152
  let main_c_61 : IVec S_ 1 := constantI S_ 1 1#1
  let main_v154 : IVec S_ 1 := (fun x v => Host.reduce IntOp.andi x v reducesTo_S128_S_d0 h_S_) main_v153 main_c_61
  let main_v155 : IVec S_ 1 := andi main_v151 main_v154
  main_v155

def fn_part8 {F : FTy → Type} [FloatOps F] (main_arg8 : FVec F S128 .f32) (main_arg16 : FVec F S128 .f32) (main_arg24 : FVec F S128 .f32) (main_arg30 : FVec F S10 .f32) (main_v133 : IVec S_ 1) (main_v136 : IVec S384x10 1) : IVec S_ 1 :=
  let main_c_53 : IVec S_ 1 := constantI S_ 1 1#1
  let main_v137 : IVec S_ 1 := (fun x v => Host.reduce IntOp.andi x v reducesTo_S384x10_S_d0_1 h_S_) main_v136 main_c_53
  let main_v138 : IVec S_ 1 := andi main_v133 main_v137
  let main_v139 : FVec F S10 .f32 := Host.absf main_arg30
  let main_cst_54 : FVec F S_ .f32 := constant S_ .f32 0x7F800000#32
  let main_v140 : FVec F S10 .f32 := broadcastInDim S10 ![] bcast_S_S10 main_cst_54
  let main_v141 : IVec S10 1 := cmpf .olt main_v139 main_v140
  let main_c_55 : IVec S_ 1 := constantI S_ 1 1#1
  let main_v142 : IVec S_ 1 := (fun x v => Host.reduce IntOp.andi x v reducesTo_S10_S_d0 h_S_) main_v141 main_c_55
  let main_v143 : IVec S_ 1 := andi main_v138 main_v142
  let main_cst_56 : FVec F S_ .f32 := constant S_ .f32 0x00000000#32
  let main_v144 : FVec F S128 .f32 := broadcastInDim S128 ![] bcast_S_S128 main_cst_56
  let main_v145 : IVec S128 1 := cmpf .oge main_arg8 main_v144
  let main_c_57 : IVec S_ 1 := constantI S_ 1 1#1
  let main_v146 : IVec S_ 1 := (fun x v => Host.reduce IntOp.andi x v reducesTo_S128_S_d0 h_S_) main_v145 main_c_57
  let main_v147 : IVec S_ 1 := andi main_v143 main_v146
  let main_cst_58 : FVec F S_ .f32 := constant S_ .f32 0x00000000#32
  let main_v148 : FVec F S128 .f32 := broadcastInDim S128 ![] bcast_S_S128 main_cst_58
  let main_v149 : IVec S128 1 := cmpf .oge main_arg16 main_v148
  let main_c_59 : IVec S_ 1 := constantI S_ 1 1#1
  let main_v150 : IVec S_ 1 := (fun x v => Host.reduce IntOp.andi x v reducesTo_S128_S_d0 h_S_) main_v149 main_c_59
  let main_v151 : IVec S_ 1 := andi main_v147 main_v150
  let main_cst_60 : FVec F S_ .f32 := constant S_ .f32 0x00000000#32
  let main_v152 : FVec F S128 .f32 := broadcastInDim S128 ![] bcast_S_S128 main_cst_60
  fn_part9 (F := F) main_arg24 main_v151 main_v152

def fn_part7 {F : FTy → Type} [FloatOps F] (main_arg8 : FVec F S128 .f32) (main_arg16 : FVec F S128 .f32) (main_arg24 : FVec F S128 .f32) (main_arg27 : FVec F S384x384 .f32) (main_arg28 : FVec F S384 .f32) (main_arg29 : FVec F S384x10 .f32) (main_arg30 : FVec F S10 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S384x384 .f32 := Host.absf main_arg27
  let main_cst_48 : FVec F S_ .f32 := constant S_ .f32 0x7F800000#32
  let main_v125 : FVec F S384x384 .f32 := broadcastInDim S384x384 ![] bcast_S_S384x384 main_cst_48
  let main_v126 : IVec S384x384 1 := cmpf .olt main_v124 main_v125
  let main_c_49 : IVec S_ 1 := constantI S_ 1 1#1
  let main_v127 : IVec S_ 1 := (fun x v => Host.reduce IntOp.andi x v reducesTo_S384x384_S_d0_1 h_S_) main_v126 main_c_49
  let main_v128 : IVec S_ 1 := andi main_v123 main_v127
  let main_v129 : FVec F S384 .f32 := Host.absf main_arg28
  let main_cst_50 : FVec F S_ .f32 := constant S_ .f32 0x7F800000#32
  let main_v130 : FVec F S384 .f32 := broadcastInDim S384 ![] bcast_S_S384 main_cst_50
  let main_v131 : IVec S384 1 := cmpf .olt main_v129 main_v130
  let main_c_51 : IVec S_ 1 := constantI S_ 1 1#1
  let main_v132 : IVec S_ 1 := (fun x v => Host.reduce IntOp.andi x v reducesTo_S384_S_d0 h_S_) main_v131 main_c_51
  let main_v133 : IVec S_ 1 := andi main_v128 main_v132
  let main_v134 : FVec F S384x10 .f32 := Host.absf main_arg29
  let main_cst_52 : FVec F S_ .f32 := constant S_ .f32 0x7F800000#32
  let main_v135 : FVec F S384x10 .f32 := broadcastInDim S384x10 ![] bcast_S_S384x10 main_cst_52
  let main_v136 : IVec S384x10 1 := cmpf .olt main_v134 main_v135
  fn_part8 (F := F) main_arg8 main_arg16 main_arg24 main_arg30 main_v133 main_v136

def fn_part6 {F : FTy → Type} [FloatOps F] (main_arg8 : FVec F S128 .f32) (main_arg16 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x10 .f32) (main_arg30 : FVec F S10 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S128 .f32 := Host.absf main_arg23
  let main_cst_40 : FVec F S_ .f32 := constant S_ .f32 0x7F800000#32
  let main_v105 : FVec F S128 .f32 := broadcastInDim S128 ![] bcast_S_S128 main_cst_40
  let main_v106 : IVec S128 1 := cmpf .olt main_v104 main_v105
  let main_c_41 : IVec S_ 1 := constantI S_ 1 1#1
  let main_v107 : IVec S_ 1 := (fun x v => Host.reduce IntOp.andi x v reducesTo_S128_S_d0 h_S_) main_v106 main_c_41
  let main_v108 : IVec S_ 1 := andi main_v103 main_v107
  let main_v109 : FVec F S128 .f32 := Host.absf main_arg24
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S128x128 .f32 := Host.absf main_arg25
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128 .f32 := Host.absf main_arg26
  fn_part7 (F := F) main_arg8 main_arg16 main_arg24 main_arg27 main_arg28 main_arg29 main_arg30 main_v118 main_v119

def fn_part5 {F : FTy → Type} [FloatOps F] (main_arg8 : FVec F S128 .f32) (main_arg16 : FVec F S128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x10 .f32) (main_arg30 : FVec F S10 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg20
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128 .f32 := Host.absf main_arg21
  let main_cst_36 : FVec F S_ .f32 := constant S_ .f32 0x7F800000#32
  let main_v95 : FVec F S128 .f32 := broadcastInDim S128 ![] bcast_S_S128 main_cst_36
  let main_v96 : IVec S128 1 := cmpf .olt main_v94 main_v95
  let main_c_37 : IVec S_ 1 := constantI S_ 1 1#1
  let main_v97 : IVec S_ 1 := (fun x v => Host.reduce IntOp.andi x v reducesTo_S128_S_d0 h_S_) main_v96 main_c_37
  let main_v98 : IVec S_ 1 := andi main_v93 main_v97
  let main_v99 : FVec F S128 .f32 := Host.absf main_arg22
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg8 main_arg16 main_arg23 main_arg24 main_arg25 main_arg26 main_arg27 main_arg28 main_arg29 main_arg30 main_v98 main_v101 main_c_39

def fn_part4 {F : FTy → Type} [FloatOps F] (main_arg8 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x10 .f32) (main_arg30 : FVec F S10 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg19
  let main_cst_32 : FVec F S_ .f32 := constant S_ .f32 0x7F800000#32
  fn_part5 (F := F) main_arg8 main_arg16 main_arg20 main_arg21 main_arg22 main_arg23 main_arg24 main_arg25 main_arg26 main_arg27 main_arg28 main_arg29 main_arg30 main_v83 main_v84 main_cst_32

def fn_part3 {F : FTy → Type} [FloatOps F] (main_arg8 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x10 .f32) (main_arg30 : FVec F S10 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg15
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg8 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x10 .f32) (main_arg30 : FVec F S10 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg8 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x10 .f32) (main_arg30 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S50000x64 .f32) (main_arg1 : IVec S2x800000 32) (main_arg2 : IVec S50000 32) (main_arg3 : FVec F S64x128 .f32) (main_arg4 : FVec F S128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x128 .f32) (main_arg12 : FVec F S128 .f32) (main_arg13 : FVec F S128 .f32) (main_arg14 : FVec F S128 .f32) (main_arg15 : FVec F S128 .f32) (main_arg16 : FVec F S128 .f32) (main_arg17 : FVec F S128x128 .f32) (main_arg18 : FVec F S128 .f32) (main_arg19 : FVec F S128x128 .f32) (main_arg20 : FVec F S128 .f32) (main_arg21 : FVec F S128 .f32) (main_arg22 : FVec F S128 .f32) (main_arg23 : FVec F S128 .f32) (main_arg24 : FVec F S128 .f32) (main_arg25 : FVec F S128x128 .f32) (main_arg26 : FVec F S128 .f32) (main_arg27 : FVec F S384x384 .f32) (main_arg28 : FVec F S384 .f32) (main_arg29 : FVec F S384x10 .f32) (main_arg30 : FVec F S10 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x128 .f32 := Host.absf main_arg3
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S1x128 : Shape := ⟨2, ![1, 128]⟩
abbrev S50000x128 : Shape := ⟨2, ![50000, 128]⟩
abbrev S5000x64 : Shape := ⟨2, ![5000, 64]⟩
abbrev S5000x128 : Shape := ⟨2, ![5000, 128]⟩
abbrev S800000x128 : Shape := ⟨2, ![800000, 128]⟩
abbrev S512x128 : Shape := ⟨2, ![512, 128]⟩
abbrev S50000x1 : Shape := ⟨2, ![50000, 1]⟩
abbrev S512x384 : Shape := ⟨2, ![512, 384]⟩
abbrev S1x384 : Shape := ⟨2, ![1, 384]⟩
abbrev S1x10 : Shape := ⟨2, ![1, 10]⟩
abbrev S512x10 : Shape := ⟨2, ![512, 10]⟩
abbrev S512 : Shape := ⟨1, ![512]⟩
abbrev S512x1 : Shape := ⟨2, ![512, 1]⟩

abbrev nBuf : Space → Nat
  | .hbm => 129
  | .vmem => 36
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128, .f32⟩
  | 22 => ⟨S128, .f32⟩
  | 23 => ⟨S128, .f32⟩
  | 24 => ⟨S128, .f32⟩
  | 25 => ⟨S128x128, .f32⟩
  | 26 => ⟨S128, .f32⟩
  | 27 => ⟨S384x384, .f32⟩
  | 28 => ⟨S384, .f32⟩
  | 29 => ⟨S384x10, .f32⟩
  | 30 => ⟨S10, .f32⟩
  | 31 => ⟨S1x800000, .i32⟩
  | 32 => ⟨S800000, .i32⟩
  | 33 => ⟨S1x800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S_, .f32⟩
  | 50 => ⟨S128, .f32⟩
  | 51 => ⟨S128, .f32⟩
  | 52 => ⟨S128, .f32⟩
  | 53 => ⟨S128, .f32⟩
  | 54 => ⟨S128, .f32⟩
  | 55 => ⟨S128, .f32⟩
  | 56 => ⟨S1x128, .f32⟩
  | 57 => ⟨S1x128, .f32⟩
  | 58 => ⟨S1x128, .f32⟩
  | 59 => ⟨S1x128, .f32⟩
  | 60 => ⟨S50000x128, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x128, .f32⟩
  | 70 => ⟨S_, .f32⟩
  | 71 => ⟨S50000x128, .f32⟩
  | 72 => ⟨S800000x1, .i32⟩
  | 73 => ⟨S50000x128, .f32⟩
  | 74 => ⟨S50000x128, .f32⟩
  | 75 => ⟨S_, .f32⟩
  | 76 => ⟨S128, .f32⟩
  | 77 => ⟨S128, .f32⟩
  | 78 => ⟨S128, .f32⟩
  | 79 => ⟨S128, .f32⟩
  | 80 => ⟨S128, .f32⟩
  | 81 => ⟨S128, .f32⟩
  | 82 => ⟨S1x128, .f32⟩
  | 83 => ⟨S1x128, .f32⟩
  | 84 => ⟨S1x128, .f32⟩
  | 85 => ⟨S1x128, .f32⟩
  | 86 => ⟨S50000x128, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x128, .f32⟩
  | 96 => ⟨S_, .f32⟩
  | 97 => ⟨S50000x128, .f32⟩
  | 98 => ⟨S800000x1, .i32⟩
  | 99 => ⟨S50000x128, .f32⟩
  | 100 => ⟨S50000x128, .f32⟩
  | 101 => ⟨S_, .f32⟩
  | 102 => ⟨S128, .f32⟩
  | 103 => ⟨S128, .f32⟩
  | 104 => ⟨S128, .f32⟩
  | 105 => ⟨S128, .f32⟩
  | 106 => ⟨S128, .f32⟩
  | 107 => ⟨S128, .f32⟩
  | 108 => ⟨S1x128, .f32⟩
  | 109 => ⟨S1x128, .f32⟩
  | 110 => ⟨S1x128, .f32⟩
  | 111 => ⟨S1x128, .f32⟩
  | 112 => ⟨S50000x128, .f32⟩
  | 113 => ⟨S_, .f32⟩
  | 114 => ⟨S512x128, .f32⟩
  | 115 => ⟨S50000x1, .i32⟩
  | 116 => ⟨S512x128, .f32⟩
  | 117 => ⟨S_, .f32⟩
  | 118 => ⟨S512x128, .f32⟩
  | 119 => ⟨S50000x1, .i32⟩
  | 120 => ⟨S512x128, .f32⟩
  | 121 => ⟨S_, .f32⟩
  | 122 => ⟨S512x128, .f32⟩
  | 123 => ⟨S50000x1, .i32⟩
  | 124 => ⟨S512x128, .f32⟩
  | 125 => ⟨S512x384, .f32⟩
  | 126 => ⟨S1x384, .f32⟩
  | 127 => ⟨S1x10, .f32⟩
  | _ => ⟨S50000x64, .f32⟩

abbrev hbmTy0_1 (i : Nat) : BufTy := match i % 128 with
  | 0 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S512x384, .f32⟩
  | .local _ .vmem, ⟨31, _⟩ => ⟨S384x384, .f32⟩
  | .local _ .vmem, ⟨32, _⟩ => ⟨S1x384, .f32⟩
  | .local _ .vmem, ⟨33, _⟩ => ⟨S384x10, .f32⟩
  | .local _ .vmem, ⟨34, _⟩ => ⟨S1x10, .f32⟩
  | .local _ .vmem, ⟨35, _⟩ => ⟨S512x10, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_cst_1 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_2 : Ref sig .tc := ⟨.hbm, 61, rfl⟩
abbrev main_v26 : Ref sig .tc := ⟨.hbm, 62, rfl⟩
abbrev main_v27 : Ref sig .tc := ⟨.hbm, 63, rfl⟩
abbrev main_c_3 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_4 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_cst_5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_c_6 : Ref sig .tc := ⟨.hbm, 87, rfl⟩
abbrev main_v48 : Ref sig .tc := ⟨.hbm, 88, rfl⟩
abbrev main_v49 : Ref sig .tc := ⟨.hbm, 89, rfl⟩
abbrev main_c_7 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_cst_8 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_9 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_10 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_cst_11 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_cst_12 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S512x384 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S384x384 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x384 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S384x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x10 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x10 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S128 : S_.BroadcastsInDim S128 (![] : Fin 0 → Fin S128.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  bcast_S_S512x128 : S_.BroadcastsInDim S512x128 (![] : Fin 0 → Fin S512x128.rank)
  bcast_S50000_S50000x1_0 : S50000.BroadcastsInDim S50000x1 (![0] : Fin 1 → Fin S50000x1.rank)
  concatenates_S512x128_S512x128_S512x128_S512x384_d1 : Shape.Concatenates [S512x128, S512x128, S512x128] S512x384 1
  shapeCasts_S384_S1x384 : S384.ShapeCasts S1x384
  shapeCasts_S10_S1x10 : S10.ShapeCasts S1x10
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S384x384_S384x384_0_0 : ∀ a, (![0, 0] : Fin 2 → Nat) a + S384x384.size a ≤ S384x384.size a
  h_S384x384 : 0 < S384x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S512x384 : S1x384.Broadcasts S512x384
  inb_S384x10_S384x10_0_0 : ∀ a, (![0, 0] : Fin 2 → Nat) a + S384x10.size a ≤ S384x10.size a
  h_S384x10 : 0 < S384x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x384_S384x384_S512x384_1_0_0_1_n_n_wf : DotDims.WF S512x384 S384x384 S512x384 [1] [0] [0] [1] [] []
  dot_S512x384_S384x10_S512x10_1_0_0_1_n_n_wf : DotDims.WF S512x384 S384x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S512x384.size a ≤ S512x384.size a
  hwx3_0 : ∀ i : grid3.Coords, EltTy.bits .f32 = 32 ∨ (Rect.block (s := S512x384) S512x384.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S384x384.size a ≤ S384x384.size a
  hwx3_1 : ∀ i : grid3.Coords, EltTy.bits .f32 = 32 ∨ (Rect.block (s := S384x384) S384x384.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x384.size a ≤ S1x384.size a
  hwx3_2 : ∀ i : grid3.Coords, EltTy.bits .f32 = 32 ∨ (Rect.block (s := S1x384) S1x384.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S384x10.size a ≤ S384x10.size a
  hwx3_3 : ∀ i : grid3.Coords, EltTy.bits .f32 = 32 ∨ (Rect.block (s := S384x10) S384x10.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x10.size a ≤ S1x10.size a
  hwx3_4 : ∀ i : grid3.Coords, EltTy.bits .f32 = 32 ∨ (Rect.block (s := S1x10) S1x10.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S512x10.size a ≤ S512x10.size a
  hwx3_5 : ∀ i : grid3.Coords, EltTy.bits .f32 = 32 ∨ (Rect.block (s := S512x10) S512x10.size (cc3_transform_5 i) (hinb3_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S384x10_S512x10_1_0_0_1_n_n : DotDims S512x384 S384x10 S512x10 where
  lhsContracting := [1]
  rhsContracting := [0]
  lhsNonContracting := [0]
  rhsNonContracting := [1]
  lhsBatch := []
  rhsBatch := []
  wf := dot_S512x384_S384x10_S512x10_1_0_0_1_n_n_wf

abbrev win0_0 : Pipeline.Window sig grid0 :=
  Pipeline.Window.ofSpec (Memref.whole main_v14) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v43) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg17) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v46) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v47) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg19) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v65) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v66) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg25) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v68) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v79) S512x384.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg27) S384x384.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x384.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg29) S384x10.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S1x10.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v82) S512x10.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S64x128 : Shape := ⟨2, ![64, 128]⟩
abbrev S128 : Shape := ⟨1, ![128]⟩
abbrev S128x128 : Shape := ⟨2, ![128, 128]⟩
abbrev S384x384 : Shape := ⟨2, ![384, 384]⟩
abbrev S384 : Shape := ⟨1, ![384]⟩
abbrev S384x10 : Shape := ⟨2, ![384, 10]⟩
abbrev S10 : Shape := ⟨1, ![10]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x128 : Shape := ⟨2, ![50000, 128]⟩
abbrev S1x128 : Shape := ⟨2, ![1, 128]⟩
abbrev S800000x128 : Shape := ⟨2, ![800000, 128]⟩
abbrev S512x128 : Shape := ⟨2, ![512, 128]⟩
abbrev S50000x1 : Shape := ⟨2, ![50000, 1]⟩
abbrev S512x384 : Shape := ⟨2, ![512, 384]⟩
abbrev S1x384 : Shape := ⟨2, ![1, 384]⟩
abbrev S512x10 : Shape := ⟨2, ![512, 10]⟩
abbrev S1x10 : Shape := ⟨2, ![1, 10]⟩
abbrev S512 : Shape := ⟨1, ![512]⟩
abbrev S512x1 : Shape := ⟨2, ![512, 1]⟩

abbrev nBuf : Space → Nat
  | .hbm => 206
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S64x128, .f32⟩
  | 4 => ⟨S128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128, .f32⟩
  | 14 => ⟨S128, .f32⟩
  | 15 => ⟨S128, .f32⟩
  | 16 => ⟨S128, .f32⟩
  | 17 => ⟨S128x128, .f32⟩
  | 18 => ⟨S128, .f32⟩
  | 19 => ⟨S128x128, .f32⟩
  | 20 => ⟨S128, .f32⟩
  | 21 => ⟨S128, .f32⟩
  | 22 => ⟨S128, .f32⟩
  | 23 => ⟨S128, .f32⟩
  | 24 => ⟨S128, .f32⟩
  | 25 => ⟨S128x128, .f32⟩
  | 26 => ⟨S128, .f32⟩
  | 27 => ⟨S384x384, .f32⟩
  | 28 => ⟨S384, .f32⟩
  | 29 => ⟨S384x10, .f32⟩
  | 30 => ⟨S10, .f32⟩
  | 31 => ⟨S1x800000, .i32⟩
  | 32 => ⟨S800000, .i32⟩
  | 33 => ⟨S1x800000, .i32⟩
  | 34 => ⟨S800000, .i32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S50000x128, .f32⟩
  | 50 => ⟨S1x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S128, .f32⟩
  | 58 => ⟨S128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x128, .f32⟩
  | 88 => ⟨S_, .f32⟩
  | 89 => ⟨S50000x128, .f32⟩
  | 90 => ⟨S800000x1, .i32⟩
  | 91 => ⟨S50000x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .i32⟩
  | 124 => ⟨S800000, .i32⟩
  | 125 => ⟨S800000, .i1⟩
  | 126 => ⟨S_, .i32⟩
  | 127 => ⟨S800000, .i32⟩
  | _ => ⟨S50000x64, .f32⟩

abbrev hbmTy0_1 (i : Nat) : BufTy := match i % 128 with
  | 0 => ⟨S800000, .i32⟩
  | 1 => ⟨S800000, .i32⟩
  | 2 => ⟨S800000x1, .i32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000x128, .f32⟩
  | 9 => ⟨S50000x128, .f32⟩
  | 10 => ⟨S1x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S128, .f32⟩
  | 18 => ⟨S128, .f32⟩
  | 19 => ⟨S128, .f32⟩
  | 20 => ⟨S1x128, .f32⟩
  | 21 => ⟨S50000x128, .f32⟩
  | 22 => ⟨S50000x128, .f32⟩
  | 23 => ⟨S1x128, .f32⟩
  | 24 => ⟨S50000x128, .f32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S1x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S_, .f32⟩
  | 40 => ⟨S512x128, .f32⟩
  | 41 => ⟨S50000x1, .i32⟩
  | 42 => ⟨S512x128, .f32⟩
  | 43 => ⟨S_, .f32⟩
  | 44 => ⟨S512x128, .f32⟩
  | 45 => ⟨S50000x1, .i32⟩
  | 46 => ⟨S512x128, .f32⟩
  | 47 => ⟨S_, .f32⟩
  | 48 => ⟨S512x128, .f32⟩
  | 49 => ⟨S50000x1, .i32⟩
  | 50 => ⟨S512x128, .f32⟩
  | 51 => ⟨S512x384, .f32⟩
  | 52 => ⟨S512x384, .f32⟩
  | 53 => ⟨S1x384, .f32⟩
  | 54 => ⟨S512x384, .f32⟩
  | 55 => ⟨S512x384, .f32⟩
  | 56 => ⟨S_, .f32⟩
  | 57 => ⟨S512x384, .f32⟩
  | 58 => ⟨S512x384, .f32⟩
  | 59 => ⟨S512x10, .f32⟩
  | 60 => ⟨S1x10, .f32⟩
  | 61 => ⟨S512x10, .f32⟩
  | 62 => ⟨S512x10, .f32⟩
  | 63 => ⟨S_, .f32⟩
  | 64 => ⟨S512, .f32⟩
  | 65 => ⟨S_, .f32⟩
  | 66 => ⟨S512, .f32⟩
  | 67 => ⟨S512, .f32⟩
  | 68 => ⟨S512x1, .f32⟩
  | 69 => ⟨S512x10, .f32⟩
  | 70 => ⟨S512x10, .f32⟩
  | 71 => ⟨S512x10, .f32⟩
  | 72 => ⟨S_, .f32⟩
  | 73 => ⟨S512, .f32⟩
  | 74 => ⟨S512x1, .f32⟩
  | 75 => ⟨S512x1, .f32⟩
  | 76 => ⟨S512x10, .f32⟩
  | 77 => ⟨S512x10, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_1 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_call0_cst : Ref sig .tc := ⟨.hbm, 69, rfl⟩
abbrev main_call0_v0 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_call1_cst : Ref sig .tc := ⟨.hbm, 76, rfl⟩
abbrev main_call1_v0 : Ref sig .tc := ⟨.hbm, 77, rfl⟩
abbrev main_v39 : Ref sig .tc := ⟨.hbm, 78, rfl⟩
abbrev main_c_2 : Ref sig .tc := ⟨.hbm, 79, rfl⟩
abbrev main_v40 : Ref sig .tc := ⟨.hbm, 80, rfl⟩
abbrev main_v41 : Ref sig .tc := ⟨.hbm, 81, rfl⟩
abbrev main_c_3 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_cst_4 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_5 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_call2_cst : Ref sig .tc := ⟨.hbm, 113, rfl⟩
abbrev main_call2_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_call3_cst : Ref sig .tc := ⟨.hbm, 120, rfl⟩
abbrev main_call3_v0 : Ref sig .tc := ⟨.hbm, 121, rfl⟩
abbrev main_v75 : Ref sig .tc := ⟨.hbm, 122, rfl⟩
abbrev main_c_6 : Ref sig .tc := ⟨.hbm, 123, rfl⟩
abbrev main_v76 : Ref sig .tc := ⟨.hbm, 124, rfl⟩
abbrev main_v77 : Ref sig .tc := ⟨.hbm, 125, rfl⟩
abbrev main_c_7 : Ref sig .tc := ⟨.hbm, 126, rfl⟩
abbrev main_v78 : Ref sig .tc := ⟨.hbm, 127, rfl⟩
abbrev main_v79 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_cst_8 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_cst_9 : Ref sig .tc := ⟨.hbm, 144, rfl⟩
abbrev main_v94 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_call4_cst : Ref sig .tc := ⟨.hbm, 157, rfl⟩
abbrev main_call4_v0 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_call5_cst : Ref sig .tc := ⟨.hbm, 164, rfl⟩
abbrev main_call5_v0 : Ref sig .tc := ⟨.hbm, 165, rfl⟩
abbrev main_v111 : Ref sig .tc := ⟨.hbm, 166, rfl⟩
abbrev main_cst_10 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_cst_11 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_12 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_call6_cst : Ref sig .tc := ⟨.hbm, 184, rfl⟩
abbrev main_call6_v0 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_call7_cst : Ref sig .tc := ⟨.hbm, 191, rfl⟩
abbrev main_call7_v0 : Ref sig .tc := ⟨.hbm, 192, rfl⟩
abbrev main_call7_cst_0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_v5 : Ref sig .tc := ⟨.hbm, 198, rfl⟩
abbrev main_call7_v6 : Ref sig .tc := ⟨.hbm, 199, rfl⟩
abbrev main_call7_cst_1 : Ref sig .tc := ⟨.hbm, 200, rfl⟩
abbrev main_call7_v7 : Ref sig .tc := ⟨.hbm, 201, rfl⟩
abbrev main_call7_v8 : Ref sig .tc := ⟨.hbm, 202, rfl⟩
abbrev main_call7_v9 : Ref sig .tc := ⟨.hbm, 203, rfl⟩
abbrev main_call7_v10 : Ref sig .tc := ⟨.hbm, 204, rfl⟩
abbrev main_v131 : Ref sig .tc := ⟨.hbm, 205, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  bcast_S_S50000x128 : S_.BroadcastsInDim S50000x128 (![] : Fin 0 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  concatenates_S512x128_S512x128_S512x128_S512x384_d1 : Shape.Concatenates [S512x128, S512x128, S512x128] S512x384 1
  bcast_S384_S1x384_1 : S384.BroadcastsInDim S1x384 (![1] : Fin 1 → Fin S1x384.rank)
  bcast_S1x384_S512x384_0_1 : S1x384.BroadcastsInDim S512x384 (![0, 1] : Fin 2 → Fin S512x384.rank)
  bcast_S_S512x384 : S_.BroadcastsInDim S512x384 (![] : Fin 0 → Fin S512x384.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S_S512 : S_.BroadcastsInDim S512 (![] : Fin 0 → Fin S512.rank)
  bcast_S512_S512x1_0 : S512.BroadcastsInDim S512x1 (![0] : Fin 1 → Fin S512x1.rank)
  bcast_S512x1_S512x10_0_1 : S512x1.BroadcastsInDim S512x10 (![0, 1] : Fin 2 → Fin S512x10.rank)
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x128_S50000x128_1_0_0_1_n_n_wf : DotDims.WF S50000x64 S64x128 S50000x128 [1] [0] [0] [1] [] []
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S512x128_S50000x1_S50000x128_1_0_0_1_wf : ScatterDims.WF S512x128 S50000x1 S50000x128 [1] [0] [0] 1
  dot_S512x384_S384x384_S512x384_1_0_0_1_n_n_wf : DotDims.WF S512x384 S384x384 S512x384 [1] [0] [0] [1] [] []
  dot_S512x384_S384x10_S512x10_1_0_0_1_n_n_wf : DotDims.WF S512x384 S384x10 S512x10 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x384_S384x384_S512x384_1_0_0_1_n_n : DotDims S512x384 S384x384 S512x384 where
  lhsContracting := [1]
  rhsContracting := [0]
  lhsNonContracting := [0]
  rhsNonContracting := [1]
  lhsBatch := []
  rhsBatch := []
  wf := dot_S512x384_S384x384_S512x384_1_0_0_1_n_n_wf
def dot_S512x384_S384x10_S512x10_1_0_0_1_n_n : DotDims S512x384 S384x10 S512x10 where
  lhsContracting := [1]
  rhsContracting := [0]
  lhsNonContracting := [0]
  rhsNonContracting := [1]
  lhsBatch := []
  rhsBatch := []
  wf := dot_S512x384_S384x10_S512x10_1_0_0_1_n_n_wf

class Facts : Prop extends Facts₀ where

variable [Facts]
-- ==== Proof.BitsHalves0.lean ====
import proofs.«108267_j14216341750214_1_alg».proof.Proof.Gen.Kernel.Launch
import proofs.«108267_j14216341750214_1_alg».proof.Proof.Gen.Kernel.Skeleton
import proofs.«108267_j14216341750214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S5000x64`: what every load and the store of a block of that shape goes through. -/
abbrev rect0_S5000x64 : Rect S5000x64 := Rect.unit (s := S5000x64) ![0, 0] S5000x64.size inb_S5000x64_S5000x64_0_0
/-- The whole rectangle of shape `S64x128`: what every load and the store of a block of that shape goes through. -/
abbrev rect0_S64x128 : Rect S64x128 := Rect.unit (s := S64x128) ![0, 0] S64x128.size inb_S64x128_S64x128_0_0
/-- The whole rectangle of shape `S1x128`: what every load and the store of a block of that shape goes through. -/
abbrev rect0_S1x128 : Rect S1x128 := Rect.unit (s := S1x128) ![0, 0] S1x128.size inb_S1x128_S1x128_0_0
/-- The whole rectangle of shape `S128x128`: what every load and the store of a block of that shape goes through. -/
abbrev rect0_S128x128 : Rect S128x128 := Rect.unit (s := S128x128) ![0, 0] S128x128.size inb_S128x128_S128x128_0_0
/-- The whole rectangle of shape `S5000x128`: what every load and the store of a block of that shape goes through. -/
abbrev rect0_S5000x128 : Rect S5000x128 := Rect.unit (s := S5000x128) ![0, 0] S5000x128.size inb_S5000x128_S5000x128_0_0

-- the contents of core `c`'s buffers when a region is entered: the parameter each region's half is stated at
variable (V : (c : Dev nD) → (b : Ref sig .tc) → Buf (Elt F) ((c : Thread nD τ).loc b))

/-! # Region 0: `cc0__gin_mlp_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the input windows' blocks: the one store, of the whole
    block, of the payload over what the loads read. -/
def out0_7 (x0 : Vec F S5000x64 .f32) (x1 : Vec F S64x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rect0_S5000x128, k0_pay1 (View.ld x0 rect0_S5000x64) (View.ld x1 rect0_S64x128) (View.ld x2 rect0_S1x128) (View.ld x3 rect0_S1x128) (View.ld x4 rect0_S1x128) (View.ld x5 rect0_S128x128) (View.ld x6 rect0_S1x128)⟩]

/-- The store is of the whole block, so it covers the buffer. -/
theorem cover0_7 (p0 : Vec F S5000x128 .f32) (y : S5000x128.Idx) :
    ∃ pc ∈ ([⟨rect0_S5000x128, p0⟩] : List (View.Piece (Elt F) S5000x128 .f32)), y ∈ pc.1.set :=
  View.cover_of_tiled [⟨rect0_S5000x128, p0⟩] S5000x128.size (by rfl) y

set_option maxHeartbeats 1000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x64 .f32) (x1 : Vec F S64x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of pipeline 0 on core `c`: the arrays as the region finds them (`V`); after the body at point
    `t` each input's buffer at its block and the output's at `out0_7` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsHalves1.lean ====
import proofs.«108267_j14216341750214_1_alg».proof.Proof.Gen.Kernel.Launch
import proofs.«108267_j14216341750214_1_alg».proof.Proof.Gen.Kernel.Skeleton
import proofs.«108267_j14216341750214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S5000x128`: what every load and the store of a block of that shape goes through. -/
abbrev rect1_S5000x128 : Rect S5000x128 := Rect.unit (s := S5000x128) ![0, 0] S5000x128.size inb_S5000x128_S5000x128_0_0
/-- The whole rectangle of shape `S128x128`: what every load and the store of a block of that shape goes through. -/
abbrev rect1_S128x128 : Rect S128x128 := Rect.unit (s := S128x128) ![0, 0] S128x128.size inb_S128x128_S128x128_0_0
/-- The whole rectangle of shape `S1x128`: what every load and the store of a block of that shape goes through. -/
abbrev rect1_S1x128 : Rect S1x128 := Rect.unit (s := S1x128) ![0, 0] S1x128.size inb_S1x128_S1x128_0_0

-- the contents of core `c`'s buffers when a region is entered: the parameter each region's half is stated at
variable (V : (c : Dev nD) → (b : Ref sig .tc) → Buf (Elt F) ((c : Thread nD τ).loc b))

/-! # Region 1: `cc1__gin_mlp_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the input windows' blocks: the one store, of the whole
    block, of the payload over what the loads read. -/
def out1_7 (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rect1_S5000x128, k1_pay1 (View.ld x0 rect1_S5000x128) (View.ld x1 rect1_S128x128) (View.ld x2 rect1_S1x128) (View.ld x3 rect1_S1x128) (View.ld x4 rect1_S1x128) (View.ld x5 rect1_S128x128) (View.ld x6 rect1_S1x128)⟩]

/-- The store is of the whole block, so it covers the buffer. -/
theorem cover1_7 (p0 : Vec F S5000x128 .f32) (y : S5000x128.Idx) :
    ∃ pc ∈ ([⟨rect1_S5000x128, p0⟩] : List (View.Piece (Elt F) S5000x128 .f32)), y ∈ pc.1.set :=
  View.cover_of_tiled [⟨rect1_S5000x128, p0⟩] S5000x128.size (by rfl) y

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the region finds them (`V`); after the body at point
    `t` each input's buffer at its block and the output's at `out1_7` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.BitsHalves2.lean ====
import proofs.«108267_j14216341750214_1_alg».proof.Proof.Gen.Kernel.Launch
import proofs.«108267_j14216341750214_1_alg».proof.Proof.Gen.Kernel.Skeleton
import proofs.«108267_j14216341750214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S5000x128`: what every load and the store of a block of that shape goes through. -/
abbrev rect2_S5000x128 : Rect S5000x128 := Rect.unit (s := S5000x128) ![0, 0] S5000x128.size inb_S5000x128_S5000x128_0_0
/-- The whole rectangle of shape `S128x128`: what every load and the store of a block of that shape goes through. -/
abbrev rect2_S128x128 : Rect S128x128 := Rect.unit (s := S128x128) ![0, 0] S128x128.size inb_S128x128_S128x128_0_0
/-- The whole rectangle of shape `S1x128`: what every load and the store of a block of that shape goes through. -/
abbrev rect2_S1x128 : Rect S1x128 := Rect.unit (s := S1x128) ![0, 0] S1x128.size inb_S1x128_S1x128_0_0

-- the contents of core `c`'s buffers when a region is entered: the parameter each region's half is stated at
variable (V : (c : Dev nD) → (b : Ref sig .tc) → Buf (Elt F) ((c : Thread nD τ).loc b))

/-! # Region 2: `cc2__gin_mlp_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the input windows' blocks: the one store, of the whole
    block, of the payload over what the loads read. -/
def out2_7 (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rect2_S5000x128, k2_pay1 (View.ld x0 rect2_S5000x128) (View.ld x1 rect2_S128x128) (View.ld x2 rect2_S1x128) (View.ld x3 rect2_S1x128) (View.ld x4 rect2_S1x128) (View.ld x5 rect2_S128x128) (View.ld x6 rect2_S1x128)⟩]

/-- The store is of the whole block, so it covers the buffer. -/
theorem cover2_7 (p0 : Vec F S5000x128 .f32) (y : S5000x128.Idx) :
    ∃ pc ∈ ([⟨rect2_S5000x128, p0⟩] : List (View.Piece (Elt F) S5000x128 .f32)), y ∈ pc.1.set :=
  View.cover_of_tiled [⟨rect2_S5000x128, p0⟩] S5000x128.size (by rfl) y

set_option maxHeartbeats 1000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The proof data of pipeline 2 on core `c`: the arrays as the region finds them (`V`); after the body at point
    `t` each input's buffer at its block and the output's at `out2_7` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.BitsHalves3.lean ====
import proofs.«108267_j14216341750214_1_alg».proof.Proof.Gen.Kernel.Launch
import proofs.«108267_j14216341750214_1_alg».proof.Proof.Gen.Kernel.Skeleton
import proofs.«108267_j14216341750214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S512x384`: what every load and the store of a block of that shape goes through. -/
abbrev rect3_S512x384 : Rect S512x384 := Rect.unit (s := S512x384) ![0, 0] S512x384.size inb_S512x384_S512x384_0_0
/-- The whole rectangle of shape `S384x384`: what every load and the store of a block of that shape goes through. -/
abbrev rect3_S384x384 : Rect S384x384 := Rect.unit (s := S384x384) ![0, 0] S384x384.size inb_S384x384_S384x384_0_0
/-- The whole rectangle of shape `S1x384`: what every load and the store of a block of that shape goes through. -/
abbrev rect3_S1x384 : Rect S1x384 := Rect.unit (s := S1x384) ![0, 0] S1x384.size inb_S1x384_S1x384_0_0
/-- The whole rectangle of shape `S384x10`: what every load and the store of a block of that shape goes through. -/
abbrev rect3_S384x10 : Rect S384x10 := Rect.unit (s := S384x10) ![0, 0] S384x10.size inb_S384x10_S384x10_0_0
/-- The whole rectangle of shape `S1x10`: what every load and the store of a block of that shape goes through. -/
abbrev rect3_S1x10 : Rect S1x10 := Rect.unit (s := S1x10) ![0, 0] S1x10.size inb_S1x10_S1x10_0_0
/-- The whole rectangle of shape `S512x10`: what every load and the store of a block of that shape goes through. -/
abbrev rect3_S512x10 : Rect S512x10 := Rect.unit (s := S512x10) ![0, 0] S512x10.size inb_S512x10_S512x10_0_0

-- the contents of core `c`'s buffers when a region is entered: the parameter each region's half is stated at
variable (V : (c : Dev nD) → (b : Ref sig .tc) → Buf (Elt F) ((c : Thread nD τ).loc b))

/-! # Region 3: `cc3__final_kernel` (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body, from the input windows' blocks: the one store, of the whole
    block, of the payload over what the loads read. -/
def out3_5 (x0 : Vec F S512x384 .f32) (x1 : Vec F S384x384 .f32) (x2 : Vec F S1x384 .f32) (x3 : Vec F S384x10 .f32) (x4 : Vec F S1x10 .f32) : Vec F S512x10 .f32 :=
  View.canon [⟨rect3_S512x10, k3_pay1 (View.ld x0 rect3_S512x384) (View.ld x1 rect3_S384x384) (View.ld x2 rect3_S1x384) (View.ld x3 rect3_S384x10) (View.ld x4 rect3_S1x10)⟩]

/-- The store is of the whole block, so it covers the buffer. -/
theorem cover3_5 (p0 : Vec F S512x10 .f32) (y : S512x10.Idx) :
    ∃ pc ∈ ([⟨rect3_S512x10, p0⟩] : List (View.Piece (Elt F) S512x10 .f32)), y ∈ pc.1.set :=
  View.cover_of_tiled [⟨rect3_S512x10, p0⟩] S512x10.size (by rfl) y

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S512x384 .f32) (harg1 : arg1.IsWhole) (arg2 : Memref sig .tc .vmem S384x384 .f32) (harg2 : arg2.IsWhole) (arg3 : Memref sig .tc .vmem S1x384 .f32) (harg3 : arg3.IsWhole) (arg4 : Memref sig .tc .vmem S384x10 .f32) (harg4 : arg4.IsWhole) (arg5 : Memref sig .tc .vmem S1x10 .f32) (harg5 : arg5.IsWhole) (arg6 : Memref sig .tc .vmem S512x10 .f32) (harg6 : arg6.IsWhole)
    (x0 : Vec F S512x384 .f32) (x1 : Vec F S384x384 .f32) (x2 : Vec F S1x384 .f32) (x3 : Vec F S384x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__final_kernel i arg1 harg1 arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them (`V`); after the body at point
    `t` each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.BitsHalves.lean ====
import proofs.«108267_j14216341750214_1_alg».proof.Proof.BitsHalves0
import proofs.«108267_j14216341750214_1_alg».proof.Proof.BitsHalves1
import proofs.«108267_j14216341750214_1_alg».proof.Proof.BitsHalves2
import proofs.«108267_j14216341750214_1_alg».proof.Proof.BitsHalves3
-- ==== Proof.BitsRegs.lean ====
import proofs.«108267_j14216341750214_1_alg».proof.Proof.BitsHalves
import proofs.«108267_j14216341750214_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation of each core's unscoped buffers, read at the TensorCore's references: what a region's half takes as
    its entry contents. -/
abbrev atTc (W : Dev nD → Valuation τ sig (Elt F)) : (c : Dev nD) → (b : Ref sig .tc) → Buf (Elt F) ((c : Thread nD τ).loc b) :=
  fun c b => W c b

/-! ## What the regions leave, stage by stage

Region K's output array after its run is the fold of its write-backs (`Dat.arrAt … N`) from the contents it was
entered at; those contents read only what EARLIER regions left, so the family is built one region at a time. -/

/-- What region 0 leaves in `main_v25`. -/
def left0 (c : Dev nD) : Buf (Elt F) ((c : Thread nD τ).loc main_v25) := (dat0 (atTc (Gen.V1 m)) c).arrAt 7 cfg0.N
/-- The family with region 0's output in place (anything elsewhere: the launch contents). -/
def outs1 : Outs (F := F) := fun _ => Function.update (fun r c => m ((c : Thread nD τ).loc r)) main_v25 (left0 m)
/-- What region 1 leaves in `main_v47`. -/
def left1 (c : Dev nD) : Buf (Elt F) ((c : Thread nD τ).loc main_v47) := (dat1 (atTc (Gen.V3 m (outs1 m))) c).arrAt 7 cfg1.N
def outs2 : Outs (F := F) := fun _ => Function.update (outs1 m 0) main_v47 (left1 m)
/-- What region 2 leaves in `main_v69`. -/
def left2 (c : Dev nD) : Buf (Elt F) ((c : Thread nD τ).loc main_v69) := (dat2 (atTc (Gen.V5 m (outs2 m))) c).arrAt 7 cfg2.N
def outs3 : Outs (F := F) := fun _ => Function.update (outs2 m 0) main_v69 (left2 m)
/-- What region 3 leaves in `main_v82`. -/
def left3 (c : Dev nD) : Buf (Elt F) ((c : Thread nD τ).loc main_v82) := (dat3 (atTc (Gen.V7 m (outs3 m))) c).arrAt 5 cfg3.N
/-- What the four regions leave in their output arrays. -/
def outs : Outs (F := F) := fun _ => Function.update (outs3 m 0) main_v82 (left3 m)

theorem outs1_v25 (J : ℕ) : outs1 m J main_v25 = left0 m := Function.update_self _ _ _
theorem outs2_v25 (J : ℕ) : outs2 m J main_v25 = left0 m := (Function.update_of_ne (by decide) _ _).trans (outs1_v25 m 0)
theorem outs2_v47 (J : ℕ) : outs2 m J main_v47 = left1 m := Function.update_self _ _ _
theorem outs3_v25 (J : ℕ) : outs3 m J main_v25 = left0 m := (Function.update_of_ne (by decide) _ _).trans (outs2_v25 m 0)
theorem outs3_v47 (J : ℕ) : outs3 m J main_v47 = left1 m := (Function.update_of_ne (by decide) _ _).trans (outs2_v47 m 0)
theorem outs3_v69 (J : ℕ) : outs3 m J main_v69 = left2 m := Function.update_self _ _ _
theorem outs_v25 (J : ℕ) : outs m J main_v25 = left0 m := (Function.update_of_ne (by decide) _ _).trans (outs3_v25 m 0)
theorem outs_v47 (J : ℕ) : outs m J main_v47 = left1 m := (Function.update_of_ne (by decide) _ _).trans (outs3_v47 m 0)
theorem outs_v69 (J : ℕ) : outs m J main_v69 = left2 m := (Function.update_of_ne (by decide) _ _).trans (outs3_v69 m 0)
theorem outs_v82 (J : ℕ) : outs m J main_v82 = left3 m := Function.update_self _ _ _

/-- The contents before region 1 read of `outs` only what region 0 left; -/
theorem V3_congr (o o' : Outs (F := F)) (h2 : ∀ c, o 2 main_v25 c = o' 2 main_v25 c) : Gen.V3 m o = Gen.V3 m o' := by
  funext c; unfold Gen.V3 Gen.V2; rw [h2 c]
/-- those before region 2, what regions 0 and 1 left; -/
theorem V5_congr (o o' : Outs (F := F)) (h2 : ∀ c, o 2 main_v25 c = o' 2 main_v25 c) (h4 : ∀ c, o 4 main_v47 c = o' 4 main_v47 c) :
    Gen.V5 m o = Gen.V5 m o' := by
  funext c; unfold Gen.V5 Gen.V4; rw [V3_congr m o o' h2, h4 c]
/-- those before region 3, what regions 0, 1 and 2 left. -/
theorem V7_congr (o o' : Outs (F := F)) (h2 : ∀ c, o 2 main_v25 c = o' 2 main_v25 c) (h4 : ∀ c, o 4 main_v47 c = o' 4 main_v47 c)
    (h6 : ∀ c, o 6 main_v69 c = o' 6 main_v69 c) : Gen.V7 m o = Gen.V7 m o' := by
  funext c; unfold Gen.V7 Gen.V6; rw [V5_congr m o o' h2 h4, h6 c]

/-- Region 0's output array after its run: the fold of its write-backs from the contents after `hostOps0`. -/
theorem outs_2 (c : Dev nD) : outs m 2 main_v25 c = (dat0 (atTc (Gen.V1 m)) c).arrAt 7 cfg0.N := congrFun (outs_v25 m 2) c
/-- Region 1's, from the contents after `hostOps1`. -/
theorem outs_4 (c : Dev nD) : outs m 4 main_v47 c = (dat1 (atTc (Gen.V3 m (outs m))) c).arrAt 7 cfg1.N := by
  rw [V3_congr m (outs m) (outs1 m) fun c => by rw [outs_v25, outs1_v25]]; exact congrFun (outs_v47 m 4) c
/-- Region 2's, from the contents after `hostOps2`. -/
theorem outs_6 (c : Dev nD) : outs m 6 main_v69 c = (dat2 (atTc (Gen.V5 m (outs m))) c).arrAt 7 cfg2.N := by
  rw [V5_congr m (outs m) (outs2 m) (fun c => by rw [outs_v25, outs2_v25]) fun c => by rw [outs_v47, outs2_v47]]
  exact congrFun (outs_v69 m 6) c
/-- Region 3's, from the contents after `hostOps3`. -/
theorem outs_8 (c : Dev nD) : outs m 8 main_v82 c = (dat3 (atTc (Gen.V7 m (outs m))) c).arrAt 5 cfg3.N := by
  rw [V7_congr m (outs m) (outs3 m) (fun c => by rw [outs_v25, outs3_v25]) (fun c => by rw [outs_v47, outs3_v47])
    fun c => by rw [outs_v69, outs3_v69]]
  exact congrFun (outs_v82 m 8) c

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atTc (Gen.V1 m)) c
  | ⟨1, _⟩ => fun c => dat1 (atTc (Gen.V3 m (outs m))) c
  | ⟨2, _⟩ => fun c => dat2 (atTc (Gen.V5 m (outs m))) c
  | ⟨3, _⟩ => fun c => dat3 (atTc (Gen.V7 m (outs m))) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- The rest state at every boundary. -/
abbrev E : Fin 5 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

theorem hF0_0 (c : Dev nD) : (dat0 (atTc (Gen.V1 m)) c).arrAt 0 cfg0.N = Gen.V2 m (outs m) c main_v14 :=
  ((dat0 (atTc (Gen.V1 m)) c).arrAt_in 0 rfl cfg0.N).trans ((A_eq0 (atTc (Gen.V1 m)) c 0).trans (Gen.V2_of m (outs m) c main_v14 (by decide)).symm)
theorem hF0_1 (c : Dev nD) : (dat0 (atTc (Gen.V1 m)) c).arrAt 1 cfg0.N = Gen.V2 m (outs m) c main_arg3 :=
  ((dat0 (atTc (Gen.V1 m)) c).arrAt_in 1 rfl cfg0.N).trans ((A_eq0 (atTc (Gen.V1 m)) c 1).trans (Gen.V2_of m (outs m) c main_arg3 (by decide)).symm)
theorem hF0_2 (c : Dev nD) : (dat0 (atTc (Gen.V1 m)) c).arrAt 2 cfg0.N = Gen.V2 m (outs m) c main_v21 :=
  ((dat0 (atTc (Gen.V1 m)) c).arrAt_in 2 rfl cfg0.N).trans ((A_eq0 (atTc (Gen.V1 m)) c 2).trans (Gen.V2_of m (outs m) c main_v21 (by decide)).symm)
theorem hF0_3 (c : Dev nD) : (dat0 (atTc (Gen.V1 m)) c).arrAt 3 cfg0.N = Gen.V2 m (outs m) c main_v22 :=
  ((dat0 (atTc (Gen.V1 m)) c).arrAt_in 3 rfl cfg0.N).trans ((A_eq0 (atTc (Gen.V1 m)) c 3).trans (Gen.V2_of m (outs m) c main_v22 (by decide)).symm)
theorem hF0_4 (c : Dev nD) : (dat0 (atTc (Gen.V1 m)) c).arrAt 4 cfg0.N = Gen.V2 m (outs m) c main_v23 :=
  ((dat0 (atTc (Gen.V1 m)) c).arrAt_in 4 rfl cfg0.N).trans ((A_eq0 (atTc (Gen.V1 m)) c 4).trans (Gen.V2_of m (outs m) c main_v23 (by decide)).symm)
theorem hF0_5 (c : Dev nD) : (dat0 (atTc (Gen.V1 m)) c).arrAt 5 cfg0.N = Gen.V2 m (outs m) c main_arg9 :=
  ((dat0 (atTc (Gen.V1 m)) c).arrAt_in 5 rfl cfg0.N).trans ((A_eq0 (atTc (Gen.V1 m)) c 5).trans (Gen.V2_of m (outs m) c main_arg9 (by decide)).symm)
theorem hF0_6 (c : Dev nD) : (dat0 (atTc (Gen.V1 m)) c).arrAt 6 cfg0.N = Gen.V2 m (outs m) c main_v24 :=
  ((dat0 (atTc (Gen.V1 m)) c).arrAt_in 6 rfl cfg0.N).trans ((A_eq0 (atTc (Gen.V1 m)) c 6).trans (Gen.V2_of m (outs m) c main_v24 (by decide)).symm)
theorem hF0_7 (c : Dev nD) : (dat0 (atTc (Gen.V1 m)) c).arrAt 7 cfg0.N = Gen.V2 m (outs m) c main_v25 :=
  (outs_2 m c).symm.trans (Function.update_self (β := fun b : DevRef τ sig => Buf (Elt F) ((c : Thread nD τ).1, b)) _ _ _).symm

/-- At region 0's exit each of its arrays holds what the pipeline leaves: an input's array is as entered, and the
    output's array `main_v25` is what `outs` names. -/
theorem hF0 (c : Dev nD) : ∀ w : Fin cfg0.W,
    (dat0 (atTc (Gen.V1 m)) c).arrAt w cfg0.N = atTc (Gen.V2 m (outs m)) c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c

/-- Every other buffer is as entered. -/
theorem hrest0 (c : Dev nD) : ∀ b, b ∉ Finset.univ.image (Pipeline.arrRef spec0) → atTc (Gen.V2 m (outs m)) c b = atTc (Gen.V1 m) c b :=
  fun b hb => Gen.V2_of m (outs m) c b fun hmem =>
    hb (Finset.mem_image.mpr ⟨7, Finset.mem_univ _, (List.mem_singleton.mp hmem).symm⟩)

set_option backward.isDefEq.respectTransparency.types false in
/-- Region 0 over the thread state: entered from every unscoped buffer at the contents before it, left at the contents
    after it. Its arrays are split out of the unscoped buffers and put back at the exit contents; the generator
    register goes into the class invariant and out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (Gen.V1 m)) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (Gen.V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Gen.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Gen.V1 m) c) (atTc (Gen.V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem hF1_0 (c : Dev nD) : (dat1 (atTc (Gen.V3 m (outs m))) c).arrAt 0 cfg1.N = Gen.V4 m (outs m) c main_v36 :=
  ((dat1 (atTc (Gen.V3 m (outs m))) c).arrAt_in 0 rfl cfg1.N).trans ((A_eq1 (atTc (Gen.V3 m (outs m))) c 0).trans (Gen.V4_of m (outs m) c main_v36 (by decide)).symm)
theorem hF1_1 (c : Dev nD) : (dat1 (atTc (Gen.V3 m (outs m))) c).arrAt 1 cfg1.N = Gen.V4 m (outs m) c main_arg11 :=
  ((dat1 (atTc (Gen.V3 m (outs m))) c).arrAt_in 1 rfl cfg1.N).trans ((A_eq1 (atTc (Gen.V3 m (outs m))) c 1).trans (Gen.V4_of m (outs m) c main_arg11 (by decide)).symm)
theorem hF1_2 (c : Dev nD) : (dat1 (atTc (Gen.V3 m (outs m))) c).arrAt 2 cfg1.N = Gen.V4 m (outs m) c main_v43 :=
  ((dat1 (atTc (Gen.V3 m (outs m))) c).arrAt_in 2 rfl cfg1.N).trans ((A_eq1 (atTc (Gen.V3 m (outs m))) c 2).trans (Gen.V4_of m (outs m) c main_v43 (by decide)).symm)
theorem hF1_3 (c : Dev nD) : (dat1 (atTc (Gen.V3 m (outs m))) c).arrAt 3 cfg1.N = Gen.V4 m (outs m) c main_v44 :=
  ((dat1 (atTc (Gen.V3 m (outs m))) c).arrAt_in 3 rfl cfg1.N).trans ((A_eq1 (atTc (Gen.V3 m (outs m))) c 3).trans (Gen.V4_of m (outs m) c main_v44 (by decide)).symm)
theorem hF1_4 (c : Dev nD) : (dat1 (atTc (Gen.V3 m (outs m))) c).arrAt 4 cfg1.N = Gen.V4 m (outs m) c main_v45 :=
  ((dat1 (atTc (Gen.V3 m (outs m))) c).arrAt_in 4 rfl cfg1.N).trans ((A_eq1 (atTc (Gen.V3 m (outs m))) c 4).trans (Gen.V4_of m (outs m) c main_v45 (by decide)).symm)
theorem hF1_5 (c : Dev nD) : (dat1 (atTc (Gen.V3 m (outs m))) c).arrAt 5 cfg1.N = Gen.V4 m (outs m) c main_arg17 :=
  ((dat1 (atTc (Gen.V3 m (outs m))) c).arrAt_in 5 rfl cfg1.N).trans ((A_eq1 (atTc (Gen.V3 m (outs m))) c 5).trans (Gen.V4_of m (outs m) c main_arg17 (by decide)).symm)
theorem hF1_6 (c : Dev nD) : (dat1 (atTc (Gen.V3 m (outs m))) c).arrAt 6 cfg1.N = Gen.V4 m (outs m) c main_v46 :=
  ((dat1 (atTc (Gen.V3 m (outs m))) c).arrAt_in 6 rfl cfg1.N).trans ((A_eq1 (atTc (Gen.V3 m (outs m))) c 6).trans (Gen.V4_of m (outs m) c main_v46 (by decide)).symm)
theorem hF1_7 (c : Dev nD) : (dat1 (atTc (Gen.V3 m (outs m))) c).arrAt 7 cfg1.N = Gen.V4 m (outs m) c main_v47 :=
  (outs_4 m c).symm.trans (Function.update_self (β := fun b : DevRef τ sig => Buf (Elt F) ((c : Thread nD τ).1, b)) _ _ _).symm

/-- At region 1's exit each of its arrays holds what the pipeline leaves: an input's array is as entered, and the
    output's array `main_v47` is what `outs` names. -/
theorem hF1 (c : Dev nD) : ∀ w : Fin cfg1.W,
    (dat1 (atTc (Gen.V3 m (outs m))) c).arrAt w cfg1.N = atTc (Gen.V4 m (outs m)) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c

/-- Every other buffer is as entered. -/
theorem hrest1 (c : Dev nD) : ∀ b, b ∉ Finset.univ.image (Pipeline.arrRef spec1) → atTc (Gen.V4 m (outs m)) c b = atTc (Gen.V3 m (outs m)) c b :=
  fun b hb => Gen.V4_of m (outs m) c b fun hmem =>
    hb (Finset.mem_image.mpr ⟨7, Finset.mem_univ _, (List.mem_singleton.mp hmem).symm⟩)

set_option backward.isDefEq.respectTransparency.types false in
/-- Region 1 over the thread state: entered from every unscoped buffer at the contents before it, left at the contents
    after it. Its arrays are split out of the unscoped buffers and put back at the exit contents; the generator
    register goes into the class invariant and out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (Gen.V3 m (outs m))) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (Gen.V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Gen.V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Gen.V3 m (outs m)) c) (atTc (Gen.V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

theorem hF2_0 (c : Dev nD) : (dat2 (atTc (Gen.V5 m (outs m))) c).arrAt 0 cfg2.N = Gen.V6 m (outs m) c main_v58 :=
  ((dat2 (atTc (Gen.V5 m (outs m))) c).arrAt_in 0 rfl cfg2.N).trans ((A_eq2 (atTc (Gen.V5 m (outs m))) c 0).trans (Gen.V6_of m (outs m) c main_v58 (by decide)).symm)
theorem hF2_1 (c : Dev nD) : (dat2 (atTc (Gen.V5 m (outs m))) c).arrAt 1 cfg2.N = Gen.V6 m (outs m) c main_arg19 :=
  ((dat2 (atTc (Gen.V5 m (outs m))) c).arrAt_in 1 rfl cfg2.N).trans ((A_eq2 (atTc (Gen.V5 m (outs m))) c 1).trans (Gen.V6_of m (outs m) c main_arg19 (by decide)).symm)
theorem hF2_2 (c : Dev nD) : (dat2 (atTc (Gen.V5 m (outs m))) c).arrAt 2 cfg2.N = Gen.V6 m (outs m) c main_v65 :=
  ((dat2 (atTc (Gen.V5 m (outs m))) c).arrAt_in 2 rfl cfg2.N).trans ((A_eq2 (atTc (Gen.V5 m (outs m))) c 2).trans (Gen.V6_of m (outs m) c main_v65 (by decide)).symm)
theorem hF2_3 (c : Dev nD) : (dat2 (atTc (Gen.V5 m (outs m))) c).arrAt 3 cfg2.N = Gen.V6 m (outs m) c main_v66 :=
  ((dat2 (atTc (Gen.V5 m (outs m))) c).arrAt_in 3 rfl cfg2.N).trans ((A_eq2 (atTc (Gen.V5 m (outs m))) c 3).trans (Gen.V6_of m (outs m) c main_v66 (by decide)).symm)
theorem hF2_4 (c : Dev nD) : (dat2 (atTc (Gen.V5 m (outs m))) c).arrAt 4 cfg2.N = Gen.V6 m (outs m) c main_v67 :=
  ((dat2 (atTc (Gen.V5 m (outs m))) c).arrAt_in 4 rfl cfg2.N).trans ((A_eq2 (atTc (Gen.V5 m (outs m))) c 4).trans (Gen.V6_of m (outs m) c main_v67 (by decide)).symm)
theorem hF2_5 (c : Dev nD) : (dat2 (atTc (Gen.V5 m (outs m))) c).arrAt 5 cfg2.N = Gen.V6 m (outs m) c main_arg25 :=
  ((dat2 (atTc (Gen.V5 m (outs m))) c).arrAt_in 5 rfl cfg2.N).trans ((A_eq2 (atTc (Gen.V5 m (outs m))) c 5).trans (Gen.V6_of m (outs m) c main_arg25 (by decide)).symm)
theorem hF2_6 (c : Dev nD) : (dat2 (atTc (Gen.V5 m (outs m))) c).arrAt 6 cfg2.N = Gen.V6 m (outs m) c main_v68 :=
  ((dat2 (atTc (Gen.V5 m (outs m))) c).arrAt_in 6 rfl cfg2.N).trans ((A_eq2 (atTc (Gen.V5 m (outs m))) c 6).trans (Gen.V6_of m (outs m) c main_v68 (by decide)).symm)
theorem hF2_7 (c : Dev nD) : (dat2 (atTc (Gen.V5 m (outs m))) c).arrAt 7 cfg2.N = Gen.V6 m (outs m) c main_v69 :=
  (outs_6 m c).symm.trans (Function.update_self (β := fun b : DevRef τ sig => Buf (Elt F) ((c : Thread nD τ).1, b)) _ _ _).symm

/-- At region 2's exit each of its arrays holds what the pipeline leaves: an input's array is as entered, and the
    output's array `main_v69` is what `outs` names. -/
theorem hF2 (c : Dev nD) : ∀ w : Fin cfg2.W,
    (dat2 (atTc (Gen.V5 m (outs m))) c).arrAt w cfg2.N = atTc (Gen.V6 m (outs m)) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c

/-- Every other buffer is as entered. -/
theorem hrest2 (c : Dev nD) : ∀ b, b ∉ Finset.univ.image (Pipeline.arrRef spec2) → atTc (Gen.V6 m (outs m)) c b = atTc (Gen.V5 m (outs m)) c b :=
  fun b hb => Gen.V6_of m (outs m) c b fun hmem =>
    hb (Finset.mem_image.mpr ⟨7, Finset.mem_univ _, (List.mem_singleton.mp hmem).symm⟩)

set_option backward.isDefEq.respectTransparency.types false in
/-- Region 2 over the thread state: entered from every unscoped buffer at the contents before it, left at the contents
    after it. Its arrays are split out of the unscoped buffers and put back at the exit contents; the generator
    register goes into the class invariant and out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (Gen.V5 m (outs m))) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (Gen.V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Gen.V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Gen.V5 m (outs m)) c) (atTc (Gen.V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

theorem hF3_0 (c : Dev nD) : (dat3 (atTc (Gen.V7 m (outs m))) c).arrAt 0 cfg3.N = Gen.V8 m (outs m) c main_v79 :=
  ((dat3 (atTc (Gen.V7 m (outs m))) c).arrAt_in 0 rfl cfg3.N).trans ((A_eq3 (atTc (Gen.V7 m (outs m))) c 0).trans (Gen.V8_of m (outs m) c main_v79 (by decide)).symm)
theorem hF3_1 (c : Dev nD) : (dat3 (atTc (Gen.V7 m (outs m))) c).arrAt 1 cfg3.N = Gen.V8 m (outs m) c main_arg27 :=
  ((dat3 (atTc (Gen.V7 m (outs m))) c).arrAt_in 1 rfl cfg3.N).trans ((A_eq3 (atTc (Gen.V7 m (outs m))) c 1).trans (Gen.V8_of m (outs m) c main_arg27 (by decide)).symm)
theorem hF3_2 (c : Dev nD) : (dat3 (atTc (Gen.V7 m (outs m))) c).arrAt 2 cfg3.N = Gen.V8 m (outs m) c main_v80 :=
  ((dat3 (atTc (Gen.V7 m (outs m))) c).arrAt_in 2 rfl cfg3.N).trans ((A_eq3 (atTc (Gen.V7 m (outs m))) c 2).trans (Gen.V8_of m (outs m) c main_v80 (by decide)).symm)
theorem hF3_3 (c : Dev nD) : (dat3 (atTc (Gen.V7 m (outs m))) c).arrAt 3 cfg3.N = Gen.V8 m (outs m) c main_arg29 :=
  ((dat3 (atTc (Gen.V7 m (outs m))) c).arrAt_in 3 rfl cfg3.N).trans ((A_eq3 (atTc (Gen.V7 m (outs m))) c 3).trans (Gen.V8_of m (outs m) c main_arg29 (by decide)).symm)
theorem hF3_4 (c : Dev nD) : (dat3 (atTc (Gen.V7 m (outs m))) c).arrAt 4 cfg3.N = Gen.V8 m (outs m) c main_v81 :=
  ((dat3 (atTc (Gen.V7 m (outs m))) c).arrAt_in 4 rfl cfg3.N).trans ((A_eq3 (atTc (Gen.V7 m (outs m))) c 4).trans (Gen.V8_of m (outs m) c main_v81 (by decide)).symm)
theorem hF3_5 (c : Dev nD) : (dat3 (atTc (Gen.V7 m (outs m))) c).arrAt 5 cfg3.N = Gen.V8 m (outs m) c main_v82 :=
  (outs_8 m c).symm.trans (Function.update_self (β := fun b : DevRef τ sig => Buf (Elt F) ((c : Thread nD τ).1, b)) _ _ _).symm

/-- At region 3's exit each of its arrays holds what the pipeline leaves: an input's array is as entered, and the
    output's array `main_v82` is what `outs` names. -/
theorem hF3 (c : Dev nD) : ∀ w : Fin cfg3.W,
    (dat3 (atTc (Gen.V7 m (outs m))) c).arrAt w cfg3.N = atTc (Gen.V8 m (outs m)) c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c

/-- Every other buffer is as entered. -/
theorem hrest3 (c : Dev nD) : ∀ b, b ∉ Finset.univ.image (Pipeline.arrRef spec3) → atTc (Gen.V8 m (outs m)) c b = atTc (Gen.V7 m (outs m)) c b :=
  fun b hb => Gen.V8_of m (outs m) c b fun hmem =>
    hb (Finset.mem_image.mpr ⟨5, Finset.mem_univ _, (List.mem_singleton.mp hmem).symm⟩)

set_option backward.isDefEq.respectTransparency.types false in
/-- Region 3 over the thread state: entered from every unscoped buffer at the contents before it, left at the contents
    after it. Its arrays are split out of the unscoped buffers and put back at the exit contents; the generator
    register goes into the class invariant and out; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (Gen.V7 m (outs m))) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (Gen.V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (Gen.V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (Gen.V7 m (outs m)) c) (atTc (Gen.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.BitsRun.lean ====
import proofs.«108267_j14216341750214_1_alg».proof.Proof.BitsRegs
import proofs.«108267_j14216341750214_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## @main's run -/

/-- The launch element yields the pipeline library's share and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The last rest state owes nothing. -/
theorem hE4 (c : Dev nD) : E (F := F) 4 c ⊢ (iprop(∃ W, owes (c : Thread nD τ) (0 : CellTallies nD τ sig Unit) W) : sProp 𝕄) := by
  iintro ⟨-, HO⟩; iexact HO

set_option backward.isDefEq.respectTransparency.types false in
/-- @main, from memory `m` with zero counters: every weakly fair execution terminates, and every final memory has each
    unscoped buffer of each core at the last boundary's contents `V8 m (outs m)` — whatever `Q` follows from that. -/
theorem run_core (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = Gen.V8 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m) (reg2 m) (reg3 m))
    (fun c Q => by
      rewrite [main_chain c, Seg.run_eq_chain,
        show (Gen.segs m (outs m) 𝒱₀ L lv E () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Seg.pipes_host, Seg.pipes_region, Seg.pipes_nil]; decide) 0 (fun _ _ => rfl)
    (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (hE4 c)⟩)
    (hinit := ?_) (QY := fun c s => ∀ b ∈ Pipeline.ucRefs τ sig, s.mem ((c : Thread nD τ).1, b) = Gen.V8 m (outs m) c b)
    (hfin := fun c s' => ?_) (hQ := hQ)
  · -- the launch: on each core the unscoped buffers are held at the launch contents, the register at its launch
    -- state, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    iintro ⟨Hh, HSI⟩
    unfold StableHlo.held
    imodintro
    iapply (pointsTo_read_all (Pipeline.ucRefs τ sig) (fun b => ((c : Thread nD τ).1, b)) (Gen.V8 m (outs m) c) s')
    isplitl [Hh] <;> iassumption

/-- (a) @main's run, read at every unscoped buffer: each ends at the last boundary's contents. -/
theorem run (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V8 m (outs m) c b) :=
  run_core m ρ fun _ h => h

/-- (b) The frame: every argument array ends holding its launch contents — no host stretch writes an argument and no
    region may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_core m ρ fun s h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c),
     (h c _ (mem_uc main_arg9 (by decide))).trans (Gen.V8_main_arg9 m (outs m) c),
     (h c _ (mem_uc main_arg10 (by decide))).trans (Gen.V8_main_arg10 m (outs m) c),
     (h c _ (mem_uc main_arg11 (by decide))).trans (Gen.V8_main_arg11 m (outs m) c),
     (h c _ (mem_uc main_arg12 (by decide))).trans (Gen.V8_main_arg12 m (outs m) c),
     (h c _ (mem_uc main_arg13 (by decide))).trans (Gen.V8_main_arg13 m (outs m) c),
     (h c _ (mem_uc main_arg14 (by decide))).trans (Gen.V8_main_arg14 m (outs m) c),
     (h c _ (mem_uc main_arg15 (by decide))).trans (Gen.V8_main_arg15 m (outs m) c),
     (h c _ (mem_uc main_arg16 (by decide))).trans (Gen.V8_main_arg16 m (outs m) c),
     (h c _ (mem_uc main_arg17 (by decide))).trans (Gen.V8_main_arg17 m (outs m) c),
     (h c _ (mem_uc main_arg18 (by decide))).trans (Gen.V8_main_arg18 m (outs m) c),
     (h c _ (mem_uc main_arg19 (by decide))).trans (Gen.V8_main_arg19 m (outs m) c),
     (h c _ (mem_uc main_arg20 (by decide))).trans (Gen.V8_main_arg20 m (outs m) c),
     (h c _ (mem_uc main_arg21 (by decide))).trans (Gen.V8_main_arg21 m (outs m) c),
     (h c _ (mem_uc main_arg22 (by decide))).trans (Gen.V8_main_arg22 m (outs m) c),
     (h c _ (mem_uc main_arg23 (by decide))).trans (Gen.V8_main_arg23 m (outs m) c),
     (h c _ (mem_uc main_arg24 (by decide))).trans (Gen.V8_main_arg24 m (outs m) c),
     (h c _ (mem_uc main_arg25 (by decide))).trans (Gen.V8_main_arg25 m (outs m) c),
     (h c _ (mem_uc main_arg26 (by decide))).trans (Gen.V8_main_arg26 m (outs m) c),
     (h c _ (mem_uc main_arg27 (by decide))).trans (Gen.V8_main_arg27 m (outs m) c),
     (h c _ (mem_uc main_arg28 (by decide))).trans (Gen.V8_main_arg28 m (outs m) c),
     (h c _ (mem_uc main_arg29 (by decide))).trans (Gen.V8_main_arg29 m (outs m) c),
     (h c _ (mem_uc main_arg30 (by decide))).trans (Gen.V8_main_arg30 m (outs m) c)⟩

/-- (c) The result beside the frame: `main_v82` ends at the last boundary's contents, and every argument array at its
    launch contents. -/
theorem run_result (ρ : Dev nD → PrngReg) :
    θ_run defs (onTc (τ := τ) (main (F := F))) ⟨m, fun _ => 0, ρ⟩ (fun r => ∀ c : Dev nD,
      r.2.mem ((c.tc : Thread nD τ).loc main_v82) = Gen.V8 m (outs m) c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_core m ρ fun s h c =>
    ⟨h c _ (mem_uc main_v82 (by decide)),
     (h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c),
     (h c _ (mem_uc main_arg9 (by decide))).trans (Gen.V8_main_arg9 m (outs m) c),
     (h c _ (mem_uc main_arg10 (by decide))).trans (Gen.V8_main_arg10 m (outs m) c),
     (h c _ (mem_uc main_arg11 (by decide))).trans (Gen.V8_main_arg11 m (outs m) c),
     (h c _ (mem_uc main_arg12 (by decide))).trans (Gen.V8_main_arg12 m (outs m) c),
     (h c _ (mem_uc main_arg13 (by decide))).trans (Gen.V8_main_arg13 m (outs m) c),
     (h c _ (mem_uc main_arg14 (by decide))).trans (Gen.V8_main_arg14 m (outs m) c),
     (h c _ (mem_uc main_arg15 (by decide))).trans (Gen.V8_main_arg15 m (outs m) c),
     (h c _ (mem_uc main_arg16 (by decide))).trans (Gen.V8_main_arg16 m (outs m) c),
     (h c _ (mem_uc main_arg17 (by decide))).trans (Gen.V8_main_arg17 m (outs m) c),
     (h c _ (mem_uc main_arg18 (by decide))).trans (Gen.V8_main_arg18 m (outs m) c),
     (h c _ (mem_uc main_arg19 (by decide))).trans (Gen.V8_main_arg19 m (outs m) c),
     (h c _ (mem_uc main_arg20 (by decide))).trans (Gen.V8_main_arg20 m (outs m) c),
     (h c _ (mem_uc main_arg21 (by decide))).trans (Gen.V8_main_arg21 m (outs m) c),
     (h c _ (mem_uc main_arg22 (by decide))).trans (Gen.V8_main_arg22 m (outs m) c),
     (h c _ (mem_uc main_arg23 (by decide))).trans (Gen.V8_main_arg23 m (outs m) c),
     (h c _ (mem_uc main_arg24 (by decide))).trans (Gen.V8_main_arg24 m (outs m) c),
     (h c _ (mem_uc main_arg25 (by decide))).trans (Gen.V8_main_arg25 m (outs m) c),
     (h c _ (mem_uc main_arg26 (by decide))).trans (Gen.V8_main_arg26 m (outs m) c),
     (h c _ (mem_uc main_arg27 (by decide))).trans (Gen.V8_main_arg27 m (outs m) c),
     (h c _ (mem_uc main_arg28 (by decide))).trans (Gen.V8_main_arg28 m (outs m) c),
     (h c _ (mem_uc main_arg29 (by decide))).trans (Gen.V8_main_arg29 m (outs m) c),
     (h c _ (mem_uc main_arg30 (by decide))).trans (Gen.V8_main_arg30 m (outs m) c)⟩

end Cert.Kernel.Hand

end
-- ==== Proof.IdealHalves0.lean ====
import proofs.«108267_j14216341750214_1_alg».proof.Proof.Gen.KernelIdeal.Launch
import proofs.«108267_j14216341750214_1_alg».proof.Proof.Gen.KernelIdeal.Skeleton
import proofs.«108267_j14216341750214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S5000x64`: what every load and the store of a block of that shape goes through. -/
abbrev rect0_S5000x64 : Rect S5000x64 := Rect.unit (s := S5000x64) ![0, 0] S5000x64.size inb_S5000x64_S5000x64_0_0
/-- The whole rectangle of shape `S64x128`: what every load and the store of a block of that shape goes through. -/
abbrev rect0_S64x128 : Rect S64x128 := Rect.unit (s := S64x128) ![0, 0] S64x128.size inb_S64x128_S64x128_0_0
/-- The whole rectangle of shape `S1x128`: what every load and the store of a block of that shape goes through. -/
abbrev rect0_S1x128 : Rect S1x128 := Rect.unit (s := S1x128) ![0, 0] S1x128.size inb_S1x128_S1x128_0_0
/-- The whole rectangle of shape `S128x128`: what every load and the store of a block of that shape goes through. -/
abbrev rect0_S128x128 : Rect S128x128 := Rect.unit (s := S128x128) ![0, 0] S128x128.size inb_S128x128_S128x128_0_0
/-- The whole rectangle of shape `S5000x128`: what every load and the store of a block of that shape goes through. -/
abbrev rect0_S5000x128 : Rect S5000x128 := Rect.unit (s := S5000x128) ![0, 0] S5000x128.size inb_S5000x128_S5000x128_0_0

-- the contents of core `c`'s buffers when a region is entered: the parameter each region's half is stated at
variable (V : (c : Dev nD) → (b : Ref sig .tc) → Buf (Elt F) ((c : Thread nD τ).loc b))

/-! # Region 0: `cc0__gin_mlp_kernel` (pipeline 0), at the entry contents `V` -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The output window's staging buffer after the body, from the input windows' blocks: the one store, of the whole
    block, of the payload over what the loads read. -/
def out0_7 (x0 : Vec F S5000x64 .f32) (x1 : Vec F S64x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rect0_S5000x128, k0_pay1 (View.ld x0 rect0_S5000x64) (View.ld x1 rect0_S64x128) (View.ld x2 rect0_S1x128) (View.ld x3 rect0_S1x128) (View.ld x4 rect0_S1x128) (View.ld x5 rect0_S128x128) (View.ld x6 rect0_S1x128)⟩]

/-- The store is of the whole block, so it covers the buffer. -/
theorem cover0_7 (p0 : Vec F S5000x128 .f32) (y : S5000x128.Idx) :
    ∃ pc ∈ ([⟨rect0_S5000x128, p0⟩] : List (View.Piece (Elt F) S5000x128 .f32)), y ∈ pc.1.set :=
  View.cover_of_tiled [⟨rect0_S5000x128, p0⟩] S5000x128.size (by rfl) y

set_option maxHeartbeats 1000000 in
/-- The kernel body on whole staging memrefs, the inputs' at read contents `xW` and the output's at anything, runs to
    the continuation holding the inputs' as they were and the output's at `out0_7` of the inputs'. -/
theorem sound_kernel0 (c : Dev nD) (E : Set ℕ) (i : grid0.Coords) (arg1 : Memref sig .tc .vmem S5000x64 .f32) (harg1 : arg1.IsWhole) (arg2 : Memref sig .tc .vmem S64x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x64 .f32) (x1 : Vec F S64x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2 x3 x4 x5 x6)) -∗ K ⟨⟩))
      ⊢ wp frame (wpE (defs₀ (F := F)) Variants.none c none) E (cc0__gin_mlp_kernel i arg1 harg1 arg2 harg2 arg3 harg3 arg4 harg4 arg5 harg5 arg6 harg6 arg7 harg7 arg8 harg8) K := by
  simp only [cc0__gin_mlp_kernel_eq_skeleton]; unfold cc0__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-- The proof data of pipeline 0 on core `c`: the arrays as the region finds them (`V`); after the body at point
    `t` each input's buffer at its block and the output's at `out0_7` of the input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ (grid0.coords t) _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealHalves1.lean ====
import proofs.«108267_j14216341750214_1_alg».proof.Proof.Gen.KernelIdeal.Launch
import proofs.«108267_j14216341750214_1_alg».proof.Proof.Gen.KernelIdeal.Skeleton
import proofs.«108267_j14216341750214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S5000x128`: what every load and the store of a block of that shape goes through. -/
abbrev rect1_S5000x128 : Rect S5000x128 := Rect.unit (s := S5000x128) ![0, 0] S5000x128.size inb_S5000x128_S5000x128_0_0
/-- The whole rectangle of shape `S128x128`: what every load and the store of a block of that shape goes through. -/
abbrev rect1_S128x128 : Rect S128x128 := Rect.unit (s := S128x128) ![0, 0] S128x128.size inb_S128x128_S128x128_0_0
/-- The whole rectangle of shape `S1x128`: what every load and the store of a block of that shape goes through. -/
abbrev rect1_S1x128 : Rect S1x128 := Rect.unit (s := S1x128) ![0, 0] S1x128.size inb_S1x128_S1x128_0_0

-- the contents of core `c`'s buffers when a region is entered: the parameter each region's half is stated at
variable (V : (c : Dev nD) → (b : Ref sig .tc) → Buf (Elt F) ((c : Thread nD τ).loc b))

/-! # Region 1: `cc1__gin_mlp_kernel` (pipeline 1), at the entry contents `V` -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for any proof
    data whose array is `V`'s and whose body leaves the block in place: unfetched, the block index has not moved. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for any proof
    data whose array is `V`'s and whose body leaves the block in place: unfetched, the block index has not moved. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for any proof
    data whose array is `V`'s and whose body leaves the block in place: unfetched, the block index has not moved. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- The output window's staging buffer after the body, from the input windows' blocks: the one store, of the whole
    block, of the payload over what the loads read. -/
def out1_7 (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rect1_S5000x128, k1_pay1 (View.ld x0 rect1_S5000x128) (View.ld x1 rect1_S128x128) (View.ld x2 rect1_S1x128) (View.ld x3 rect1_S1x128) (View.ld x4 rect1_S1x128) (View.ld x5 rect1_S128x128) (View.ld x6 rect1_S1x128)⟩]

/-- The store is of the whole block, so it covers the buffer. -/
theorem cover1_7 (p0 : Vec F S5000x128 .f32) (y : S5000x128.Idx) :
    ∃ pc ∈ ([⟨rect1_S5000x128, p0⟩] : List (View.Piece (Elt F) S5000x128 .f32)), y ∈ pc.1.set :=
  View.cover_of_tiled [⟨rect1_S5000x128, p0⟩] S5000x128.size (by rfl) y

set_option maxHeartbeats 1000000 in
/-- The kernel body on whole staging memrefs, the inputs' at read contents `xW` and the output's at anything, runs to
    the continuation holding the inputs' as they were and the output's at `out1_7` of the inputs'. -/
theorem sound_kernel1 (c : Dev nD) (E : Set ℕ) (i : grid1.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6)) -∗ K ⟨⟩))
      ⊢ wp frame (wpE (defs₀ (F := F)) Variants.none c none) E (cc1__gin_mlp_kernel i arg1 harg1 arg2 harg2 arg3 harg3 arg4 harg4 arg5 harg5 arg6 harg6 arg7 harg7 arg8 harg8) K := by
  simp only [cc1__gin_mlp_kernel_eq_skeleton]; unfold cc1__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover1_7 _)

/-- The proof data of pipeline 1 on core `c`: the arrays as the region finds them (`V`); after the body at point
    `t` each input's buffer at its block and the output's at `out1_7` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t))

/-- The body at any point: the inputs' memrefs hold their blocks, so `sound_kernel1` applies; the invariant and the
    core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.IdealHalves2.lean ====
import proofs.«108267_j14216341750214_1_alg».proof.Proof.Gen.KernelIdeal.Launch
import proofs.«108267_j14216341750214_1_alg».proof.Proof.Gen.KernelIdeal.Skeleton
import proofs.«108267_j14216341750214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S5000x128`: what every load and the store of a block of that shape goes through. -/
abbrev rect2_S5000x128 : Rect S5000x128 := Rect.unit (s := S5000x128) ![0, 0] S5000x128.size inb_S5000x128_S5000x128_0_0
/-- The whole rectangle of shape `S128x128`: what every load and the store of a block of that shape goes through. -/
abbrev rect2_S128x128 : Rect S128x128 := Rect.unit (s := S128x128) ![0, 0] S128x128.size inb_S128x128_S128x128_0_0
/-- The whole rectangle of shape `S1x128`: what every load and the store of a block of that shape goes through. -/
abbrev rect2_S1x128 : Rect S1x128 := Rect.unit (s := S1x128) ![0, 0] S1x128.size inb_S1x128_S1x128_0_0

-- the contents of core `c`'s buffers when a region is entered: the parameter each region's half is stated at
variable (V : (c : Dev nD) → (b : Ref sig .tc) → Buf (Elt F) ((c : Thread nD τ).loc b))

/-! # Region 2: `cc2__gin_mlp_kernel` (pipeline 2), at the entry contents `V` -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for any proof
    data whose array is `V`'s and whose body leaves the block in place: unfetched, the block index has not moved. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for any proof
    data whose array is `V`'s and whose body leaves the block in place: unfetched, the block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for any proof
    data whose array is `V`'s and whose body leaves the block in place: unfetched, the block index has not moved. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for any proof
    data whose array is `V`'s and whose body leaves the block in place: unfetched, the block index has not moved. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for any proof
    data whose array is `V`'s and whose body leaves the block in place: unfetched, the block index has not moved. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for any proof
    data whose array is `V`'s and whose body leaves the block in place: unfetched, the block index has not moved. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- The output window's staging buffer after the body, from the input windows' blocks: the one store, of the whole
    block, of the payload over what the loads read. -/
def out2_7 (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) : Vec F S5000x128 .f32 :=
  View.canon [⟨rect2_S5000x128, k2_pay1 (View.ld x0 rect2_S5000x128) (View.ld x1 rect2_S128x128) (View.ld x2 rect2_S1x128) (View.ld x3 rect2_S1x128) (View.ld x4 rect2_S1x128) (View.ld x5 rect2_S128x128) (View.ld x6 rect2_S1x128)⟩]

/-- The store is of the whole block, so it covers the buffer. -/
theorem cover2_7 (p0 : Vec F S5000x128 .f32) (y : S5000x128.Idx) :
    ∃ pc ∈ ([⟨rect2_S5000x128, p0⟩] : List (View.Piece (Elt F) S5000x128 .f32)), y ∈ pc.1.set :=
  View.cover_of_tiled [⟨rect2_S5000x128, p0⟩] S5000x128.size (by rfl) y

set_option maxHeartbeats 1000000 in
/-- The kernel body on whole staging memrefs, the inputs' at read contents `xW` and the output's at anything, runs to
    the continuation holding the inputs' as they were and the output's at `out2_7` of the inputs'. -/
theorem sound_kernel2 (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S5000x128 .f32) (harg8 : arg8.IsWhole)
    (x0 : Vec F S5000x128 .f32) (x1 : Vec F S128x128 .f32) (x2 : Vec F S1x128 .f32) (x3 : Vec F S1x128 .f32) (x4 : Vec F S1x128 .f32) (x5 : Vec F S128x128 .f32) (x6 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__gin_mlp_kernel i arg1 harg1 arg2 harg2 arg3 harg3 arg4 harg4 arg5 harg5 arg6 harg6 arg7 harg7 arg8 harg8) K := by
  simp only [cc2__gin_mlp_kernel_eq_skeleton]; unfold cc2__gin_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-- The proof data of pipeline 2 on core `c`: the arrays as the region finds them (`V`); after the body at point
    `t` each input's buffer at its block and the output's at `out2_7` of the input blocks; the invariant the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks, so `sound_kernel2` applies; the invariant and the
    core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.IdealHalves3.lean ====
import proofs.«108267_j14216341750214_1_alg».proof.Proof.Gen.KernelIdeal.Launch
import proofs.«108267_j14216341750214_1_alg».proof.Proof.Gen.KernelIdeal.Skeleton
import proofs.«108267_j14216341750214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole rectangle of shape `S512x384`: what every load and the store of a block of that shape goes through. -/
abbrev rect3_S512x384 : Rect S512x384 := Rect.unit (s := S512x384) ![0, 0] S512x384.size inb_S512x384_S512x384_0_0
/-- The whole rectangle of shape `S384x384`: what every load and the store of a block of that shape goes through. -/
abbrev rect3_S384x384 : Rect S384x384 := Rect.unit (s := S384x384) ![0, 0] S384x384.size inb_S384x384_S384x384_0_0
/-- The whole rectangle of shape `S1x384`: what every load and the store of a block of that shape goes through. -/
abbrev rect3_S1x384 : Rect S1x384 := Rect.unit (s := S1x384) ![0, 0] S1x384.size inb_S1x384_S1x384_0_0
/-- The whole rectangle of shape `S384x10`: what every load and the store of a block of that shape goes through. -/
abbrev rect3_S384x10 : Rect S384x10 := Rect.unit (s := S384x10) ![0, 0] S384x10.size inb_S384x10_S384x10_0_0
/-- The whole rectangle of shape `S1x10`: what every load and the store of a block of that shape goes through. -/
abbrev rect3_S1x10 : Rect S1x10 := Rect.unit (s := S1x10) ![0, 0] S1x10.size inb_S1x10_S1x10_0_0
/-- The whole rectangle of shape `S512x10`: what every load and the store of a block of that shape goes through. -/
abbrev rect3_S512x10 : Rect S512x10 := Rect.unit (s := S512x10) ![0, 0] S512x10.size inb_S512x10_S512x10_0_0

-- the contents of core `c`'s buffers when a region is entered: the parameter each region's half is stated at
variable (V : (c : Dev nD) → (b : Ref sig .tc) → Buf (Elt F) ((c : Thread nD τ).loc b))

/-! # Region 3: `cc3__final_kernel` (pipeline 3), at the entry contents `V` -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place: unfetched, the block index has not moved. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for any proof
    data whose array is `V`'s and whose body leaves the block in place: unfetched, the block index has not moved. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for any proof
    data whose array is `V`'s and whose body leaves the block in place: unfetched, the block index has not moved. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for any proof
    data whose array is `V`'s and whose body leaves the block in place: unfetched, the block index has not moved. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for any proof
    data whose array is `V`'s and whose body leaves the block in place: unfetched, the block index has not moved. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The output window's staging buffer after the body, from the input windows' blocks: the one store, of the whole
    block, of the payload over what the loads read. -/
def out3_5 (x0 : Vec F S512x384 .f32) (x1 : Vec F S384x384 .f32) (x2 : Vec F S1x384 .f32) (x3 : Vec F S384x10 .f32) (x4 : Vec F S1x10 .f32) : Vec F S512x10 .f32 :=
  View.canon [⟨rect3_S512x10, k3_pay1 (View.ld x0 rect3_S512x384) (View.ld x1 rect3_S384x384) (View.ld x2 rect3_S1x384) (View.ld x3 rect3_S384x10) (View.ld x4 rect3_S1x10)⟩]

/-- The store is of the whole block, so it covers the buffer. -/
theorem cover3_5 (p0 : Vec F S512x10 .f32) (y : S512x10.Idx) :
    ∃ pc ∈ ([⟨rect3_S512x10, p0⟩] : List (View.Piece (Elt F) S512x10 .f32)), y ∈ pc.1.set :=
  View.cover_of_tiled [⟨rect3_S512x10, p0⟩] S512x10.size (by rfl) y

set_option maxHeartbeats 1000000 in
/-- The kernel body on whole staging memrefs, the inputs' at read contents `xW` and the output's at anything, runs to
    the continuation holding the inputs' as they were and the output's at `out3_5` of the inputs'. -/
theorem sound_kernel3 (c : Dev nD) (E : Set ℕ) (i : grid3.Coords) (arg1 : Memref sig .tc .vmem S512x384 .f32) (harg1 : arg1.IsWhole) (arg2 : Memref sig .tc .vmem S384x384 .f32) (harg2 : arg2.IsWhole) (arg3 : Memref sig .tc .vmem S1x384 .f32) (harg3 : arg3.IsWhole) (arg4 : Memref sig .tc .vmem S384x10 .f32) (harg4 : arg4.IsWhole) (arg5 : Memref sig .tc .vmem S1x10 .f32) (harg5 : arg5.IsWhole) (arg6 : Memref sig .tc .vmem S512x10 .f32) (harg6 : arg6.IsWhole)
    (x0 : Vec F S512x384 .f32) (x1 : Vec F S384x384 .f32) (x2 : Vec F S1x384 .f32) (x3 : Vec F S384x10 .f32) (x4 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__final_kernel i arg1 harg1 arg2 harg2 arg3 harg3 arg4 harg4 arg5 harg5 arg6 harg6) K := by
  simp only [cc3__final_kernel_eq_skeleton]; unfold cc3__final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them (`V`); after the body at point
    `t` each input's buffer at its block and the output's at `out3_5` of the input blocks; the invariant the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so `sound_kernel3` applies; the invariant and the
    core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.IdealHalves.lean ====
import proofs.«108267_j14216341750214_1_alg».proof.Proof.IdealHalves0
import proofs.«108267_j14216341750214_1_alg».proof.Proof.IdealHalves1
import proofs.«108267_j14216341750214_1_alg».proof.Proof.IdealHalves2
import proofs.«108267_j14216341750214_1_alg».proof.Proof.IdealHalves3
-- ==== Proof.IdealRegs.lean ====
import proofs.«108267_j14216341750214_1_alg».proof.Proof.IdealHalves
import proofs.«108267_j14216341750214_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- A valuation of each core's unscoped buffers, read at the TensorCore's references: what a region's half takes as
    its entry contents. -/
abbrev atTc (W : Dev nD → Valuation τ sig (Elt F)) : (c : Dev nD) → (b : Ref sig .tc) → Buf (Elt F) ((c : Thread nD τ).loc b) :=
  fun c b => W c b

/-! ## What the regions leave, stage by stage

Region K's output array after its run is the fold of its write-backs (`Dat.arrAt … N`) from the contents it was
entered at; those contents read only what EARLIER regions left, so the family is built one region at a time. -/

/-- What region 0 leaves in `main_v25`. -/
def left0 (c : Dev nD) : Buf (Elt F) ((c : Thread nD τ).loc main_v25) := (dat0 (atTc (Gen.V1 m)) c).arrAt 7 cfg0.N
/-- The family with region 0's output in place (anything elsewhere: the launch contents). -/
def outs1 : Outs (F := F) := fun _ => Function.update (fun r c => m ((c : Thread nD τ).loc r)) main_v25 (left0 m)
/-- What region 1 leaves in `main_v47`. -/
def left1 (c : Dev nD) : Buf (Elt F) ((c : Thread nD τ).loc main_v47) := (dat1 (atTc (Gen.V3 m (outs1 m))) c).arrAt 7 cfg1.N
def outs2 : Outs (F := F) := fun _ => Function.update (outs1 m 0) main_v47 (left1 m)
/-- What region 2 leaves in `main_v69`. -/
def left2 (c : Dev nD) : Buf (Elt F) ((c : Thread nD τ).loc main_v69) := (dat2 (atTc (Gen.V5 m (outs2 m))) c).arrAt 7 cfg2.N
def outs3 : Outs (F := F) := fun _ => Function.update (outs2 m 0) main_v69 (left2 m)
/-- What region 3 leaves in `main_v82`. -/
def left3 (c : Dev nD) : Buf (Elt F) ((c : Thread nD τ).loc main_v82) := (dat3 (atTc (Gen.V7 m (outs3 m))) c).arrAt 5 cfg3.N
/-- What the four regions leave in their output arrays. -/
def outs : Outs (F := F) := fun _ => Function.update (outs3 m 0) main_v82 (left3 m)

theorem outs1_v25 (J : ℕ) : outs1 m J main_v25 = left0 m := Function.update_self _ _ _
theorem outs2_v25 (J : ℕ) : outs2 m J main_v25 = left0 m := (Function.update_of_ne (by decide) _ _).trans (outs1_v25 m 0)
theorem outs2_v47 (J : ℕ) : outs2 m J main_v47 = left1 m := Function.update_self _ _ _
theorem outs3_v25 (J : ℕ) : outs3 m J main_v25 = left0 m := (Function.update_of_ne (by decide) _ _).trans (outs2_v25 m 0)
theorem outs3_v47 (J : ℕ) : outs3 m J main_v47 = left1 m := (Function.update_of_ne (by decide) _ _).trans (outs2_v47 m 0)
theorem outs3_v69 (J : ℕ) : outs3 m J main_v69 = left2 m := Function.update_self _ _ _
theorem outs_v25 (J : ℕ) : outs m J main_v25 = left0 m := (Function.update_of_ne (by decide) _ _).trans (outs3_v25 m 0)
theorem outs_v47 (J : ℕ) : outs m J main_v47 = left1 m := (Function.update_of_ne (by decide) _ _).trans (outs3_v47 m 0)
theorem outs_v69 (J : ℕ) : outs m J main_v69 = left2 m := (Function.update_of_ne (by decide) _ _).trans (outs3_v69 m 0)
theorem outs_v82 (J : ℕ) : outs m J main_v82 = left3 m := Function.update_self _ _ _

/-- The contents before region 1 read of `outs` only what region 0 left; -/
theorem V3_congr (o o' : Outs (F := F)) (h2 : ∀ c, o 2 main_v25 c = o' 2 main_v25 c) : Gen.V3 m o = Gen.V3 m o' := by
  funext c; unfold Gen.V3 Gen.V2; rw [h2 c]
/-- those before region 2, what regions 0 and 1 left; -/
theorem V5_congr (o o' : Outs (F := F)) (h2 : ∀ c, o 2 main_v25 c = o' 2 main_v25 c) (h4 : ∀ c, o 4 main_v47 c = o' 4 main_v47 c) :
    Gen.V5 m o = Gen.V5 m o' := by
  funext c; unfold Gen.V5 Gen.V4; rw [V3_congr m o o' h2, h4 c]
/-- those before region 3, what regions 0, 1 and 2 left. -/
theorem V7_congr (o o' : Outs (F := F)) (h2 : ∀ c, o 2 main_v25 c = o' 2 main_v25 c) (h4 : ∀ c, o 4 main_v47 c = o' 4 main_v47 c)
    (h6 : ∀ c, o 6 main_v69 c = o' 6 main_v69 c) : Gen.V7 m o = Gen.V7 m o' := by
  funext c; unfold Gen.V7 Gen.V6; rw [V5_congr m o o' h2 h4, h6 c]

/-- Region 0's output array after its run: the fold of its write-backs from the contents after `hostOps0`. -/
theorem outs_2 (c : Dev nD) : outs m 2 main_v25 c = (dat0 (atTc (Gen.V1 m)) c).arrAt 7 cfg0.N := congrFun (outs_v25 m 2) c
/-- Region 1's, from the contents after `hostOps1`. -/
theorem outs_4 (c : Dev nD) : outs m 4 main_v47 c = (dat1 (atTc (Gen.V3 m (outs m))) c).arrAt 7 cfg1.N := by
  rw [V3_congr m (outs m) (outs1 m) fun c => by rw [outs_v25, outs1_v25]]; exact congrFun (outs_v47 m 4) c
/-- Region 2's, from the contents after `hostOps2`. -/
theorem outs_6 (c : Dev nD) : outs m 6 main_v69 c = (dat2 (atTc (Gen.V5 m (outs m))) c).arrAt 7 cfg2.N := by
  rw [V5_congr m (outs m) (outs2 m) (fun c => by rw [outs_v25, outs2_v25]) fun c => by rw [outs_v47, outs2_v47]]
  exact congrFun (outs_v69 m 6) c
/-- Region 3's, from the contents after `hostOps3`. -/
theorem outs_8 (c : Dev nD) : outs m 8 main_v82 c = (dat3 (atTc (Gen.V7 m (outs m))) c).arrAt 5 cfg3.N := by
  rw [V7_congr m (outs m) (outs3 m) (fun c => by rw [outs_v25, outs3_v25]) (fun c => by rw [outs_v47, outs3_v47])
    fun c => by rw [outs_v69, outs3_v69]]
  exact congrFun (outs_v82 m 8) c

/-! ## The proof data family and the thread state -/

/-- Every pipeline's proof data, each at its region's entry contents. -/
def pdats : (p : Fin 4) → (c : Dev nD) → Dat τ (Elt F) Unit ℕ (UR sig nD τ) ℕ (cfgs p) c
  | ⟨0, _⟩ => fun c => dat0 (atTc (Gen.V1 m)) c
  | ⟨1, _⟩ => fun c => dat1 (atTc (Gen.V3 m (outs m))) c
  | ⟨2, _⟩ => fun c => dat2 (atTc (Gen.V5 m (outs m))) c
  | ⟨3, _⟩ => fun c => dat3 (atTc (Gen.V7 m (outs m))) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`,
    at nothing. -/
abbrev R (c : Dev nD) : sProp 𝕄 := iprop((∃ r, prngReg c r) ∗ ∃ W, owes (c : Thread nD τ) (0 : CellTallies nD τ sig Unit) W)
/-- The rest state at every boundary. -/
abbrev E : Fin 5 → Dev nD → sProp 𝕄 := fun _ c => R c

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## Region 0 as a segment -/

theorem hF0_0 (c : Dev nD) : (dat0 (atTc (Gen.V1 m)) c).arrAt 0 cfg0.N = Gen.V2 m (outs m) c main_v14 :=
  ((dat0 (atTc (Gen.V1 m)) c).arrAt_in 0 rfl cfg0.N).trans ((A_eq0 (atTc (Gen.V1 m)) c 0).trans (Gen.V2_of m (outs m) c main_v14 (by decide)).symm)
theorem hF0_1 (c : Dev nD) : (dat0 (atTc (Gen.V1 m)) c).arrAt 1 cfg0.N = Gen.V2 m (outs m) c main_arg3 :=
  ((dat0 (atTc (Gen.V1 m)) c).arrAt_in 1 rfl cfg0.N).trans ((A_eq0 (atTc (Gen.V1 m)) c 1).trans (Gen.V2_of m (outs m) c main_arg3 (by decide)).symm)
theorem hF0_2 (c : Dev nD) : (dat0 (atTc (Gen.V1 m)) c).arrAt 2 cfg0.N = Gen.V2 m (outs m) c main_v21 :=
  ((dat0 (atTc (Gen.V1 m)) c).arrAt_in 2 rfl cfg0.N).trans ((A_eq0 (atTc (Gen.V1 m)) c 2).trans (Gen.V2_of m (outs m) c main_v21 (by decide)).symm)
theorem hF0_3 (c : Dev nD) : (dat0 (atTc (Gen.V1 m)) c).arrAt 3 cfg0.N = Gen.V2 m (outs m) c main_v22 :=
  ((dat0 (atTc (Gen.V1 m)) c).arrAt_in 3 rfl cfg0.N).trans ((A_eq0 (atTc (Gen.V1 m)) c 3).trans (Gen.V2_of m (outs m) c main_v22 (by decide)).symm)
theorem hF0_4 (c : Dev nD) : (dat0 (atTc (Gen.V1 m)) c).arrAt 4 cfg0.N = Gen.V2 m (outs m) c main_v23 :=
  ((dat0 (atTc (Gen.V1 m)) c).arrAt_in 4 rfl cfg0.N).trans ((A_eq0 (atTc (Gen.V1 m)) c 4).trans (Gen.V2_of m (outs m) c main_v23 (by decide)).symm)
theorem hF0_5 (c : Dev nD) : (dat0 (atTc (Gen.V1 m)) c).arrAt 5 cfg0.N = Gen.V2 m (outs m) c main_arg9 :=
  ((dat0 (atTc (Gen.V1 m)) c).arrAt_in 5 rfl cfg0.N).trans ((A_eq0 (atTc (Gen.V1 m)) c 5).trans (Gen.V2_of m (outs m) c main_arg9 (by decide)).symm)
theorem hF0_6 (c : Dev nD) : (dat0 (atTc (Gen.V1 m)) c).arrAt 6 cfg0.N = Gen.V2 m (outs m) c main_v24 :=
  ((dat0 (atTc (Gen.V1 m)) c).arrAt_in 6 rfl cfg0.N).trans ((A_eq0 (atTc (Gen.V1 m)) c 6).trans (Gen.V2_of m (outs m) c main_v24 (by decide)).symm)
theorem hF0_7 (c : Dev nD) : (dat0 (atTc (Gen.V1 m)) c).arrAt 7 cfg0.N = Gen.V2 m (outs m) c main_v25 :=
  (outs_2 m c).symm.trans (Function.update_self (β := fun b : DevRef τ sig => Buf (Elt F) ((c : Thread nD τ).1, b)) _ _ _).symm

/-- At region 0's exit each of its arrays holds what the pipeline leaves: an input's array is as entered, and the
    output's array `main_v25` is what `outs` names. -/
theorem hF0 (c : Dev nD) : ∀ w : Fin cfg0.W,
    (dat0 (atTc (Gen.V1 m)) c).arrAt w cfg0.N = atTc (Gen.V2 m (outs m)) c (Pipeline.arrRef spec0 w)
  | ⟨0, _⟩ => hF0_0 m c
  | ⟨1, _⟩ => hF0_1 m c
  | ⟨2, _⟩ => hF0_2 m c
  | ⟨3, _⟩ => hF0_3 m c
  | ⟨4, _⟩ => hF0_4 m c
  | ⟨5, _⟩ => hF0_5 m c
  | ⟨6, _⟩ => hF0_6 m c
  | ⟨7, _⟩ => hF0_7 m c

/-- Every other buffer is as entered. -/
theorem hrest0 (c : Dev nD) : ∀ b, b ∉ Finset.univ.image (Pipeline.arrRef spec0) → atTc (Gen.V2 m (outs m)) c b = atTc (Gen.V1 m) c b :=
  fun b hb => Gen.V2_of m (outs m) c b fun hmem =>
    hb (Finset.mem_image.mpr ⟨7, Finset.mem_univ _, (List.mem_singleton.mp hmem).symm⟩)

set_option backward.isDefEq.respectTransparency.types false in
/-- Region 0 over the thread state: entered from every unscoped buffer at the contents before it, left at the contents
    after it. Its arrays are split out of the unscoped buffers and put back at the exit contents; the generator
    register goes into the class invariant and out; nothing is owed; the kernel has no semaphore of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (Gen.V1 m)) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (atTc (Gen.V1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (Gen.V1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (Gen.V1 m) c) (atTc (Gen.V2 m (outs m)) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 1 as a segment -/

theorem hF1_0 (c : Dev nD) : (dat1 (atTc (Gen.V3 m (outs m))) c).arrAt 0 cfg1.N = Gen.V4 m (outs m) c main_v36 :=
  ((dat1 (atTc (Gen.V3 m (outs m))) c).arrAt_in 0 rfl cfg1.N).trans ((A_eq1 (atTc (Gen.V3 m (outs m))) c 0).trans (Gen.V4_of m (outs m) c main_v36 (by decide)).symm)
theorem hF1_1 (c : Dev nD) : (dat1 (atTc (Gen.V3 m (outs m))) c).arrAt 1 cfg1.N = Gen.V4 m (outs m) c main_arg11 :=
  ((dat1 (atTc (Gen.V3 m (outs m))) c).arrAt_in 1 rfl cfg1.N).trans ((A_eq1 (atTc (Gen.V3 m (outs m))) c 1).trans (Gen.V4_of m (outs m) c main_arg11 (by decide)).symm)
theorem hF1_2 (c : Dev nD) : (dat1 (atTc (Gen.V3 m (outs m))) c).arrAt 2 cfg1.N = Gen.V4 m (outs m) c main_v43 :=
  ((dat1 (atTc (Gen.V3 m (outs m))) c).arrAt_in 2 rfl cfg1.N).trans ((A_eq1 (atTc (Gen.V3 m (outs m))) c 2).trans (Gen.V4_of m (outs m) c main_v43 (by decide)).symm)
theorem hF1_3 (c : Dev nD) : (dat1 (atTc (Gen.V3 m (outs m))) c).arrAt 3 cfg1.N = Gen.V4 m (outs m) c main_v44 :=
  ((dat1 (atTc (Gen.V3 m (outs m))) c).arrAt_in 3 rfl cfg1.N).trans ((A_eq1 (atTc (Gen.V3 m (outs m))) c 3).trans (Gen.V4_of m (outs m) c main_v44 (by decide)).symm)
theorem hF1_4 (c : Dev nD) : (dat1 (atTc (Gen.V3 m (outs m))) c).arrAt 4 cfg1.N = Gen.V4 m (outs m) c main_v45 :=
  ((dat1 (atTc (Gen.V3 m (outs m))) c).arrAt_in 4 rfl cfg1.N).trans ((A_eq1 (atTc (Gen.V3 m (outs m))) c 4).trans (Gen.V4_of m (outs m) c main_v45 (by decide)).symm)
theorem hF1_5 (c : Dev nD) : (dat1 (atTc (Gen.V3 m (outs m))) c).arrAt 5 cfg1.N = Gen.V4 m (outs m) c main_arg17 :=
  ((dat1 (atTc (Gen.V3 m (outs m))) c).arrAt_in 5 rfl cfg1.N).trans ((A_eq1 (atTc (Gen.V3 m (outs m))) c 5).trans (Gen.V4_of m (outs m) c main_arg17 (by decide)).symm)
theorem hF1_6 (c : Dev nD) : (dat1 (atTc (Gen.V3 m (outs m))) c).arrAt 6 cfg1.N = Gen.V4 m (outs m) c main_v46 :=
  ((dat1 (atTc (Gen.V3 m (outs m))) c).arrAt_in 6 rfl cfg1.N).trans ((A_eq1 (atTc (Gen.V3 m (outs m))) c 6).trans (Gen.V4_of m (outs m) c main_v46 (by decide)).symm)
theorem hF1_7 (c : Dev nD) : (dat1 (atTc (Gen.V3 m (outs m))) c).arrAt 7 cfg1.N = Gen.V4 m (outs m) c main_v47 :=
  (outs_4 m c).symm.trans (Function.update_self (β := fun b : DevRef τ sig => Buf (Elt F) ((c : Thread nD τ).1, b)) _ _ _).symm

/-- At region 1's exit each of its arrays holds what the pipeline leaves: an input's array is as entered, and the
    output's array `main_v47` is what `outs` names. -/
theorem hF1 (c : Dev nD) : ∀ w : Fin cfg1.W,
    (dat1 (atTc (Gen.V3 m (outs m))) c).arrAt w cfg1.N = atTc (Gen.V4 m (outs m)) c (Pipeline.arrRef spec1 w)
  | ⟨0, _⟩ => hF1_0 m c
  | ⟨1, _⟩ => hF1_1 m c
  | ⟨2, _⟩ => hF1_2 m c
  | ⟨3, _⟩ => hF1_3 m c
  | ⟨4, _⟩ => hF1_4 m c
  | ⟨5, _⟩ => hF1_5 m c
  | ⟨6, _⟩ => hF1_6 m c
  | ⟨7, _⟩ => hF1_7 m c

/-- Every other buffer is as entered. -/
theorem hrest1 (c : Dev nD) : ∀ b, b ∉ Finset.univ.image (Pipeline.arrRef spec1) → atTc (Gen.V4 m (outs m)) c b = atTc (Gen.V3 m (outs m)) c b :=
  fun b hb => Gen.V4_of m (outs m) c b fun hmem =>
    hb (Finset.mem_image.mpr ⟨7, Finset.mem_univ _, (List.mem_singleton.mp hmem).symm⟩)

set_option backward.isDefEq.respectTransparency.types false in
/-- Region 1 over the thread state: entered from every unscoped buffer at the contents before it, left at the contents
    after it. Its arrays are split out of the unscoped buffers and put back at the exit contents; the generator
    register goes into the class invariant and out; nothing is owed; the kernel has no semaphore of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (Gen.V3 m (outs m))) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(StableHlo.held (c : Thread nD τ) (Pipeline.ucRefs τ sig) (Gen.V4 m (outs m) c) ∗ R c)
  X c := iprop(∃ r, prngReg c r)
  Y c := iprop(∃ r, prngReg c r)
  Z c := Pipeline.unscopedRest (Ix := Unit) (Name := ℕ) (U := UR sig nD τ) (Lvl := ℕ) spec1 c (atTc (Gen.V3 m (outs m)) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (Gen.V3 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (Gen.V3 m (outs m)) c) (atTc (Gen.V4 m (outs m)) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 2 as a segment -/

theorem hF2_0 (c : Dev nD) : (dat2 (atTc (Gen.V5 m (outs m))) c).arrAt 0 cfg2.N = Gen.V6 m (outs m) c main_v58 :=
  ((dat2 (atTc (Gen.V5 m (outs m))) c).arrAt_in 0 rfl cfg2.N).trans ((A_eq2 (atTc (Gen.V5 m (outs m))) c 0).trans (Gen.V6_of m (outs m) c main_v58 (by decide)).symm)
theorem hF2_1 (c : Dev nD) : (dat2 (atTc (Gen.V5 m (outs m))) c).arrAt 1 cfg2.N = Gen.V6 m (outs m) c main_arg19 :=
  ((dat2 (atTc (Gen.V5 m (outs m))) c).arrAt_in 1 rfl cfg2.N).trans ((A_eq2 (atTc (Gen.V5 m (outs m))) c 1).trans (Gen.V6_of m (outs m) c main_arg19 (by decide)).symm)
theorem hF2_2 (c : Dev nD) : (dat2 (atTc (Gen.V5 m (outs m))) c).arrAt 2 cfg2.N = Gen.V6 m (outs m) c main_v65 :=
  ((dat2 (atTc (Gen.V5 m (outs m))) c).arrAt_in 2 rfl cfg2.N).trans ((A_eq2 (atTc (Gen.V5 m (outs m))) c 2).trans (Gen.V6_of m (outs m) c main_v65 (by decide)).symm)
theorem hF2_3 (c : Dev nD) : (dat2 (atTc (Gen.V5 m (outs m))) c).arrAt 3 cfg2.N = Gen.V6 m (outs m) c main_v66 :=
  ((dat2 (atTc (Gen.V5 m (outs m))) c).arrAt_in 3 rfl cfg2.N).trans ((A_eq2 (atTc (Gen.V5 m (outs m))) c 3).trans (Gen.V6_of m (outs m) c main_v66 (by decide)).symm)
theorem hF2_4 (c : Dev nD) : (dat2 (atTc (Gen.V5 m (outs m))) c).arrAt 4 cfg2.N = Gen.V6 m (outs m) c main_v67 :=
  ((dat2 (atTc (Gen.V5 m (outs m))) c).arrAt_in 4 rfl cfg2.N).trans ((A_eq2 (atTc (Gen.V5 m (outs m))) c 4).trans (Gen.V6_of m (outs m) c main_v67 (by decide)).symm)
theorem hF2_5 (c : Dev nD) : (dat2 (atTc (Gen.V5 m (outs m))) c).arrAt 5 cfg2.N = Gen.V6 m (outs m) c main_arg25 :=
  ((dat2 (atTc (Gen.V5 m (outs m))) c).arrAt_in 5 rfl cfg2.N).trans ((A_eq2 (atTc (Gen.V5 m (outs m))) c 5).trans (Gen.V6_of m (outs m) c main_arg25 (by decide)).symm)
theorem hF2_6 (c : Dev nD) : (dat2 (atTc (Gen.V5 m (outs m))) c).arrAt 6 cfg2.N = Gen.V6 m (outs m) c main_v68 :=
  ((dat2 (atTc (Gen.V5 m (outs m))) c).arrAt_in 6 rfl cfg2.N).trans ((A_eq2 (atTc (Gen.V5 m (outs m))) c 6).trans (Gen.V6_of m (outs m) c main_v68 (by decide)).symm)
theorem hF2_7 (c : Dev nD) : (dat2 (atTc (Gen.V5 m (outs m))) c).arrAt 7 cfg2.N = Gen.V6 m (outs m) c main_v69 :=
  (outs_6 m c).symm.trans (Function.update_self (β := fun b : DevRef τ sig => Buf (Elt F) ((c : Thread nD τ).1, b)) _ _ _).symm

/-- At region 2's exit each of its arrays holds what the pipeline leaves: an input's array is as entered, and the
    output's array `main_v69` is what `outs` names. -/
theorem hF2 (c : Dev nD) : ∀ w : Fin cfg2.W,
    (dat2 (atTc (Gen.V5 m (outs m))) c).arrAt w cfg2.N = atTc (Gen.V6 m (outs m)) c (Pipeline.arrRef spec2 w)
  | ⟨0, _⟩ => hF2_0 m c
  | ⟨1, _⟩ => hF2_1 m c
  | ⟨2, _⟩ => hF2_2 m c
  | ⟨3, _⟩ => hF2_3 m c
  | ⟨4, _⟩ => hF2_4 m c
  | ⟨5, _⟩ => hF2_5 m c
  | ⟨6, _⟩ => hF2_6 m c
  | ⟨7, _⟩ => hF2_7 m c

/-- Every other buffer is as entered. -/
theorem hrest2 (c : Dev nD) : ∀ b, b ∉ Finset.univ.image (Pipeline.arrRef spec2) → atTc (Gen.V6 m (outs m)) c b = atTc (Gen.V5 m (outs m)) c b :=
  fun b hb => Gen.V6_of m (outs m) c b fun hmem =>
    hb (Finset.mem_image.mpr ⟨7, Finset.mem_univ _, (List.mem_singleton.mp hmem).symm⟩)

set_option backward.isDefEq.respectTransparency.types false in
/-- Region 2 over the thread state: entered from every unscoped buffer at the contents before it, left at the contents
    after it. Its arrays are split out of the unscoped buffers and put back at the exit contents; the generator
    register goes into the class invariant and out; nothing is owed; the kernel has no semaphore of its own. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (Gen.V5 m (outs m))) c).loose
  hwaits := Pipeline.hwaits_of_owed_zero _ _ _ _ L lv 2 fun _ _ => rfl
  pre c := iprop(StableHlo.held (c : Thread nD τ) (Pipeline.ucRefs τ sig) (Gen.V5 m (outs m) c) ∗ R c)
  post c := iprop(StableHlo.held (c : Thread nD τ) (Pipeline.ucRefs τ sig) (Gen.V6 m (outs m) c) ∗ R c)
  X c := iprop(∃ r, prngReg c r)
  Y c := iprop(∃ r, prngReg c r)
  Z c := Pipeline.unscopedRest (Ix := Unit) (Name := ℕ) (U := UR sig nD τ) (Lvl := ℕ) spec2 c (atTc (Gen.V5 m (outs m)) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (Gen.V5 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (Gen.V5 m (outs m)) c) (atTc (Gen.V6 m (outs m)) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 3 as a segment -/

theorem hF3_0 (c : Dev nD) : (dat3 (atTc (Gen.V7 m (outs m))) c).arrAt 0 cfg3.N = Gen.V8 m (outs m) c main_v79 :=
  ((dat3 (atTc (Gen.V7 m (outs m))) c).arrAt_in 0 rfl cfg3.N).trans ((A_eq3 (atTc (Gen.V7 m (outs m))) c 0).trans (Gen.V8_of m (outs m) c main_v79 (by decide)).symm)
theorem hF3_1 (c : Dev nD) : (dat3 (atTc (Gen.V7 m (outs m))) c).arrAt 1 cfg3.N = Gen.V8 m (outs m) c main_arg27 :=
  ((dat3 (atTc (Gen.V7 m (outs m))) c).arrAt_in 1 rfl cfg3.N).trans ((A_eq3 (atTc (Gen.V7 m (outs m))) c 1).trans (Gen.V8_of m (outs m) c main_arg27 (by decide)).symm)
theorem hF3_2 (c : Dev nD) : (dat3 (atTc (Gen.V7 m (outs m))) c).arrAt 2 cfg3.N = Gen.V8 m (outs m) c main_v80 :=
  ((dat3 (atTc (Gen.V7 m (outs m))) c).arrAt_in 2 rfl cfg3.N).trans ((A_eq3 (atTc (Gen.V7 m (outs m))) c 2).trans (Gen.V8_of m (outs m) c main_v80 (by decide)).symm)
theorem hF3_3 (c : Dev nD) : (dat3 (atTc (Gen.V7 m (outs m))) c).arrAt 3 cfg3.N = Gen.V8 m (outs m) c main_arg29 :=
  ((dat3 (atTc (Gen.V7 m (outs m))) c).arrAt_in 3 rfl cfg3.N).trans ((A_eq3 (atTc (Gen.V7 m (outs m))) c 3).trans (Gen.V8_of m (outs m) c main_arg29 (by decide)).symm)
theorem hF3_4 (c : Dev nD) : (dat3 (atTc (Gen.V7 m (outs m))) c).arrAt 4 cfg3.N = Gen.V8 m (outs m) c main_v81 :=
  ((dat3 (atTc (Gen.V7 m (outs m))) c).arrAt_in 4 rfl cfg3.N).trans ((A_eq3 (atTc (Gen.V7 m (outs m))) c 4).trans (Gen.V8_of m (outs m) c main_v81 (by decide)).symm)
theorem hF3_5 (c : Dev nD) : (dat3 (atTc (Gen.V7 m (outs m))) c).arrAt 5 cfg3.N = Gen.V8 m (outs m) c main_v82 :=
  (outs_8 m c).symm.trans (Function.update_self (β := fun b : DevRef τ sig => Buf (Elt F) ((c : Thread nD τ).1, b)) _ _ _).symm

/-- At region 3's exit each of its arrays holds what the pipeline leaves: an input's array is as entered, and the
    output's array `main_v82` is what `outs` names. -/
theorem hF3 (c : Dev nD) : ∀ w : Fin cfg3.W,
    (dat3 (atTc (Gen.V7 m (outs m))) c).arrAt w cfg3.N = atTc (Gen.V8 m (outs m)) c (Pipeline.arrRef spec3 w)
  | ⟨0, _⟩ => hF3_0 m c
  | ⟨1, _⟩ => hF3_1 m c
  | ⟨2, _⟩ => hF3_2 m c
  | ⟨3, _⟩ => hF3_3 m c
  | ⟨4, _⟩ => hF3_4 m c
  | ⟨5, _⟩ => hF3_5 m c

/-- Every other buffer is as entered. -/
theorem hrest3 (c : Dev nD) : ∀ b, b ∉ Finset.univ.image (Pipeline.arrRef spec3) → atTc (Gen.V8 m (outs m)) c b = atTc (Gen.V7 m (outs m)) c b :=
  fun b hb => Gen.V8_of m (outs m) c b fun hmem =>
    hb (Finset.mem_image.mpr ⟨5, Finset.mem_univ _, (List.mem_singleton.mp hmem).symm⟩)

set_option backward.isDefEq.respectTransparency.types false in
/-- Region 3 over the thread state: entered from every unscoped buffer at the contents before it, left at the contents
    after it. Its arrays are split out of the unscoped buffers and put back at the exit contents; the generator
    register goes into the class invariant and out; nothing is owed; the kernel has no semaphore of its own. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (Gen.V7 m (outs m))) c).loose
  hwaits := Pipeline.hwaits_of_owed_zero _ _ _ _ L lv 3 fun _ _ => rfl
  pre c := iprop(StableHlo.held (c : Thread nD τ) (Pipeline.ucRefs τ sig) (Gen.V7 m (outs m) c) ∗ R c)
  post c := iprop(StableHlo.held (c : Thread nD τ) (Pipeline.ucRefs τ sig) (Gen.V8 m (outs m) c) ∗ R c)
  X c := iprop(∃ r, prngReg c r)
  Y c := iprop(∃ r, prngReg c r)
  Z c := Pipeline.unscopedRest (Ix := Unit) (Name := ℕ) (U := UR sig nD τ) (Lvl := ℕ) spec3 c (atTc (Gen.V7 m (outs m)) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (Gen.V7 m (outs m)) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (Gen.V7 m (outs m)) c) (atTc (Gen.V8 m (outs m)) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.IdealRun.lean ====
import proofs.«108267_j14216341750214_1_alg».proof.Proof.IdealRegs
import proofs.«108267_j14216341750214_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## @main's run -/

/-- The launch element yields the pipeline library's share and nothing else. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The last rest state owes nothing. -/
theorem hE4 (c : Dev nD) : E (F := F) 4 c ⊢ (iprop(∃ W, owes (c : Thread nD τ) (0 : CellTallies nD τ sig Unit) W) : sProp 𝕄) := by
  iintro ⟨-, HO⟩; iexact HO

set_option backward.isDefEq.respectTransparency.types false in
/-- @main, from memory `m` with zero counters: every weakly fair execution terminates, and every final memory has each
    unscoped buffer of each core at the last boundary's contents `V8 m (outs m)` — whatever `Q` follows from that. -/
theorem run_core (ρ : Dev nD → PrngReg) {Q : PUnit × MemSt nD τ sig (Elt F) → Prop}
    (hQ : ∀ s : MemSt nD τ sig (Elt F), (∀ c : Dev nD, ∀ b ∈ Pipeline.ucRefs τ sig, s.mem ((c : Thread nD τ).1, b) = Gen.V8 m (outs m) c b) → Q (⟨⟩, s)) :
    θ_run defs (onTc (τ := τ) (main (F := F))) ⟨m, fun _ => 0, ρ⟩ Q := by
  refine Pipeline.θ_run_regions_kit_dev (pcfgs (F := F)) adm (pdats m) () cellOf_inj emb₁ defs₀ 𝒱₀ L lv m ρ main
    (Gen.segs m (outs m) 𝒱₀ L lv E () (pdats m) (reg0 m) (reg1 m) (reg2 m) (reg3 m))
    (fun c Q => by
      rewrite [main_chain c, Seg.run_eq_chain,
        show (Gen.segs m (outs m) 𝒱₀ L lv E () (pdats m) (reg0 m) (reg1 m) (reg2 m) (reg3 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [Gen.segs, Seg.pipes_host, Seg.pipes_region, Seg.pipes_nil]; decide) 0 (fun _ _ => rfl)
    (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V8 m (outs m) c))
    (hch := fun c => ⟨.rfl, .rfl, .rfl, .rfl, .rfl, .rfl, .rfl, .rfl, sep_mono .rfl (hE4 c)⟩)
    (hinit := ?_) (QY := fun c s => ∀ b ∈ Pipeline.ucRefs τ sig, s.mem ((c : Thread nD τ).1, b) = Gen.V8 m (outs m) c b)
    (hfin := fun c s' => ?_) (hQ := hQ)
  · -- the launch: on each core the unscoped buffers are held at the launch contents, the register at its launch
    -- state, nothing owed
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every held buffer read against the final state
    iintro ⟨Hh, HSI⟩
    unfold StableHlo.held
    imodintro
    iapply (pointsTo_read_all (Pipeline.ucRefs τ sig) (fun b => ((c : Thread nD τ).1, b)) (Gen.V8 m (outs m) c) s')
    isplitl [Hh] <;> iassumption

/-- (a) @main's run, read at every unscoped buffer: each ends at the last boundary's contents. -/
theorem run (ρ : Dev nD → PrngReg) :
    θ_run defs (onTc (τ := τ) (main (F := F))) ⟨m, fun _ => 0, ρ⟩ (fun r => ∀ c : Dev nD, ∀ b ∈ Pipeline.ucRefs τ sig,
      r.2.mem ((c : Thread nD τ).1, b) = Gen.V8 m (outs m) c b) :=
  run_core m ρ fun _ h => h

/-- (b) The frame: every argument array ends holding its launch contents — no host stretch writes an argument and no
    region may change one. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_core m ρ fun s h c =>
    ⟨(h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c),
     (h c _ (mem_uc main_arg9 (by decide))).trans (Gen.V8_main_arg9 m (outs m) c),
     (h c _ (mem_uc main_arg10 (by decide))).trans (Gen.V8_main_arg10 m (outs m) c),
     (h c _ (mem_uc main_arg11 (by decide))).trans (Gen.V8_main_arg11 m (outs m) c),
     (h c _ (mem_uc main_arg12 (by decide))).trans (Gen.V8_main_arg12 m (outs m) c),
     (h c _ (mem_uc main_arg13 (by decide))).trans (Gen.V8_main_arg13 m (outs m) c),
     (h c _ (mem_uc main_arg14 (by decide))).trans (Gen.V8_main_arg14 m (outs m) c),
     (h c _ (mem_uc main_arg15 (by decide))).trans (Gen.V8_main_arg15 m (outs m) c),
     (h c _ (mem_uc main_arg16 (by decide))).trans (Gen.V8_main_arg16 m (outs m) c),
     (h c _ (mem_uc main_arg17 (by decide))).trans (Gen.V8_main_arg17 m (outs m) c),
     (h c _ (mem_uc main_arg18 (by decide))).trans (Gen.V8_main_arg18 m (outs m) c),
     (h c _ (mem_uc main_arg19 (by decide))).trans (Gen.V8_main_arg19 m (outs m) c),
     (h c _ (mem_uc main_arg20 (by decide))).trans (Gen.V8_main_arg20 m (outs m) c),
     (h c _ (mem_uc main_arg21 (by decide))).trans (Gen.V8_main_arg21 m (outs m) c),
     (h c _ (mem_uc main_arg22 (by decide))).trans (Gen.V8_main_arg22 m (outs m) c),
     (h c _ (mem_uc main_arg23 (by decide))).trans (Gen.V8_main_arg23 m (outs m) c),
     (h c _ (mem_uc main_arg24 (by decide))).trans (Gen.V8_main_arg24 m (outs m) c),
     (h c _ (mem_uc main_arg25 (by decide))).trans (Gen.V8_main_arg25 m (outs m) c),
     (h c _ (mem_uc main_arg26 (by decide))).trans (Gen.V8_main_arg26 m (outs m) c),
     (h c _ (mem_uc main_arg27 (by decide))).trans (Gen.V8_main_arg27 m (outs m) c),
     (h c _ (mem_uc main_arg28 (by decide))).trans (Gen.V8_main_arg28 m (outs m) c),
     (h c _ (mem_uc main_arg29 (by decide))).trans (Gen.V8_main_arg29 m (outs m) c),
     (h c _ (mem_uc main_arg30 (by decide))).trans (Gen.V8_main_arg30 m (outs m) c)⟩

/-- (c) The result beside the frame: `main_v82` ends at the last boundary's contents, and every argument array at its
    launch contents. -/
theorem run_result (ρ : Dev nD → PrngReg) :
    θ_run defs (onTc (τ := τ) (main (F := F))) ⟨m, fun _ => 0, ρ⟩ (fun r => ∀ c : Dev nD,
      r.2.mem ((c.tc : Thread nD τ).loc main_v82) = Gen.V8 m (outs m) c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)) :=
  run_core m ρ fun s h c =>
    ⟨h c _ (mem_uc main_v82 (by decide)),
     (h c _ (mem_uc main_arg0 (by decide))).trans (Gen.V8_main_arg0 m (outs m) c),
     (h c _ (mem_uc main_arg1 (by decide))).trans (Gen.V8_main_arg1 m (outs m) c),
     (h c _ (mem_uc main_arg2 (by decide))).trans (Gen.V8_main_arg2 m (outs m) c),
     (h c _ (mem_uc main_arg3 (by decide))).trans (Gen.V8_main_arg3 m (outs m) c),
     (h c _ (mem_uc main_arg4 (by decide))).trans (Gen.V8_main_arg4 m (outs m) c),
     (h c _ (mem_uc main_arg5 (by decide))).trans (Gen.V8_main_arg5 m (outs m) c),
     (h c _ (mem_uc main_arg6 (by decide))).trans (Gen.V8_main_arg6 m (outs m) c),
     (h c _ (mem_uc main_arg7 (by decide))).trans (Gen.V8_main_arg7 m (outs m) c),
     (h c _ (mem_uc main_arg8 (by decide))).trans (Gen.V8_main_arg8 m (outs m) c),
     (h c _ (mem_uc main_arg9 (by decide))).trans (Gen.V8_main_arg9 m (outs m) c),
     (h c _ (mem_uc main_arg10 (by decide))).trans (Gen.V8_main_arg10 m (outs m) c),
     (h c _ (mem_uc main_arg11 (by decide))).trans (Gen.V8_main_arg11 m (outs m) c),
     (h c _ (mem_uc main_arg12 (by decide))).trans (Gen.V8_main_arg12 m (outs m) c),
     (h c _ (mem_uc main_arg13 (by decide))).trans (Gen.V8_main_arg13 m (outs m) c),
     (h c _ (mem_uc main_arg14 (by decide))).trans (Gen.V8_main_arg14 m (outs m) c),
     (h c _ (mem_uc main_arg15 (by decide))).trans (Gen.V8_main_arg15 m (outs m) c),
     (h c _ (mem_uc main_arg16 (by decide))).trans (Gen.V8_main_arg16 m (outs m) c),
     (h c _ (mem_uc main_arg17 (by decide))).trans (Gen.V8_main_arg17 m (outs m) c),
     (h c _ (mem_uc main_arg18 (by decide))).trans (Gen.V8_main_arg18 m (outs m) c),
     (h c _ (mem_uc main_arg19 (by decide))).trans (Gen.V8_main_arg19 m (outs m) c),
     (h c _ (mem_uc main_arg20 (by decide))).trans (Gen.V8_main_arg20 m (outs m) c),
     (h c _ (mem_uc main_arg21 (by decide))).trans (Gen.V8_main_arg21 m (outs m) c),
     (h c _ (mem_uc main_arg22 (by decide))).trans (Gen.V8_main_arg22 m (outs m) c),
     (h c _ (mem_uc main_arg23 (by decide))).trans (Gen.V8_main_arg23 m (outs m) c),
     (h c _ (mem_uc main_arg24 (by decide))).trans (Gen.V8_main_arg24 m (outs m) c),
     (h c _ (mem_uc main_arg25 (by decide))).trans (Gen.V8_main_arg25 m (outs m) c),
     (h c _ (mem_uc main_arg26 (by decide))).trans (Gen.V8_main_arg26 m (outs m) c),
     (h c _ (mem_uc main_arg27 (by decide))).trans (Gen.V8_main_arg27 m (outs m) c),
     (h c _ (mem_uc main_arg28 (by decide))).trans (Gen.V8_main_arg28 m (outs m) c),
     (h c _ (mem_uc main_arg29 (by decide))).trans (Gen.V8_main_arg29 m (outs m) c),
     (h c _ (mem_uc main_arg30 (by decide))).trans (Gen.V8_main_arg30 m (outs m) c)⟩

end Cert.KernelIdeal.Hand

end
-- ==== Proof.HostFns.lean ====
/-
  The host operations around the kernel launches, as functions of arrays on the extended reals.

  `nsum` adds to every node's row the rows of its in-neighbours: the source indices (wrapped into range when negative)
  gather rows, and a scatter-add by the destination indices sums them from zero.  `pool` sums the rows of each graph
  by a scatter-add from zero over the graph index of every node, and `cat3` lays three pooled arrays side by side.  The
  folded statistics of a normalization layer are `g · rsqrt (v + ε)` and `be − m · (g · rsqrt (v + ε))`, and a
  vector is re-laid as one row.  Every function is spelt with the operations and the shape relations of the printed
  program, so that a stretch of host operations is one of these functions of its operands as it stands.
-/
import proofs.«108267_j14216341750214_1_alg».proof.KernelIdeal
import Idealize.ShloMosaic.PureOps.Ideal
import Idealize.ShloMosaic.Lib.Pipeline.Value

noncomputable section

namespace Cert.HostFns

open Idealize.ShloMosaic Cert.KernelIdeal Cert.KernelIdeal.Facts₀

variable [Facts₀]

/-- The source node of every edge as read from row 0 of the edge list. -/
def srcRow (ei : IVec S2x800000 32) : IVec S800000 32 :=
  shapeCast S800000 (extractStridedSlice S1x800000 ![0, 0] ei slices_S2x800000_S1x800000_0_0) shapeCasts_S1x800000_S800000

/-- The destination node of every edge as read from row 1 of the edge list. -/
def dstRow (ei : IVec S2x800000 32) : IVec S800000 32 :=
  shapeCast S800000 (extractStridedSlice S1x800000 ![1, 0] ei slices_S2x800000_S1x800000_1_0) shapeCasts_S1x800000_S800000

/-- Node indices wrapped into range when negative (50000 added), as a column of indices. -/
def wrapCol (s : IVec S800000 32) : IVec S800000x1 32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Node indices as a column of indices. -/
def col (d : IVec S800000 32) : IVec S800000x1 32 :=
  broadcastInDim S800000x1 ![0] bcast_S800000_S800000x1_0 d

/-- The source node of every edge, wrapped into range when negative, as a column of indices. -/
def srcIdx (ei : IVec S2x800000 32) : IVec S800000x1 32 :=
  broadcastInDim S800000x1 ![0] bcast_S800000_S800000x1_0
    (select (cmpi .slt (shapeCast S800000 (extractStridedSlice S1x800000 ![0, 0] ei slices_S2x800000_S1x800000_0_0) shapeCasts_S1x800000_S800000)
        (broadcastInDim S800000 ![] bcast_S_S800000 (constantI S_ 32 0#32)))
      (addi (shapeCast S800000 (extractStridedSlice S1x800000 ![0, 0] ei slices_S2x800000_S1x800000_0_0) shapeCasts_S1x800000_S800000)
        (broadcastInDim S800000 ![] bcast_S_S800000 (constantI S_ 32 50000#32)))
      (shapeCast S800000 (extractStridedSlice S1x800000 ![0, 0] ei slices_S2x800000_S1x800000_0_0) shapeCasts_S1x800000_S800000))

/-- The destination node of every edge, as a column of indices. -/
def dstIdx (ei : IVec S2x800000 32) : IVec S800000x1 32 :=
  broadcastInDim S800000x1 ![0] bcast_S800000_S800000x1_0
    (shapeCast S800000 (extractStridedSlice S1x800000 ![1, 0] ei slices_S2x800000_S1x800000_1_0) shapeCasts_S1x800000_S800000)

theorem srcIdx_eq (ei : IVec S2x800000 32) : srcIdx ei = wrapCol (srcRow ei) := rfl
theorem dstIdx_eq (ei : IVec S2x800000 32) : dstIdx ei = col (dstRow ei) := rfl

/-- A node's features plus the sum of its in-neighbours' features, 64 features wide, from the two index columns. -/
def nsumCols64 (h : FVec Ideal S50000x64 .f32) (src dst : IVec S800000x1 32) : FVec Ideal S50000x64 .f32 :=
  addf h (Host.scatterAdd scatter_S50000x64_S800000x1_S800000x64_1_0_0_1
    (broadcastInDim S50000x64 ![] bcast_S_S50000x64 (constant (F := Ideal) S_ .f32 0x00000000#32)) dst
    (Host.gather gather_S50000x64_S800000x1_S800000x64_1_0_n_n_0_1_164 h src))

/-- The same, 128 features wide. -/
def nsumCols128 (h : FVec Ideal S50000x128 .f32) (src dst : IVec S800000x1 32) : FVec Ideal S50000x128 .f32 :=
  addf h (Host.scatterAdd scatter_S50000x128_S800000x1_S800000x128_1_0_0_1
    (broadcastInDim S50000x128 ![] bcast_S_S50000x128 (constant (F := Ideal) S_ .f32 0x00000000#32)) dst
    (Host.gather gather_S50000x128_S800000x1_S800000x128_1_0_n_n_0_1_1128 h src))

/-- A node's features plus the sum of its in-neighbours' features, 64 features wide. -/
def nsum64 (h : FVec Ideal S50000x64 .f32) (ei : IVec S2x800000 32) : FVec Ideal S50000x64 .f32 :=
  addf h (Host.scatterAdd scatter_S50000x64_S800000x1_S800000x64_1_0_0_1
    (broadcastInDim S50000x64 ![] bcast_S_S50000x64 (constant (F := Ideal) S_ .f32 0x00000000#32)) (dstIdx ei)
    (Host.gather gather_S50000x64_S800000x1_S800000x64_1_0_n_n_0_1_164 h (srcIdx ei)))

/-- A node's features plus the sum of its in-neighbours' features, 128 features wide. -/
def nsum128 (h : FVec Ideal S50000x128 .f32) (ei : IVec S2x800000 32) : FVec Ideal S50000x128 .f32 :=
  addf h (Host.scatterAdd scatter_S50000x128_S800000x1_S800000x128_1_0_0_1
    (broadcastInDim S50000x128 ![] bcast_S_S50000x128 (constant (F := Ideal) S_ .f32 0x00000000#32)) (dstIdx ei)
    (Host.gather gather_S50000x128_S800000x1_S800000x128_1_0_n_n_0_1_1128 h (srcIdx ei)))

theorem nsum64_eq (h : FVec Ideal S50000x64 .f32) (ei : IVec S2x800000 32) :
    nsum64 h ei = nsumCols64 h (wrapCol (srcRow ei)) (col (dstRow ei)) := rfl
theorem nsum128_eq (h : FVec Ideal S50000x128 .f32) (ei : IVec S2x800000 32) :
    nsum128 h ei = nsumCols128 h (wrapCol (srcRow ei)) (col (dstRow ei)) := rfl

/-- The sum of the rows of each graph: a scatter-add from zero by every node's graph index. -/
def pool (h : FVec Ideal S50000x128 .f32) (b : IVec S50000 32) : FVec Ideal S512x128 .f32 :=
  Host.scatterAdd scatter_S512x128_S50000x1_S50000x128_1_0_0_1
    (broadcastInDim S512x128 ![] bcast_S_S512x128 (constant (F := Ideal) S_ .f32 0x00000000#32))
    (broadcastInDim S50000x1 ![0] bcast_S50000_S50000x1_0 b) h

/-- Three pooled arrays side by side. -/
def cat3 (a b c : FVec Ideal S512x128 .f32) : FVec Ideal S512x384 .f32 :=
  concatenate S512x384 1 [⟨S512x128, a⟩, ⟨S512x128, b⟩, ⟨S512x128, c⟩] concatenates_S512x128_S512x128_S512x128_S512x384_d1

/-- A vector of 128 entries as one row. -/
def row128 (v : FVec Ideal S128 .f32) : FVec Ideal S1x128 .f32 := shapeCast S1x128 v shapeCasts_S128_S1x128
/-- A vector of 384 entries as one row. -/
def row384 (v : FVec Ideal S384 .f32) : FVec Ideal S1x384 .f32 := shapeCast S1x384 v shapeCasts_S384_S1x384
/-- A vector of 10 entries as one row. -/
def row10 (v : FVec Ideal S10 .f32) : FVec Ideal S1x10 .f32 := shapeCast S1x10 v shapeCasts_S10_S1x10

/-- The folded scale of a normalization layer: g · rsqrt (v + ε), ε the word 0x3727C5AC. -/
def scaleVec (g v : FVec Ideal S128 .f32) : FVec Ideal S128 .f32 :=
  mulf g (Host.rsqrt (addf v (broadcastInDim S128 ![] bcast_S_S128 (constant (F := Ideal) S_ .f32 0x3727C5AC#32))))

/-- The folded shift of a normalization layer: be − m · (g · rsqrt (v + ε)). -/
def shiftVec (g be mm v : FVec Ideal S128 .f32) : FVec Ideal S128 .f32 :=
  subf be (mulf mm (scaleVec g v))

end Cert.HostFns

end
-- ==== Proof.KHost.lean ====
/-
  The operands of the four launches, as functions of the argument arrays and of what the earlier launches left.

  Each stretch of host operations is read once over an arbitrary valuation of the buffers: the buffer it leaves for
  a launch is one of the host functions of the buffers it read.  The valuations between the items are then chained:
  a stretch or a launch leaves alone what it does not write, so an argument array is still the launch's, the two
  index rows of the edge list written by the first stretch are still there for the second and the third, and what
  a launch left in its output buffer is there for every later stretch.
-/
import proofs.«108267_j14216341750214_1_alg».proof.Proof.Gen.KernelIdeal.Regions
import proofs.«108267_j14216341750214_1_alg».proof.Proof.HostFns
import Idealize.ShloMosaic.Lib.StableHlo.Run

noncomputable section

namespace Cert.KernelIdeal.KV

open Idealize.ShloMosaic Idealize.ShloMosaic.TcCoe Idealize.SL.Sem Cert.KernelIdeal Cert.KernelIdeal.Gen Cert.HostFns
open Idealize.ShloMosaic.StableHlo

/-! ## Each stretch over an arbitrary valuation -/

section Stretches

variable (W : Valuation τ sig (Elt Ideal))

theorem ops0_v1 :
    (after (hostOps0 (F := Ideal)) W (Proc.devRef .tc main_v1) : S800000.Idx → BitVec 32)
      = srcRow (W (Proc.devRef .tc main_arg1)) := by
  after_results_simp
  rfl
theorem ops0_v3 :
    (after (hostOps0 (F := Ideal)) W (Proc.devRef .tc main_v3) : S800000.Idx → BitVec 32)
      = dstRow (W (Proc.devRef .tc main_arg1)) := by
  after_results_simp
  rfl
theorem ops0_v14 :
    (after (hostOps0 (F := Ideal)) W (Proc.devRef .tc main_v14) : S50000x64.Idx → EReal)
      = nsum64 (W (Proc.devRef .tc main_arg0)) (W (Proc.devRef .tc main_arg1)) := by
  after_results_simp
  rfl
theorem ops0_v21 :
    (after (hostOps0 (F := Ideal)) W (Proc.devRef .tc main_v21) : S1x128.Idx → EReal)
      = row128 (W (Proc.devRef .tc main_arg4)) := by
  after_results_simp
  rfl
theorem ops0_v22 :
    (after (hostOps0 (F := Ideal)) W (Proc.devRef .tc main_v22) : S1x128.Idx → EReal)
      = row128 (scaleVec (W (Proc.devRef .tc main_arg5)) (W (Proc.devRef .tc main_arg8))) := by
  after_results_simp
  rfl
theorem ops0_v23 :
    (after (hostOps0 (F := Ideal)) W (Proc.devRef .tc main_v23) : S1x128.Idx → EReal)
      = row128 (shiftVec (W (Proc.devRef .tc main_arg5)) (W (Proc.devRef .tc main_arg6)) (W (Proc.devRef .tc main_arg7)) (W (Proc.devRef .tc main_arg8))) := by
  after_results_simp
  rfl
theorem ops0_v24 :
    (after (hostOps0 (F := Ideal)) W (Proc.devRef .tc main_v24) : S1x128.Idx → EReal)
      = row128 (W (Proc.devRef .tc main_arg10)) := by
  after_results_simp
  rfl
theorem ops1_v36 :
    (after (hostOps1 (F := Ideal)) W (Proc.devRef .tc main_v36) : S50000x128.Idx → EReal)
      = nsumCols128 (W (Proc.devRef .tc main_v25)) (wrapCol (W (Proc.devRef .tc main_v1))) (col (W (Proc.devRef .tc main_v3))) := by
  after_results_simp
  rfl
theorem ops1_v43 :
    (after (hostOps1 (F := Ideal)) W (Proc.devRef .tc main_v43) : S1x128.Idx → EReal)
      = row128 (W (Proc.devRef .tc main_arg12)) := by
  after_results_simp
  rfl
theorem ops1_v44 :
    (after (hostOps1 (F := Ideal)) W (Proc.devRef .tc main_v44) : S1x128.Idx → EReal)
      = row128 (scaleVec (W (Proc.devRef .tc main_arg13)) (W (Proc.devRef .tc main_arg16))) := by
  after_results_simp
  rfl
theorem ops1_v45 :
    (after (hostOps1 (F := Ideal)) W (Proc.devRef .tc main_v45) : S1x128.Idx → EReal)
      = row128 (shiftVec (W (Proc.devRef .tc main_arg13)) (W (Proc.devRef .tc main_arg14)) (W (Proc.devRef .tc main_arg15)) (W (Proc.devRef .tc main_arg16))) := by
  after_results_simp
  rfl
theorem ops1_v46 :
    (after (hostOps1 (F := Ideal)) W (Proc.devRef .tc main_v46) : S1x128.Idx → EReal)
      = row128 (W (Proc.devRef .tc main_arg18)) := by
  after_results_simp
  rfl
theorem ops2_v58 :
    (after (hostOps2 (F := Ideal)) W (Proc.devRef .tc main_v58) : S50000x128.Idx → EReal)
      = nsumCols128 (W (Proc.devRef .tc main_v47)) (wrapCol (W (Proc.devRef .tc main_v1))) (col (W (Proc.devRef .tc main_v3))) := by
  after_results_simp
  rfl
theorem ops2_v65 :
    (after (hostOps2 (F := Ideal)) W (Proc.devRef .tc main_v65) : S1x128.Idx → EReal)
      = row128 (W (Proc.devRef .tc main_arg20)) := by
  after_results_simp
  rfl
theorem ops2_v66 :
    (after (hostOps2 (F := Ideal)) W (Proc.devRef .tc main_v66) : S1x128.Idx → EReal)
      = row128 (scaleVec (W (Proc.devRef .tc main_arg21)) (W (Proc.devRef .tc main_arg24))) := by
  after_results_simp
  rfl
theorem ops2_v67 :
    (after (hostOps2 (F := Ideal)) W (Proc.devRef .tc main_v67) : S1x128.Idx → EReal)
      = row128 (shiftVec (W (Proc.devRef .tc main_arg21)) (W (Proc.devRef .tc main_arg22)) (W (Proc.devRef .tc main_arg23)) (W (Proc.devRef .tc main_arg24))) := by
  after_results_simp
  rfl
theorem ops2_v68 :
    (after (hostOps2 (F := Ideal)) W (Proc.devRef .tc main_v68) : S1x128.Idx → EReal)
      = row128 (W (Proc.devRef .tc main_arg26)) := by
  after_results_simp
  rfl
theorem ops3_v79 :
    (after (hostOps3 (F := Ideal)) W (Proc.devRef .tc main_v79) : S512x384.Idx → EReal)
      = cat3 (pool (W (Proc.devRef .tc main_v25)) (W (Proc.devRef .tc main_arg2))) (pool (W (Proc.devRef .tc main_v47)) (W (Proc.devRef .tc main_arg2))) (pool (W (Proc.devRef .tc main_v69)) (W (Proc.devRef .tc main_arg2))) := by
  after_results_simp
  rfl
theorem ops3_v80 :
    (after (hostOps3 (F := Ideal)) W (Proc.devRef .tc main_v80) : S1x384.Idx → EReal)
      = row384 (W (Proc.devRef .tc main_arg28)) := by
  after_results_simp
  rfl
theorem ops3_v81 :
    (after (hostOps3 (F := Ideal)) W (Proc.devRef .tc main_v81) : S1x10.Idx → EReal)
      = row10 (W (Proc.devRef .tc main_arg30)) := by
  after_results_simp
  rfl

end Stretches

/-! ## The valuations between the items -/

section Launch

variable (m : (ℓ : Loc nD τ sig) → Buf (Elt Ideal) ℓ) (outs : Gen.Outs (F := Ideal)) (c : Dev nD)

/-! ### What no stretch and no launch writes keeps the launch contents -/

theorem V1_keep (r : Ref sig .tc) (h0 : r ∉ hostOps0_W) : V1 m c r = m ((c : Thread nD τ).loc r) := V1_of m c r h0
theorem V2_keep (r : Ref sig .tc) (h0 : r ∉ hostOps0_W) (n25 : r ∉ ([main_v25] : List (Ref sig .tc))) :
    V2 m outs c r = m ((c : Thread nD τ).loc r) := (V2_of m outs c r n25).trans (V1_keep m c r h0)
theorem V3_keep (r : Ref sig .tc) (h0 : r ∉ hostOps0_W) (n25 : r ∉ ([main_v25] : List (Ref sig .tc))) (h1 : r ∉ hostOps1_W) :
    V3 m outs c r = m ((c : Thread nD τ).loc r) := (V3_of m outs c r h1).trans (V2_keep m outs c r h0 n25)
theorem V4_keep (r : Ref sig .tc) (h0 : r ∉ hostOps0_W) (n25 : r ∉ ([main_v25] : List (Ref sig .tc))) (h1 : r ∉ hostOps1_W)
    (n47 : r ∉ ([main_v47] : List (Ref sig .tc))) :
    V4 m outs c r = m ((c : Thread nD τ).loc r) := (V4_of m outs c r n47).trans (V3_keep m outs c r h0 n25 h1)
theorem V5_keep (r : Ref sig .tc) (h0 : r ∉ hostOps0_W) (n25 : r ∉ ([main_v25] : List (Ref sig .tc))) (h1 : r ∉ hostOps1_W)
    (n47 : r ∉ ([main_v47] : List (Ref sig .tc))) (h2 : r ∉ hostOps2_W) :
    V5 m outs c r = m ((c : Thread nD τ).loc r) := (V5_of m outs c r h2).trans (V4_keep m outs c r h0 n25 h1 n47)
theorem V6_keep (r : Ref sig .tc) (h0 : r ∉ hostOps0_W) (n25 : r ∉ ([main_v25] : List (Ref sig .tc))) (h1 : r ∉ hostOps1_W)
    (n47 : r ∉ ([main_v47] : List (Ref sig .tc))) (h2 : r ∉ hostOps2_W) (n69 : r ∉ ([main_v69] : List (Ref sig .tc))) :
    V6 m outs c r = m ((c : Thread nD τ).loc r) := (V6_of m outs c r n69).trans (V5_keep m outs c r h0 n25 h1 n47 h2)
theorem V7_keep (r : Ref sig .tc) (h0 : r ∉ hostOps0_W) (n25 : r ∉ ([main_v25] : List (Ref sig .tc))) (h1 : r ∉ hostOps1_W)
    (n47 : r ∉ ([main_v47] : List (Ref sig .tc))) (h2 : r ∉ hostOps2_W) (n69 : r ∉ ([main_v69] : List (Ref sig .tc)))
    (h3 : r ∉ hostOps3_W) :
    V7 m outs c r = m ((c : Thread nD τ).loc r) := (V7_of m outs c r h3).trans (V6_keep m outs c r h0 n25 h1 n47 h2 n69)

/-! ### What a launch left, and the two index rows, carried across the later items -/

theorem V2_v25 : V2 m outs c main_v25 = outs 2 main_v25 c := Function.update_self _ _ _
theorem V3_v25 : V3 m outs c main_v25 = outs 2 main_v25 c := (V3_of m outs c main_v25 (by decide)).trans (V2_v25 m outs c)
theorem V4_v25 : V4 m outs c main_v25 = outs 2 main_v25 c := (V4_of m outs c main_v25 (by decide)).trans (V3_v25 m outs c)
theorem V5_v25 : V5 m outs c main_v25 = outs 2 main_v25 c := (V5_of m outs c main_v25 (by decide)).trans (V4_v25 m outs c)
theorem V6_v25 : V6 m outs c main_v25 = outs 2 main_v25 c := (V6_of m outs c main_v25 (by decide)).trans (V5_v25 m outs c)
theorem V4_v47 : V4 m outs c main_v47 = outs 4 main_v47 c := Function.update_self _ _ _
theorem V5_v47 : V5 m outs c main_v47 = outs 4 main_v47 c := (V5_of m outs c main_v47 (by decide)).trans (V4_v47 m outs c)
theorem V6_v47 : V6 m outs c main_v47 = outs 4 main_v47 c := (V6_of m outs c main_v47 (by decide)).trans (V5_v47 m outs c)
theorem V6_v69 : V6 m outs c main_v69 = outs 6 main_v69 c := Function.update_self _ _ _

theorem V1_v1 : (V1 m c main_v1 : S800000.Idx → BitVec 32) = srcRow (m ((c : Thread nD τ).loc main_arg1)) := ops0_v1 (V0 m c)
theorem V2_v1 : (V2 m outs c main_v1 : S800000.Idx → BitVec 32) = srcRow (m ((c : Thread nD τ).loc main_arg1)) :=
  (V2_of m outs c main_v1 (by decide)).trans (V1_v1 m c)
theorem V3_v1 : (V3 m outs c main_v1 : S800000.Idx → BitVec 32) = srcRow (m ((c : Thread nD τ).loc main_arg1)) :=
  (V3_of m outs c main_v1 (by decide)).trans (V2_v1 m outs c)
theorem V4_v1 : (V4 m outs c main_v1 : S800000.Idx → BitVec 32) = srcRow (m ((c : Thread nD τ).loc main_arg1)) :=
  (V4_of m outs c main_v1 (by decide)).trans (V3_v1 m outs c)
theorem V1_v3 : (V1 m c main_v3 : S800000.Idx → BitVec 32) = dstRow (m ((c : Thread nD τ).loc main_arg1)) := ops0_v3 (V0 m c)
theorem V2_v3 : (V2 m outs c main_v3 : S800000.Idx → BitVec 32) = dstRow (m ((c : Thread nD τ).loc main_arg1)) :=
  (V2_of m outs c main_v3 (by decide)).trans (V1_v3 m c)
theorem V3_v3 : (V3 m outs c main_v3 : S800000.Idx → BitVec 32) = dstRow (m ((c : Thread nD τ).loc main_arg1)) :=
  (V3_of m outs c main_v3 (by decide)).trans (V2_v3 m outs c)
theorem V4_v3 : (V4 m outs c main_v3 : S800000.Idx → BitVec 32) = dstRow (m ((c : Thread nD τ).loc main_arg1)) :=
  (V4_of m outs c main_v3 (by decide)).trans (V3_v3 m outs c)

/-! ### The operands of the first launch -/

theorem V1_v14 : (V1 m c main_v14 : S50000x64.Idx → EReal) = nsum64 (m ((c : Thread nD τ).loc main_arg0)) (m ((c : Thread nD τ).loc main_arg1)) := ops0_v14 (V0 m c)
theorem V1_arg3 : V1 m c main_arg3 = (m ((c : Thread nD τ).loc main_arg3)) := V1_keep m c main_arg3 (by decide)
theorem V1_v21 : (V1 m c main_v21 : S1x128.Idx → EReal) = row128 (m ((c : Thread nD τ).loc main_arg4)) := ops0_v21 (V0 m c)
theorem V1_v22 : (V1 m c main_v22 : S1x128.Idx → EReal) = row128 (scaleVec (m ((c : Thread nD τ).loc main_arg5)) (m ((c : Thread nD τ).loc main_arg8))) := ops0_v22 (V0 m c)
theorem V1_v23 : (V1 m c main_v23 : S1x128.Idx → EReal)
    = row128 (shiftVec (m ((c : Thread nD τ).loc main_arg5)) (m ((c : Thread nD τ).loc main_arg6)) (m ((c : Thread nD τ).loc main_arg7)) (m ((c : Thread nD τ).loc main_arg8))) := ops0_v23 (V0 m c)
theorem V1_arg9 : V1 m c main_arg9 = (m ((c : Thread nD τ).loc main_arg9)) := V1_keep m c main_arg9 (by decide)
theorem V1_v24 : (V1 m c main_v24 : S1x128.Idx → EReal) = row128 (m ((c : Thread nD τ).loc main_arg10)) := ops0_v24 (V0 m c)

/-! ### The operands of the second launch -/

theorem V3_v36 : (V3 m outs c main_v36 : S50000x128.Idx → EReal) = nsum128 (outs 2 main_v25 c) (m ((c : Thread nD τ).loc main_arg1)) := by
  have e := ops1_v36 (V2 m outs c)
  rw [V2_v25 m outs c, V2_v1 m outs c, V2_v3 m outs c] at e
  exact e.trans (nsum128_eq _ _).symm
theorem V3_arg11 : V3 m outs c main_arg11 = (m ((c : Thread nD τ).loc main_arg11)) := V3_keep m outs c main_arg11 (by decide) (by decide) (by decide)
theorem V3_v43 : (V3 m outs c main_v43 : S1x128.Idx → EReal) = row128 (m ((c : Thread nD τ).loc main_arg12)) := by
  have e := ops1_v43 (V2 m outs c)
  rw [V2_keep m outs c main_arg12 (by decide) (by decide)] at e
  exact e
theorem V3_v44 : (V3 m outs c main_v44 : S1x128.Idx → EReal) = row128 (scaleVec (m ((c : Thread nD τ).loc main_arg13)) (m ((c : Thread nD τ).loc main_arg16))) := by
  have e := ops1_v44 (V2 m outs c)
  rw [V2_keep m outs c main_arg13 (by decide) (by decide), V2_keep m outs c main_arg16 (by decide) (by decide)] at e
  exact e
theorem V3_v45 : (V3 m outs c main_v45 : S1x128.Idx → EReal)
    = row128 (shiftVec (m ((c : Thread nD τ).loc main_arg13)) (m ((c : Thread nD τ).loc main_arg14)) (m ((c : Thread nD τ).loc main_arg15)) (m ((c : Thread nD τ).loc main_arg16))) := by
  have e := ops1_v45 (V2 m outs c)
  rw [V2_keep m outs c main_arg13 (by decide) (by decide), V2_keep m outs c main_arg14 (by decide) (by decide), V2_keep m outs c main_arg15 (by decide) (by decide), V2_keep m outs c main_arg16 (by decide) (by decide)] at e
  exact e
theorem V3_arg17 : V3 m outs c main_arg17 = (m ((c : Thread nD τ).loc main_arg17)) := V3_keep m outs c main_arg17 (by decide) (by decide) (by decide)
theorem V3_v46 : (V3 m outs c main_v46 : S1x128.Idx → EReal) = row128 (m ((c : Thread nD τ).loc main_arg18)) := by
  have e := ops1_v46 (V2 m outs c)
  rw [V2_keep m outs c main_arg18 (by decide) (by decide)] at e
  exact e

/-! ### The operands of the third launch -/

theorem V5_v58 : (V5 m outs c main_v58 : S50000x128.Idx → EReal) = nsum128 (outs 4 main_v47 c) (m ((c : Thread nD τ).loc main_arg1)) := by
  have e := ops2_v58 (V4 m outs c)
  rw [V4_v47 m outs c, V4_v1 m outs c, V4_v3 m outs c] at e
  exact e.trans (nsum128_eq _ _).symm
theorem V5_arg19 : V5 m outs c main_arg19 = (m ((c : Thread nD τ).loc main_arg19)) := V5_keep m outs c main_arg19 (by decide) (by decide) (by decide) (by decide) (by decide)
theorem V5_v65 : (V5 m outs c main_v65 : S1x128.Idx → EReal) = row128 (m ((c : Thread nD τ).loc main_arg20)) := by
  have e := ops2_v65 (V4 m outs c)
  rw [V4_keep m outs c main_arg20 (by decide) (by decide) (by decide) (by decide)] at e
  exact e
theorem V5_v66 : (V5 m outs c main_v66 : S1x128.Idx → EReal) = row128 (scaleVec (m ((c : Thread nD τ).loc main_arg21)) (m ((c : Thread nD τ).loc main_arg24))) := by
  have e := ops2_v66 (V4 m outs c)
  rw [V4_keep m outs c main_arg21 (by decide) (by decide) (by decide) (by decide), V4_keep m outs c main_arg24 (by decide) (by decide) (by decide) (by decide)] at e
  exact e
theorem V5_v67 : (V5 m outs c main_v67 : S1x128.Idx → EReal)
    = row128 (shiftVec (m ((c : Thread nD τ).loc main_arg21)) (m ((c : Thread nD τ).loc main_arg22)) (m ((c : Thread nD τ).loc main_arg23)) (m ((c : Thread nD τ).loc main_arg24))) := by
  have e := ops2_v67 (V4 m outs c)
  rw [V4_keep m outs c main_arg21 (by decide) (by decide) (by decide) (by decide), V4_keep m outs c main_arg22 (by decide) (by decide) (by decide) (by decide), V4_keep m outs c main_arg23 (by decide) (by decide) (by decide) (by decide), V4_keep m outs c main_arg24 (by decide) (by decide) (by decide) (by decide)] at e
  exact e
theorem V5_arg25 : V5 m outs c main_arg25 = (m ((c : Thread nD τ).loc main_arg25)) := V5_keep m outs c main_arg25 (by decide) (by decide) (by decide) (by decide) (by decide)
theorem V5_v68 : (V5 m outs c main_v68 : S1x128.Idx → EReal) = row128 (m ((c : Thread nD τ).loc main_arg26)) := by
  have e := ops2_v68 (V4 m outs c)
  rw [V4_keep m outs c main_arg26 (by decide) (by decide) (by decide) (by decide)] at e
  exact e

/-! ### The operands of the last launch -/

theorem V7_v79 : (V7 m outs c main_v79 : S512x384.Idx → EReal)
    = cat3 (pool (outs 2 main_v25 c) (m ((c : Thread nD τ).loc main_arg2))) (pool (outs 4 main_v47 c) (m ((c : Thread nD τ).loc main_arg2))) (pool (outs 6 main_v69 c) (m ((c : Thread nD τ).loc main_arg2))) := by
  have e := ops3_v79 (V6 m outs c)
  rw [V6_v25 m outs c, V6_v47 m outs c, V6_v69 m outs c, V6_keep m outs c main_arg2 (by decide) (by decide) (by decide) (by decide) (by decide) (by decide)] at e
  exact e
theorem V7_arg27 : V7 m outs c main_arg27 = (m ((c : Thread nD τ).loc main_arg27)) := V7_keep m outs c main_arg27 (by decide) (by decide) (by decide) (by decide) (by decide) (by decide) (by decide)
theorem V7_v80 : (V7 m outs c main_v80 : S1x384.Idx → EReal) = row384 (m ((c : Thread nD τ).loc main_arg28)) := by
  have e := ops3_v80 (V6 m outs c)
  rw [V6_keep m outs c main_arg28 (by decide) (by decide) (by decide) (by decide) (by decide) (by decide)] at e
  exact e
theorem V7_arg29 : V7 m outs c main_arg29 = (m ((c : Thread nD τ).loc main_arg29)) := V7_keep m outs c main_arg29 (by decide) (by decide) (by decide) (by decide) (by decide) (by decide) (by decide)
theorem V7_v81 : (V7 m outs c main_v81 : S1x10.Idx → EReal) = row10 (m ((c : Thread nD τ).loc main_arg30)) := by
  have e := ops3_v81 (V6 m outs c)
  rw [V6_keep m outs c main_arg30 (by decide) (by decide) (by decide) (by decide) (by decide) (by decide)] at e
  exact e

end Launch

end Cert.KernelIdeal.KV

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«108267_j14216341750214_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.LibMlpTile.lean ====
/-
  A two-layer perceptron with a folded scale and shift, applied to a block of rows, read at an entry at the ideal
  instance, for any extents.

  The block `x` (a×K) is multiplied with `w1` (K×H) into the zero accumulator; a one-row bias `b1`, a one-row scale `s`
  and a one-row shift `t` are broadcast over the rows; the result is clamped below at zero, multiplied with `w2` (H×C)
  into the zero accumulator, a one-row bias `b2` is added, and the result is clamped below at zero again. Changes of
  float format are the identity on the extended reals, a shape cast to the same shape is the identity, both products are
  the textbook sums and a row broadcast reads the operand's one row, so at row `p` and column `q` the block holds
  `max (∑ k, max ((∑ i, x(p,i)·w1(i,k) + b1(0,k)) · s(0,k) + t(0,k)) 0 · w2(k,q) + b2(0,q)) 0`.
-/
import proofs.«108267_j14216341750214_1_alg».proof.Proof.LibAffineBlock
import Idealize.ShloMosaic.Lib.Pipeline.Value

noncomputable section

open scoped BigOperators

namespace Cert.LibMlpTile

open Idealize.ShloMosaic Idealize.ShloMosaic.ValueIdx

variable {a K H C : Nat}

/-- The value of the fused block at the entry `(p, q)`. -/
def mlpAt (x : FVec Ideal ⟨2, ![a, K]⟩ .f32) (w1 : FVec Ideal ⟨2, ![K, H]⟩ .f32)
    (b1 s t : FVec Ideal ⟨2, ![1, H]⟩ .f32) (w2 : FVec Ideal ⟨2, ![H, C]⟩ .f32) (b2 : FVec Ideal ⟨2, ![1, C]⟩ .f32)
    (p : Fin a) (q : Fin C) : EReal :=
  max ((∑ k : Fin H, max (((∑ i : Fin K, x (ix2 p i) * w1 (ix2 i k)) + b1 (ix2 (0 : Fin 1) k)) * s (ix2 (0 : Fin 1) k)
      + t (ix2 (0 : Fin 1) k)) 0 * w2 (ix2 k q)) + b2 (ix2 (0 : Fin 1) q)) 0

/-- The printed chain of vector operations, read at `(p, q)`, is `mlpAt`. -/
theorem tile_apply
    (d1 : DotDims ⟨2, ![a, K]⟩ ⟨2, ![K, H]⟩ ⟨2, ![a, H]⟩)
    (hlc1 : d1.lhsContracting = [1]) (hrc1 : d1.rhsContracting = [0]) (hln1 : d1.lhsNonContracting = [0])
    (hrn1 : d1.rhsNonContracting = [1]) (hlb1 : d1.lhsBatch = []) (hrb1 : d1.rhsBatch = [])
    (d2 : DotDims ⟨2, ![a, H]⟩ ⟨2, ![H, C]⟩ ⟨2, ![a, C]⟩)
    (hlc2 : d2.lhsContracting = [1]) (hrc2 : d2.rhsContracting = [0]) (hln2 : d2.lhsNonContracting = [0])
    (hrn2 : d2.rhsNonContracting = [1]) (hlb2 : d2.lhsBatch = []) (hrb2 : d2.rhsBatch = [])
    (prec1 prec2 : Option ContractPrecision)
    (x : FVec Ideal ⟨2, ![a, K]⟩ .f32) (w1 : FVec Ideal ⟨2, ![K, H]⟩ .f32)
    (b1 s t : FVec Ideal ⟨2, ![1, H]⟩ .f32) (w2 : FVec Ideal ⟨2, ![H, C]⟩ .f32) (b2 : FVec Ideal ⟨2, ![1, C]⟩ .f32)
    (hx : (⟨2, ![a, K]⟩ : Shape).ShapeCasts ⟨2, ![a, K]⟩)
    (hrow : (⟨2, ![1, H]⟩ : Shape).ShapeCasts ⟨2, ![1, H]⟩) (hbc : (⟨2, ![1, H]⟩ : Shape).Broadcasts ⟨2, ![a, H]⟩)
    (hrow2 : (⟨2, ![1, C]⟩ : Shape).ShapeCasts ⟨2, ![1, C]⟩) (hbc2 : (⟨2, ![1, C]⟩ : Shape).Broadcasts ⟨2, ![a, C]⟩)
    (hbf : FTy.bf16.bits < FTy.f32.bits) (p : Fin a) (q : Fin C) :
    maximumf
      (addf
        (matmul d2 prec2
          (truncf .bf16
            (maximumf
              (addf
                (mulf
                  (addf
                    (matmul d1 prec1 (truncf .bf16 (shapeCast ⟨2, ![a, K]⟩ x hx) hbf) (truncf .bf16 w1 hbf)
                      (constant (F := Ideal) ⟨2, ![a, H]⟩ .f32 0x00000000#32))
                    (broadcastTo ⟨2, ![a, H]⟩ (shapeCast ⟨2, ![1, H]⟩ b1 hrow) hbc))
                  (broadcastTo ⟨2, ![a, H]⟩ (shapeCast ⟨2, ![1, H]⟩ s hrow) hbc))
                (broadcastTo ⟨2, ![a, H]⟩ (shapeCast ⟨2, ![1, H]⟩ t hrow) hbc))
              (broadcast ⟨2, ![a, H]⟩ (Scalar.ofBits (F := Ideal) .f32 0x00000000#32)))
            hbf)
          (truncf .bf16 w2 hbf) (constant (F := Ideal) ⟨2, ![a, C]⟩ .f32 0x00000000#32))
        (broadcastTo ⟨2, ![a, C]⟩ (shapeCast ⟨2, ![1, C]⟩ b2 hrow2) hbc2))
      (broadcast ⟨2, ![a, C]⟩ (Scalar.ofBits (F := Ideal) .f32 0x00000000#32)) (ix2 p q)
      = mlpAt x w1 b1 s t w2 b2 p q := by
  have hz : Scalar.ofBits (F := Ideal) .f32 0x00000000#32 = (0 : EReal) := Ideal.ofBits_zero_f32
  unfold mlpAt
  simp only [shapeCast_self]
  rw [maximumf_apply, Cert.LibAffineBlock.affine_apply d2 hlc2 hrc2 hln2 hrn2 hlb2 hrb2 prec2 _ _ _ hbc2 p q,
    broadcast_apply, hz]
  refine congrArg (fun u : EReal => max (u + b2 (ix2 (0 : Fin 1) q)) 0) ?_
  refine Finset.sum_congr rfl fun k _ => ?_
  rw [truncf_apply, truncf_apply, maximumf_apply, addf_apply, mulf_apply,
    Cert.LibAffineBlock.affine_apply d1 hlc1 hrc1 hln1 hrn1 hlb1 hrb1 prec1 _ _ _ hbc p k,
    broadcastTo_1b_ab_apply _ hbc p k, broadcastTo_1b_ab_apply _ hbc p k, broadcast_apply]
  refine congrArg (fun u : EReal => max ((u + b1 (ix2 (0 : Fin 1) k)) * s (ix2 (0 : Fin 1) k) + t (ix2 (0 : Fin 1) k)) 0
    * w2 (ix2 k q)) ?_
  refine Finset.sum_congr rfl fun i _ => ?_
  rw [truncf_apply, truncf_apply]

/-- The value of a classifier head (affine map, clamp below at zero, affine map) at the entry `(p, q)`. -/
def headAt (x : FVec Ideal ⟨2, ![a, K]⟩ .f32) (w1 : FVec Ideal ⟨2, ![K, H]⟩ .f32) (b1 : FVec Ideal ⟨2, ![1, H]⟩ .f32)
    (w2 : FVec Ideal ⟨2, ![H, C]⟩ .f32) (b2 : FVec Ideal ⟨2, ![1, C]⟩ .f32) (p : Fin a) (q : Fin C) : EReal :=
  (∑ k : Fin H, max ((∑ i : Fin K, x (ix2 p i) * w1 (ix2 i k)) + b1 (ix2 (0 : Fin 1) k)) 0 * w2 (ix2 k q))
    + b2 (ix2 (0 : Fin 1) q)

/-- The printed chain of the head's vector operations, read at `(p, q)`, is `headAt`. -/
theorem head_apply
    (d1 : DotDims ⟨2, ![a, K]⟩ ⟨2, ![K, H]⟩ ⟨2, ![a, H]⟩)
    (hlc1 : d1.lhsContracting = [1]) (hrc1 : d1.rhsContracting = [0]) (hln1 : d1.lhsNonContracting = [0])
    (hrn1 : d1.rhsNonContracting = [1]) (hlb1 : d1.lhsBatch = []) (hrb1 : d1.rhsBatch = [])
    (d2 : DotDims ⟨2, ![a, H]⟩ ⟨2, ![H, C]⟩ ⟨2, ![a, C]⟩)
    (hlc2 : d2.lhsContracting = [1]) (hrc2 : d2.rhsContracting = [0]) (hln2 : d2.lhsNonContracting = [0])
    (hrn2 : d2.rhsNonContracting = [1]) (hlb2 : d2.lhsBatch = []) (hrb2 : d2.rhsBatch = [])
    (prec1 prec2 : Option ContractPrecision)
    (x : FVec Ideal ⟨2, ![a, K]⟩ .f32) (w1 : FVec Ideal ⟨2, ![K, H]⟩ .f32) (b1 : FVec Ideal ⟨2, ![1, H]⟩ .f32)
    (w2 : FVec Ideal ⟨2, ![H, C]⟩ .f32) (b2 : FVec Ideal ⟨2, ![1, C]⟩ .f32)
    (hx : (⟨2, ![a, K]⟩ : Shape).ShapeCasts ⟨2, ![a, K]⟩)
    (hrow : (⟨2, ![1, H]⟩ : Shape).ShapeCasts ⟨2, ![1, H]⟩) (hbc : (⟨2, ![1, H]⟩ : Shape).Broadcasts ⟨2, ![a, H]⟩)
    (hrow2 : (⟨2, ![1, C]⟩ : Shape).ShapeCasts ⟨2, ![1, C]⟩) (hbc2 : (⟨2, ![1, C]⟩ : Shape).Broadcasts ⟨2, ![a, C]⟩)
    (hbf : FTy.bf16.bits < FTy.f32.bits) (p : Fin a) (q : Fin C) :
    addf
      (matmul d2 prec2
        (truncf .bf16
          (maximumf
            (addf
              (matmul d1 prec1 (truncf .bf16 (shapeCast ⟨2, ![a, K]⟩ x hx) hbf) (truncf .bf16 w1 hbf)
                (constant (F := Ideal) ⟨2, ![a, H]⟩ .f32 0x00000000#32))
              (broadcastTo ⟨2, ![a, H]⟩ (shapeCast ⟨2, ![1, H]⟩ b1 hrow) hbc))
            (broadcast ⟨2, ![a, H]⟩ (Scalar.ofBits (F := Ideal) .f32 0x00000000#32)))
          hbf)
        (truncf .bf16 w2 hbf) (constant (F := Ideal) ⟨2, ![a, C]⟩ .f32 0x00000000#32))
      (broadcastTo ⟨2, ![a, C]⟩ (shapeCast ⟨2, ![1, C]⟩ b2 hrow2) hbc2) (ix2 p q)
      = headAt x w1 b1 w2 b2 p q := by
  have hz : Scalar.ofBits (F := Ideal) .f32 0x00000000#32 = (0 : EReal) := Ideal.ofBits_zero_f32
  unfold headAt
  simp only [shapeCast_self]
  rw [Cert.LibAffineBlock.affine_apply d2 hlc2 hrc2 hln2 hrn2 hlb2 hrb2 prec2 _ _ _ hbc2 p q, hz]
  refine congrArg (fun u : EReal => u + b2 (ix2 (0 : Fin 1) q)) ?_
  refine Finset.sum_congr rfl fun k _ => ?_
  rw [truncf_apply, truncf_apply, maximumf_apply,
    Cert.LibAffineBlock.affine_apply d1 hlc1 hrc1 hln1 hrn1 hlb1 hrb1 prec1 _ _ _ hbc p k, broadcast_apply]
  refine congrArg (fun u : EReal => max (u + b1 (ix2 (0 : Fin 1) k)) 0 * w2 (ix2 k q)) ?_
  refine Finset.sum_congr rfl fun i _ => ?_
  rw [truncf_apply, truncf_apply]

end Cert.LibMlpTile

end
-- ==== Proof.LibColumnForms.lean ====
/-
  Four index forms of vector operations on the extended reals, at explicit coordinates and for any extents: the sum
  along the rows of a matrix started from zero, the cast of a vector to a one-column matrix, the broadcast of a
  one-column matrix along the rows, and the square root read at an index.
-/
import Idealize.ShloMosaic.Lib.ValueIdx
import Idealize.ShloMosaic.Lib.Pipeline.Value
import Idealize.ShloMosaic.PureOps.Ideal.Laws

noncomputable section

open scoped BigOperators

namespace Cert.Lib.ColumnForms

open Idealize.ShloMosaic Idealize.ShloMosaic.ValueIdx

variable {α : Type}

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- An [a] array cast to a column [a, 1] reads, at (r, z), the operand at r, whatever the unit coordinate z. -/
theorem shapeCast_a_a1_apply {a : Nat} (x : (⟨1, ![a]⟩ : Shape).Idx → α) (h : (⟨1, ![a]⟩ : Shape).ShapeCasts ⟨2, ![a, 1]⟩)
    (r : Fin a) (z : Fin 1) : shapeCast ⟨2, ![a, 1]⟩ x h (ix2 r z) = x (ix1 r) :=
  shapeCast_apply x h _ _ (by
    have hz : z.val = 0 := by omega
    rw [Shape.rowMajor_val_two, Shape.rowMajor_val_one]
    show r.val = r.val * 1 + z.val
    rw [hz, Nat.mul_one, Nat.add_zero])

/-- A column [a, 1] broadcast to [a, b] reads, at (p, c), the column's entry of row p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The square root of a vector reads, at an index, the square root of the entry. -/
theorem sqrt_apply {s : Shape} {φ : FTy} (a : FVec Ideal s φ) (i : s.Idx) : sqrt a i = Ideal.sqrt (a i) := rfl

end Cert.Lib.ColumnForms

end
-- ==== Proof.LibPoolForms.lean ====
/-
  Index forms of vector operations on the extended reals, at explicit coordinates and for any extents: the sum along
  the rows and the sum down the columns of a matrix started from the zero word, the maximum along the rows of a matrix
  started from the word of −∞, the broadcast of a one-entry matrix over a whole matrix, and the exponential read at an
  index.  The three reductions take the side condition on the starting word as the plain equation of two words of the format's width.
-/
import Idealize.ShloMosaic.Lib.ValueIdx
import Idealize.ShloMosaic.Lib.Pipeline.Value
import Idealize.ShloMosaic.PureOps.Ideal.Laws

noncomputable section

open scoped BigOperators

namespace Cert.Lib.PoolForms

open Idealize.ShloMosaic Idealize.ShloMosaic.ValueIdx

variable {α : Type}

/-- The sum down the columns of an a×b array, started from the zero word, read at column k: the sum over the a rows
    of the entries of that column. -/
theorem colSum_apply {a b : Nat} (src : FVec Ideal ⟨2, ![a, b]⟩ .f32)
    (h : (⟨2, ![a, b]⟩ : Shape).Reduces [0] ⟨1, ![b]⟩) (hφ : FKind.Formats .f32)
    (hacc : (0x00000000#32 : BitVec FTy.f32.bits) = 0x00000000#32) (k : Fin b) :
    multiReduction (F := Ideal) .add [0] ⟨1, ![b]⟩ src 0x00000000#32 h hφ hacc (ix1 k) = ∑ r : Fin a, src (ix2 r k) := by
  refine (Ideal.multiReduction_add_single src _ h hφ hacc (ix1 k)).trans ?_
  refine Finset.sum_congr rfl fun r _ => congrArg src ?_
  funext ax; apply Fin.ext
  match ax with
  | ⟨0, _⟩ => rfl
  | ⟨1, _⟩ => rfl

/-- The sum along the rows of an a×b array, started from the zero word, read at row r: the sum over the b columns
    of the entries of that row. -/
theorem rowSum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = 0x00000000#32) (r : Fin a) :
    multiReduction (F := Ideal) .add [1] ⟨1, ![a]⟩ src 0x00000000#32 h hφ hacc (ix1 r) = ∑ k : Fin b, src (ix2 r k) := by
  refine (Ideal.multiReduction_add_single src _ h hφ hacc (ix1 r)).trans ?_
  refine Finset.sum_congr rfl fun k _ => congrArg src ?_
  funext ax; apply Fin.ext
  match ax with
  | ⟨0, _⟩ => rfl
  | ⟨1, _⟩ => rfl

/-- The maximum along the rows of an a×b array started from the word of −∞, read at row r: the fold of max over the
    row's entries, from the value of that word. -/
theorem rowMax_apply {a b : Nat} (src : FVec Ideal ⟨2, ![a, b]⟩ .f32)
    (h : (⟨2, ![a, b]⟩ : Shape).Reduces [1] ⟨1, ![a]⟩) (hφ : FKind.Formats .f32)
    (hacc : (0xFF800000#32 : BitVec FTy.f32.bits) = 0xFF800000#32) (r : Fin a) :
    multiReduction (F := Ideal) .maximumf [1] ⟨1, ![a]⟩ src 0xFF800000#32 h hφ hacc (ix1 r)
      = (Finset.univ : Finset (Fin b)).fold max (Ideal.ofBits .f32 0xFF800000#32) (fun k => src (ix2 r k)) := by
  refine (Ideal.multiReduction_maximumf_single src 0xFF800000#32 h hφ hacc (ix1 r)).trans ?_
  refine Finset.fold_congr fun k _ => congrArg src ?_
  funext ax; apply Fin.ext
  match ax with
  | ⟨0, _⟩ => rfl
  | ⟨1, _⟩ => rfl

/-- A one-entry matrix [1, 1] broadcast to [a, b] reads its one entry everywhere. -/
theorem broadcastTo_11_ab_apply {a b : Nat} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- The exponential of a vector reads, at an index, the exponential of the entry. -/
theorem exp_apply {s : Shape} {φ : FTy} (a : FVec Ideal s φ) (i : s.Idx) : exp a i = Ideal.exp (a i) := rfl

end Cert.Lib.PoolForms

end
-- ==== Proof.LibRowScalar.lean ====
/-
  Three small facts at the ideal instance, for any extents.

  * A vector of length a made a column (a × 1) and then repeated along the rows of an a × b array reads, at (r, k), the
    vector's entry r — the way a per-row scalar (a degree, a norm) is spread over a row on the host.
  * The 32-bit word 0x3F800000 is the number one.
  * The logistic function of a vector, read at an index, is the logistic function of the entry, which on the extended
    reals is 1 / (1 + exp (−x)) by definition.
-/
import Idealize.ShloMosaic.Lib.ValueIdx
import Idealize.ShloMosaic.Lib.Pipeline.Value
import Idealize.ShloMosaic.PureOps.Ideal.Laws

noncomputable section

namespace Cert.LibRowScalar

open Idealize.ShloMosaic Idealize.ShloMosaic.ValueIdx

/-- The word of the number one. -/
theorem one_word : Ideal.ofBits .f32 0x3F800000#32 = 1 := by
  simp [Ideal.ofBits, Ideal.ieee, -EReal.coe_mul]; norm_num

/-- A vector made a column and then repeated along the rows reads, at (r, k), its entry r. -/
theorem col_apply {a b : Nat} {α : Type} (v : (⟨1, ![a]⟩ : Shape).Idx → α)
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (k : Fin b) :
    broadcastInDim ⟨2, ![a, b]⟩ (![0, 1] : Fin 2 → Fin 2) g2 (broadcastInDim ⟨2, ![a, 1]⟩ (![0] : Fin 1 → Fin 2) g1 v) (ix2 r k)
      = v (ix1 r) := by
  rw [broadcastInDim_apply (![0, 1] : Fin 2 → Fin 2) g2 _ (ix2 r k) (ix2 r (0 : Fin 1)) (fun ax => by
    match ax with
    | ⟨0, _⟩ =>
      show r.val = if a = 1 then 0 else r.val
      split
      · have := r.isLt; omega
      · rfl
    | ⟨1, _⟩ => rfl)]
  exact broadcastInDim_apply (![0] : Fin 1 → Fin 2) g1 v (ix2 r (0 : Fin 1)) (ix1 r) (fun ax => by
    match ax with
    | ⟨0, _⟩ =>
      show r.val = if a = 1 then 0 else r.val
      split
      · have := r.isLt; omega
      · rfl)

/-- The logistic function of a vector, read at an index. -/
theorem logistic_apply {s : Shape} {φ : FTy} (x : FVec Ideal s φ) (i : s.Idx) : logistic x i = Ideal.logistic (x i) := rfl

/-- The logistic function on the extended reals is 1 / (1 + exp (−x)). -/
theorem logistic_eq (x : EReal) : Ideal.logistic x = Ideal.div 1 (1 + Ideal.exp (-x)) := rfl

end Cert.LibRowScalar

end
-- ==== Proof.LibLogSoftmax.lean ====
/-
  The log-softmax of the rows of an array, on the extended reals, for any extents: its value at an entry, and the two
  spellings of it that programs print.

  For a finite family z, `logSoftmaxAt z q = (z_q − M) − log Σ_p exp(z_p − M)` with M = `famMax z`, the maximum of the
  family taken from −∞ (the word 0xFF800000).

  * The tile spelling (a kernel body): the row maxima by a lane reduction from the word of −∞, made a column and spread
    over the columns; the shifted tile; the row sums of its exponentials by a lane reduction from the zero word, made a
    column; their logarithms spread over the columns; the difference — `tile_apply`.
  * The host spelling (what `jax.nn.log_softmax` along the last axis prints): the row maxima by a reduction with a
    maximum body from −∞, joined once more with a broadcast −∞ (which changes nothing); that vector made a column and
    spread over the columns; the shifted array; the row sums of the exponentials by an add-reduction from zero, made a
    column; their logarithms spread; the difference — `host_apply`, with `hostRowMax_apply` and `hostRowSum_apply`
    for the two reductions alone.

  Both read, at (r, q), `logSoftmaxAt` of row r at q.
-/
import proofs.«108267_j14216341750214_1_alg».proof.Proof.LibColumnForms
import proofs.«108267_j14216341750214_1_alg».proof.Proof.LibPoolForms
import proofs.«108267_j14216341750214_1_alg».proof.Proof.LibRowScalar
import Idealize.ShloMosaic.Lib.ValueIdx
import Idealize.ShloMosaic.Lib.Pipeline.Value
import Idealize.ShloMosaic.PureOps.Ideal.Laws

noncomputable section

open scoped BigOperators

namespace Cert.Lib.LogSoftmax

open Idealize.ShloMosaic Idealize.ShloMosaic.ValueIdx

/-- The maximum of a finite family, taken from −∞ (the word 0xFF800000). -/
def famMax {c : Nat} (z : Fin c → EReal) : EReal :=
  (Finset.univ : Finset (Fin c)).fold max (Ideal.ofBits .f32 0xFF800000#32) z

/-- The log-softmax of a finite family at q: shift by the maximum, then subtract the logarithm of the sum of the
    exponentials of the shifted family. -/
def logSoftmaxAt {c : Nat} (z : Fin c → EReal) (q : Fin c) : EReal :=
  (z q - famMax z) - Ideal.log (∑ p : Fin c, Ideal.exp (z p - famMax z))

/-! ## The tile spelling -/

/-- The log-softmax along the rows of an a×b array as a kernel body spells it — the row maxima from the word of −∞
    made a column and spread over the rows, the shifted array, the row sums of its exponentials from the zero word
    made a column, their logarithms spread over the rows — read at (p, q): the log-softmax of row p at q. -/
theorem tile_apply {a b : Nat} (z : FVec Ideal ⟨2, ![a, b]⟩ .f32)
    (hr : (⟨2, ![a, b]⟩ : Shape).Reduces [1] ⟨1, ![a]⟩) (hφ : FKind.Formats .f32)
    (hm : (0xFF800000#32 : BitVec FTy.f32.bits) = 0xFF800000#32)
    (hs : (0x00000000#32 : BitVec FTy.f32.bits) = 0x00000000#32)
    (hc : (⟨1, ![a]⟩ : Shape).ShapeCasts ⟨2, ![a, 1]⟩) (hb : (⟨2, ![a, 1]⟩ : Shape).Broadcasts ⟨2, ![a, b]⟩)
    (p : Fin a) (q : Fin b) :
    subf (subf z (broadcastTo ⟨2, ![a, b]⟩ (shapeCast ⟨2, ![a, 1]⟩
              (multiReduction (F := Ideal) .maximumf [1] ⟨1, ![a]⟩ z 0xFF800000#32 hr hφ hm) hc) hb))
        (broadcastTo ⟨2, ![a, b]⟩ (log (shapeCast ⟨2, ![a, 1]⟩
            (multiReduction (F := Ideal) .add [1] ⟨1, ![a]⟩
              (exp (subf z (broadcastTo ⟨2, ![a, b]⟩ (shapeCast ⟨2, ![a, 1]⟩
                (multiReduction (F := Ideal) .maximumf [1] ⟨1, ![a]⟩ z 0xFF800000#32 hr hφ hm) hc) hb)))
              0x00000000#32 hr hφ hs) hc)) hb) (ix2 p q)
      = logSoftmaxAt (fun k => z (ix2 p k)) q := by
  have hM : ∀ k : Fin b, (broadcastTo ⟨2, ![a, b]⟩ (shapeCast ⟨2, ![a, 1]⟩
        (multiReduction (F := Ideal) .maximumf [1] ⟨1, ![a]⟩ z 0xFF800000#32 hr hφ hm) hc) hb) (ix2 p k)
      = famMax (fun k => z (ix2 p k)) := fun k =>
    (Cert.Lib.ColumnForms.broadcastTo_a1_ab_apply _ hb p k).trans
      ((Cert.Lib.ColumnForms.shapeCast_a_a1_apply _ hc p (0 : Fin 1)).trans (Cert.Lib.PoolForms.rowMax_apply z hr hφ hm p))
  unfold logSoftmaxAt
  refine congrArg₂ (fun s t : EReal => s - t) (congrArg (fun t : EReal => z (ix2 p q) - t) (hM q)) ?_
  refine (Cert.Lib.ColumnForms.broadcastTo_a1_ab_apply _ hb p q).trans ?_
  refine congrArg Ideal.log ?_
  refine (Cert.Lib.ColumnForms.shapeCast_a_a1_apply _ hc p (0 : Fin 1)).trans ?_
  refine (Cert.Lib.PoolForms.rowSum_apply _ hr hφ hs p).trans ?_
  refine Finset.sum_congr rfl fun k _ => ?_
  exact congrArg (fun t : EReal => Ideal.exp (z (ix2 p k) - t)) (hM k)

/-! ## The host spelling -/

/-- −∞ is neutral for the maximum. -/
theorem max_negInf (y : EReal) : max (Ideal.ofBits .f32 0xFF800000#32) y = y := by
  simp [Ideal.ofBits, Ideal.ieee]

/-- The reduced index r with column k put back is (r, k). -/
theorem lift_ix2 {a b : Nat} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  match c with
  | ⟨0, _⟩ => rfl
  | ⟨1, _⟩ => rfl

/-- A host reduction with a maximum body along the rows of an a×b array from the word of −∞, read at row r: the
    maximum of the row taken from −∞. -/
theorem hostRowMax_apply {a b : Nat} (z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf z (constant (F := Ideal) (⟨0, ![]⟩ : Shape) .f32 0xFF800000#32) h' hu (ix1 r)
      = famMax (fun k : Fin b => z (ix2 r k)) := by
  rw [Host.reduce_eq_fold_single FloatOps.maximumf z _ h' h hu]
  unfold famMax
  have hf : (z ∘ h.lift (ix1 r)) = fun k : Fin b => z (ix2 r k) := funext fun k => congrArg z (lift_ix2 h r k)
  exact congrArg (fun f => Finset.fold max (Ideal.ofBits .f32 0xFF800000#32) f (Finset.univ : Finset (Fin b))) hf

/-- A host add-reduction along the rows of an a×b array from the zero word, read at row r: the sum of the row. -/
theorem hostRowSum_apply {a b : Nat} (x : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduceAdd x (constant (F := Ideal) (⟨0, ![]⟩ : Shape) .f32 0x00000000#32) h' hu (ix1 r) = ∑ k : Fin b, x (ix2 r k) := by
  simp only [Host.reduceAdd, Ideal.hostReduceAdd_def]
  rw [Ideal.hostReduceAdd_single h' h]
  have h0 : (constant (F := Ideal) (⟨0, ![]⟩ : Shape) .f32 0x00000000#32) (Shape.Idx.first hu) = (0 : EReal) := Ideal.ofBits_zero_f32
  rw [h0, zero_add]
  exact Finset.sum_congr rfl fun k _ => congrArg x (lift_ix2 h r k)

/-- The host log-softmax along the rows, read at (r, q). -/
theorem host_apply {a b : Nat} (z : FVec Ideal ⟨2, ![a, b]⟩ .f32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel)
    (g0 : (⟨0, ![]⟩ : Shape).BroadcastsInDim ⟨1, ![a]⟩ (![] : Fin 0 → Fin 1))
    (g1 : (⟨1, ![a]⟩ : Shape).BroadcastsInDim ⟨2, ![a, 1]⟩ (![0] : Fin 1 → Fin 2))
    (g2 : (⟨2, ![a, 1]⟩ : Shape).BroadcastsInDim ⟨2, ![a, b]⟩ (![0, 1] : Fin 2 → Fin 2)) (r : Fin a) (q : Fin b) :
    subf (subf z (broadcastInDim ⟨2, ![a, b]⟩ (![0, 1] : Fin 2 → Fin 2) g2 (broadcastInDim ⟨2, ![a, 1]⟩ (![0] : Fin 1 → Fin 2) g1
            (maximumf (broadcastInDim ⟨1, ![a]⟩ (![] : Fin 0 → Fin 1) g0 (constant (F := Ideal) (⟨0, ![]⟩ : Shape) .f32 0xFF800000#32))
              (Host.reduce FloatOps.maximumf z (constant (F := Ideal) (⟨0, ![]⟩ : Shape) .f32 0xFF800000#32) h' hu)))))
        (broadcastInDim ⟨2, ![a, b]⟩ (![0, 1] : Fin 2 → Fin 2) g2 (Host.log (broadcastInDim ⟨2, ![a, 1]⟩ (![0] : Fin 1 → Fin 2) g1
          (Host.reduceAdd (Host.exp (subf z (broadcastInDim ⟨2, ![a, b]⟩ (![0, 1] : Fin 2 → Fin 2) g2
              (broadcastInDim ⟨2, ![a, 1]⟩ (![0] : Fin 1 → Fin 2) g1
                (maximumf (broadcastInDim ⟨1, ![a]⟩ (![] : Fin 0 → Fin 1) g0 (constant (F := Ideal) (⟨0, ![]⟩ : Shape) .f32 0xFF800000#32))
                  (Host.reduce FloatOps.maximumf z (constant (F := Ideal) (⟨0, ![]⟩ : Shape) .f32 0xFF800000#32) h' hu))))))
            (constant (F := Ideal) (⟨0, ![]⟩ : Shape) .f32 0x00000000#32) h' hu)))) (ix2 r q)
      = logSoftmaxAt (fun k : Fin b => z (ix2 r k)) q := by
  have hM : ∀ k : Fin b, (broadcastInDim ⟨2, ![a, b]⟩ (![0, 1] : Fin 2 → Fin 2) g2 (broadcastInDim ⟨2, ![a, 1]⟩ (![0] : Fin 1 → Fin 2) g1
        (maximumf (broadcastInDim ⟨1, ![a]⟩ (![] : Fin 0 → Fin 1) g0 (constant (F := Ideal) (⟨0, ![]⟩ : Shape) .f32 0xFF800000#32))
          (Host.reduce FloatOps.maximumf z (constant (F := Ideal) (⟨0, ![]⟩ : Shape) .f32 0xFF800000#32) h' hu)))) (ix2 r k)
      = famMax (fun k : Fin b => z (ix2 r k)) := fun k => by
    refine (Cert.LibRowScalar.col_apply _ g1 g2 r k).trans ?_
    show max ((broadcastInDim ⟨1, ![a]⟩ (![] : Fin 0 → Fin 1) g0 (constant (F := Ideal) (⟨0, ![]⟩ : Shape) .f32 0xFF800000#32)) (ix1 r))
      (Host.reduce FloatOps.maximumf z (constant (F := Ideal) (⟨0, ![]⟩ : Shape) .f32 0xFF800000#32) h' hu (ix1 r)) = _
    rw [hostRowMax_apply z h' h hu r,
      broadcastInDim_apply (![] : Fin 0 → Fin 1) g0 _ (ix1 r) ix0 (fun d => d.elim0)]
    exact max_negInf _
  unfold logSoftmaxAt
  refine congrArg₂ (fun s t : EReal => s - t) (congrArg (fun t : EReal => z (ix2 r q) - t) (hM q)) ?_
  refine (broadcastInDim_apply (![0, 1] : Fin 2 → Fin 2) g2 _ (ix2 r q) (ix2 r (0 : Fin 1)) (fun ax => by
    match ax with
    | ⟨0, _⟩ =>
      show r.val = if a = 1 then 0 else r.val
      split
      · have := r.isLt; omega
      · rfl
    | ⟨1, _⟩ => rfl)).trans ?_
  refine congrArg Ideal.log ?_
  refine (broadcastInDim_apply (![0] : Fin 1 → Fin 2) g1 _ (ix2 r (0 : Fin 1)) (ix1 r) (fun ax => by
    match ax with
    | ⟨0, _⟩ =>
      show r.val = if a = 1 then 0 else r.val
      split
      · have := r.isLt; omega
      · rfl)).trans ?_
  refine (hostRowSum_apply _ h' h hu r).trans ?_
  refine Finset.sum_congr rfl fun k _ => ?_
  exact congrArg (fun t : EReal => Ideal.exp (z (ix2 r k) - t)) (hM k)

end Cert.Lib.LogSoftmax

end
-- ==== Proof.Payload.lean ====
/-
  What each kernel body computes, read at an entry of its output block, on the extended reals.

  The three graph-convolution bodies are the fused perceptron of `LibMlpTile` (product with `w1`, one-row bias, one-row
  scale and shift, clamp at zero, product with `w2`, one-row bias, clamp at zero) on a block of 5000 rows; the
  classifier body is the head of `LibMlpTile` (affine, clamp at zero, affine) followed by the row-wise log-softmax in its
  tile spelling.
-/
import proofs.«108267_j14216341750214_1_alg».proof.Proof.Gen.KernelIdeal.Skeleton
import proofs.«108267_j14216341750214_1_alg».proof.Proof.LibMlpTile
import proofs.«108267_j14216341750214_1_alg».proof.Proof.LibLogSoftmax

noncomputable section

open scoped BigOperators

namespace Cert.KernelIdeal.Pay

open Idealize.ShloMosaic Idealize.ShloMosaic.ValueIdx Cert.KernelIdeal Cert.KernelIdeal.Gen

/-- The first graph-convolution body (64 input features) at row `p`, column `q` of its block. -/
theorem k0_apply (v0 : FVec Ideal S5000x64 .f32) (v3 : FVec Ideal S64x128 .f32) (v6 v10 v14 : FVec Ideal S1x128 .f32)
    (v21 : FVec Ideal S128x128 .f32) (v24 : FVec Ideal S1x128 .f32) (p : Fin 5000) (q : Fin 128) :
    k0_pay1 (F := Ideal) v0 v3 v6 v10 v14 v21 v24 (ix2 p q) = Cert.LibMlpTile.mlpAt v0 v3 v6 v10 v14 v21 v24 p q := by
  unfold k0_pay1
  exact Cert.LibMlpTile.tile_apply _ rfl rfl rfl rfl rfl rfl _ rfl rfl rfl rfl rfl rfl none none v0 v3 v6 v10 v14 v21 v24
    _ _ _ _ _ _ p q

/-- The second graph-convolution body (128 input features). -/
theorem k1_apply (v0 : FVec Ideal S5000x128 .f32) (v3 : FVec Ideal S128x128 .f32) (v6 v10 v14 : FVec Ideal S1x128 .f32)
    (v21 : FVec Ideal S128x128 .f32) (v24 : FVec Ideal S1x128 .f32) (p : Fin 5000) (q : Fin 128) :
    k1_pay1 (F := Ideal) v0 v3 v6 v10 v14 v21 v24 (ix2 p q) = Cert.LibMlpTile.mlpAt v0 v3 v6 v10 v14 v21 v24 p q := by
  unfold k1_pay1
  exact Cert.LibMlpTile.tile_apply _ rfl rfl rfl rfl rfl rfl _ rfl rfl rfl rfl rfl rfl none none v0 v3 v6 v10 v14 v21 v24
    _ _ _ _ _ _ p q

/-- The third graph-convolution body (128 input features). -/
theorem k2_apply (v0 : FVec Ideal S5000x128 .f32) (v3 : FVec Ideal S128x128 .f32) (v6 v10 v14 : FVec Ideal S1x128 .f32)
    (v21 : FVec Ideal S128x128 .f32) (v24 : FVec Ideal S1x128 .f32) (p : Fin 5000) (q : Fin 128) :
    k2_pay1 (F := Ideal) v0 v3 v6 v10 v14 v21 v24 (ix2 p q) = Cert.LibMlpTile.mlpAt v0 v3 v6 v10 v14 v21 v24 p q := by
  unfold k2_pay1
  exact Cert.LibMlpTile.tile_apply _ rfl rfl rfl rfl rfl rfl _ rfl rfl rfl rfl rfl rfl none none v0 v3 v6 v10 v14 v21 v24
    _ _ _ _ _ _ p q

/-- The classifier body at row `g`, class `q`: the log-softmax, over the ten classes, of the head's logits of row `g`. -/
theorem k3_apply (v0 : FVec Ideal S512x384 .f32) (v3 : FVec Ideal S384x384 .f32) (v6 : FVec Ideal S1x384 .f32)
    (v13 : FVec Ideal S384x10 .f32) (v16 : FVec Ideal S1x10 .f32) (g : Fin 512) (q : Fin 10) :
    k3_pay1 (F := Ideal) v0 v3 v6 v13 v16 (ix2 g q)
      = Cert.Lib.LogSoftmax.logSoftmaxAt (fun c : Fin 10 => Cert.LibMlpTile.headAt v0 v3 v6 v13 v16 g c) q := by
  unfold k3_pay1
  refine (Cert.Lib.LogSoftmax.tile_apply _ _ _ _ _ _ _ g q).trans ?_
  refine congrArg (fun z : Fin 10 → EReal => Cert.Lib.LogSoftmax.logSoftmaxAt z q) (funext fun c => ?_)
  exact Cert.LibMlpTile.head_apply _ rfl rfl rfl rfl rfl rfl _ rfl rfl rfl rfl rfl rfl none none v0 v3 v6 v13 v16
    _ _ _ _ _ _ g c

end Cert.KernelIdeal.Pay

end
-- ==== Proof.MlpCongr.lean ====
/-
  The fused perceptron and the classifier head at an entry depend on their block only through ONE row, and on the
  other operands entrywise: two sets of operands that agree on that row and entrywise give the same value, whatever
  the numbers of rows of the two blocks. This is what carries a block's value to the whole array's value.
-/
import proofs.«108267_j14216341750214_1_alg».proof.Proof.LibMlpTile

noncomputable section

open scoped BigOperators

namespace Cert.LibMlpTile

open Idealize.ShloMosaic Idealize.ShloMosaic.ValueIdx

variable {a A K H C : Nat}

theorem mlpAt_congr (x : FVec Ideal ⟨2, ![a, K]⟩ .f32) (X : FVec Ideal ⟨2, ![A, K]⟩ .f32)
    (w1 W1 : FVec Ideal ⟨2, ![K, H]⟩ .f32) (b1 s t B1 S T : FVec Ideal ⟨2, ![1, H]⟩ .f32)
    (w2 W2 : FVec Ideal ⟨2, ![H, C]⟩ .f32) (b2 B2 : FVec Ideal ⟨2, ![1, C]⟩ .f32) (p : Fin a) (P : Fin A) (q : Fin C)
    (hx : ∀ i, x (ix2 p i) = X (ix2 P i)) (hw1 : ∀ i k, w1 (ix2 i k) = W1 (ix2 i k))
    (hb1 : ∀ k, b1 (ix2 (0 : Fin 1) k) = B1 (ix2 (0 : Fin 1) k)) (hs : ∀ k, s (ix2 (0 : Fin 1) k) = S (ix2 (0 : Fin 1) k))
    (ht : ∀ k, t (ix2 (0 : Fin 1) k) = T (ix2 (0 : Fin 1) k)) (hw2 : ∀ k j, w2 (ix2 k j) = W2 (ix2 k j))
    (hb2 : ∀ j, b2 (ix2 (0 : Fin 1) j) = B2 (ix2 (0 : Fin 1) j)) :
    mlpAt x w1 b1 s t w2 b2 p q = mlpAt X W1 B1 S T W2 B2 P q := by
  unfold mlpAt
  rw [hb2 q]
  refine congrArg (fun u : EReal => max (u + B2 (ix2 (0 : Fin 1) q)) 0) ?_
  refine Finset.sum_congr rfl fun k _ => ?_
  rw [hb1 k, hs k, ht k, hw2 k q]
  refine congrArg (fun u : EReal => max ((u + B1 (ix2 (0 : Fin 1) k)) * S (ix2 (0 : Fin 1) k) + T (ix2 (0 : Fin 1) k)) 0
    * W2 (ix2 k q)) ?_
  exact Finset.sum_congr rfl fun i _ => by rw [hx i, hw1 i k]

theorem headAt_congr (x : FVec Ideal ⟨2, ![a, K]⟩ .f32) (X : FVec Ideal ⟨2, ![A, K]⟩ .f32)
    (w1 W1 : FVec Ideal ⟨2, ![K, H]⟩ .f32) (b1 B1 : FVec Ideal ⟨2, ![1, H]⟩ .f32)
    (w2 W2 : FVec Ideal ⟨2, ![H, C]⟩ .f32) (b2 B2 : FVec Ideal ⟨2, ![1, C]⟩ .f32) (p : Fin a) (P : Fin A) (q : Fin C)
    (hx : ∀ i, x (ix2 p i) = X (ix2 P i)) (hw1 : ∀ i k, w1 (ix2 i k) = W1 (ix2 i k))
    (hb1 : ∀ k, b1 (ix2 (0 : Fin 1) k) = B1 (ix2 (0 : Fin 1) k)) (hw2 : ∀ k j, w2 (ix2 k j) = W2 (ix2 k j))
    (hb2 : ∀ j, b2 (ix2 (0 : Fin 1) j) = B2 (ix2 (0 : Fin 1) j)) :
    headAt x w1 b1 w2 b2 p q = headAt X W1 B1 W2 B2 P q := by
  unfold headAt
  rw [hb2 q]
  refine congrArg (fun u : EReal => u + B2 (ix2 (0 : Fin 1) q)) ?_
  refine Finset.sum_congr rfl fun k _ => ?_
  rw [hb1 k, hw2 k q]
  refine congrArg (fun u : EReal => max (u + B1 (ix2 (0 : Fin 1) k)) 0 * W2 (ix2 k q)) ?_
  exact Finset.sum_congr rfl fun i _ => by rw [hx i, hw1 i k]

end Cert.LibMlpTile

end
-- ==== Proof.RegionValue0.lean ====
/-
  What launch 0 of the fused perceptron leaves in its output array, as one function of the arrays it is entered with.

  The grid has ten points; point `t` stages rows `5000·t … 5000·t + 4999` of the node array and the whole of every other
  operand, and writes back rows `5000·t …` of the result. An entry of the block depends on the block only through its
  own row, so what point `t` writes back is the restriction to its rows of ONE function `G0` of the whole arrays; the ten
  blocks tile the result, which therefore ends holding `G0`.
-/
import proofs.«108267_j14216341750214_1_alg».proof.Proof.IdealHalves0
import proofs.«108267_j14216341750214_1_alg».proof.Proof.Payload
import proofs.«108267_j14216341750214_1_alg».proof.Proof.MlpCongr
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

theorem hz0 : (![0, 0] : Fin 2 → Nat) = fun _ => 0 := funext fun a => by fin_cases a <;> rfl

/-- The result array as a function of the operand arrays: the fused perceptron of row `i 0`, at column `i 1`. -/
def G0 (X : FVec Ideal S50000x64 .f32) (w1 : FVec Ideal S64x128 .f32) (b1 s t : FVec Ideal S1x128 .f32)
    (w2 : FVec Ideal S128x128 .f32) (b2 : FVec Ideal S1x128 .f32) : FVec Ideal S50000x128 .f32 :=
  fun i => Cert.LibMlpTile.mlpAt X w1 b1 s t w2 b2 (i 0) (i 1)

/-- The printed index maps over the grid: the node operand moves with the result along the rows, every other operand
    is staged whole. -/
theorem idx_facts0 : ∀ t : Fin cfg0.N, win0_0.index t (0 : Fin 2) = win0_7.index t (0 : Fin 2)
    ∧ win0_0.index t (1 : Fin 2) = 0 ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) ≤ 9 :=
  (by decide +kernel : ∀ t : Fin grid0.N, _)

/-- Every one of the ten row blocks is some point's. -/
theorem idx_onto0 : ∀ q0 : Fin 10, ∃ t : Fin cfg0.N, win0_7.index t = ![q0.val, 0] :=
  (by decide +kernel : ∀ q0 : Fin 10, ∃ t : Fin grid0.N, win0_7.index t = ![q0.val, 0])

/-- What point `t` writes back is block `t` of `G0` of the arrays as the launch finds them. -/
theorem flushed0_eq (c : Dev nD) (t : Fin cfg0.N) :
    (dat0 V c).flushed 7 t = ((cfg0.win 7).blk t).view.read (Elt Ideal)
      (G0 (V c main_v14) (V c main_arg3) (V c main_v21) (V c main_v22) (V c main_v23) (V c main_arg9) (V c main_v24)) := by
  show (cfg0.win 7).cut (grid0.coords t) ((dat0 V c).after 7 t) = _
  rw [after0_7]
  unfold out0_7
  rw [View.canon_unit_zero hz0]
  simp only [View.ld_unit_zero (S := S5000x64) hz0, View.ld_unit_zero (S := S64x128) hz0,
    View.ld_unit_zero (S := S1x128) hz0, View.ld_unit_zero (S := S128x128) hz0]
  obtain ⟨e0, e1, e2, e3, e4, e5, e6, e7, e8, e9, e10, e11, e12, e13, e14, e15⟩ := idx_facts0 t
  funext j
  obtain ⟨p, q, rfl⟩ : ∃ (p : Fin 5000) (q : Fin 128), j = ix2 p q := ⟨j 0, j 1, eq_ix2 j⟩
  have hQ : (((cfg0.win 7).blk t).view.emb (ix2 p q)) 1 = q :=
    Fin.ext (by show win0_7.index t (1 : Fin 2) * 128 + 1 * q.val = q.val; omega)
  show k0_pay1 (iblk0 V c 0 t) (iblk0 V c 1 t) (iblk0 V c 2 t) (iblk0 V c 3 t) (iblk0 V c 4 t) (iblk0 V c 5 t)
      (iblk0 V c 6 t) (ix2 p q)
    = Cert.LibMlpTile.mlpAt (V c main_v14) (V c main_arg3) (V c main_v21) (V c main_v22) (V c main_v23) (V c main_arg9) (V c main_v24)
        ((((cfg0.win 7).blk t).view.emb (ix2 p q)) 0) ((((cfg0.win 7).blk t).view.emb (ix2 p q)) 1)
  rw [hQ]
  refine (Cert.KernelIdeal.Pay.k0_apply (iblk0 V c 0 t) (iblk0 V c 1 t) (iblk0 V c 2 t) (iblk0 V c 3 t)
    (iblk0 V c 4 t) (iblk0 V c 5 t) (iblk0 V c 6 t) p q).trans ?_
  refine Cert.LibMlpTile.mlpAt_congr _ _ _ _ _ _ _ _ _ _ _ _ _ _ p _ q (fun i => ?_) (fun i k => ?_) (fun k => ?_)
    (fun k => ?_) (fun k => ?_) (fun k j => ?_) (fun j => ?_)
  · show V c main_v14 (((cfg0.win 0).blk t).view.emb (ix2 p i)) = V c main_v14 (ix2 _ i)
    refine congrArg (V c main_v14) (funext fun a => Fin.ext ?_)
    match a with
    | ⟨0, _⟩ => show win0_0.index t (0 : Fin 2) * 5000 + 1 * p.val = win0_7.index t (0 : Fin 2) * 5000 + 1 * p.val; omega
    | ⟨1, _⟩ => show win0_0.index t (1 : Fin 2) * 64 + 1 * i.val = i.val; omega
  · show V c main_arg3 (((cfg0.win 1).blk t).view.emb (ix2 i k)) = V c main_arg3 (ix2 i k)
    refine congrArg (V c main_arg3) (funext fun a => Fin.ext ?_)
    match a with
    | ⟨0, _⟩ => show win0_1.index t (0 : Fin 2) * 64 + 1 * i.val = i.val; omega
    | ⟨1, _⟩ => show win0_1.index t (1 : Fin 2) * 128 + 1 * k.val = k.val; omega
  · show V c main_v21 (((cfg0.win 2).blk t).view.emb (ix2 (0 : Fin 1) k)) = V c main_v21 (ix2 (0 : Fin 1) k)
    refine congrArg (V c main_v21) (funext fun a => Fin.ext ?_)
    match a with
    | ⟨0, _⟩ => show win0_2.index t (0 : Fin 2) * 1 + 1 * 0 = 0; omega
    | ⟨1, _⟩ => show win0_2.index t (1 : Fin 2) * 128 + 1 * k.val = k.val; omega
  · show V c main_v22 (((cfg0.win 3).blk t).view.emb (ix2 (0 : Fin 1) k)) = V c main_v22 (ix2 (0 : Fin 1) k)
    refine congrArg (V c main_v22) (funext fun a => Fin.ext ?_)
    match a with
    | ⟨0, _⟩ => show win0_3.index t (0 : Fin 2) * 1 + 1 * 0 = 0; omega
    | ⟨1, _⟩ => show win0_3.index t (1 : Fin 2) * 128 + 1 * k.val = k.val; omega
  · show V c main_v23 (((cfg0.win 4).blk t).view.emb (ix2 (0 : Fin 1) k)) = V c main_v23 (ix2 (0 : Fin 1) k)
    refine congrArg (V c main_v23) (funext fun a => Fin.ext ?_)
    match a with
    | ⟨0, _⟩ => show win0_4.index t (0 : Fin 2) * 1 + 1 * 0 = 0; omega
    | ⟨1, _⟩ => show win0_4.index t (1 : Fin 2) * 128 + 1 * k.val = k.val; omega
  · show V c main_arg9 (((cfg0.win 5).blk t).view.emb (ix2 k j)) = V c main_arg9 (ix2 k j)
    refine congrArg (V c main_arg9) (funext fun a => Fin.ext ?_)
    match a with
    | ⟨0, _⟩ => show win0_5.index t (0 : Fin 2) * 128 + 1 * k.val = k.val; omega
    | ⟨1, _⟩ => show win0_5.index t (1 : Fin 2) * 128 + 1 * j.val = j.val; omega
  · show V c main_v24 (((cfg0.win 6).blk t).view.emb (ix2 (0 : Fin 1) j)) = V c main_v24 (ix2 (0 : Fin 1) j)
    refine congrArg (V c main_v24) (funext fun a => Fin.ext ?_)
    match a with
    | ⟨0, _⟩ => show win0_6.index t (0 : Fin 2) * 1 + 1 * 0 = 0; omega
    | ⟨1, _⟩ => show win0_6.index t (1 : Fin 2) * 128 + 1 * j.val = j.val; omega

/-- An index of the result is in point `t`'s block iff each coordinate is in the block's range on its axis. -/
theorem mem_blk0 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v25).slice (win0_7.rect t)).set ↔ _
  rw [View.set_slice_whole, Rect.mem_set_unit]
  exact Iff.rfl

/-- Every index of the result lies in some point's block: the point of its row's block of 5000. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := idx_onto0 ⟨(i 0).val / 5000, by omega⟩
  have q0 : win0_7.index t (0 : Fin 2) = (i 0).val / 5000 := congrFun ht 0
  have q1 : win0_7.index t (1 : Fin 2) = 0 := congrFun ht 1
  refine ⟨t, flush0_7 t, ?_⟩
  rw [mem_blk0]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- The result array after the launch is `G0` of the arrays the launch was entered with. -/
theorem final0 (c : Dev nD) : (dat0 V c).arrAt 7 cfg0.N
    = G0 (V c main_v14) (V c main_arg3) (V c main_v21) (V c main_v22) (V c main_v23) (V c main_arg9) (V c main_v24) :=
  (dat0 V c).arrAt_eq_of_cover 7 _ (fun t _ => flushed0_eq V c t) (cover0)

end Cert.KernelIdeal.KV

end
-- ==== Proof.RegionValue1.lean ====
/-
  What launch 1 of the fused perceptron leaves in its output array, as one function of the arrays it is entered with.

  The grid has ten points; point `t` stages rows `5000·t … 5000·t + 4999` of the node array and the whole of every other
  operand, and writes back rows `5000·t …` of the result. An entry of the block depends on the block only through its
  own row, so what point `t` writes back is the restriction to its rows of ONE function `G1` of the whole arrays; the ten
  blocks tile the result, which therefore ends holding `G1`.
-/
import proofs.«108267_j14216341750214_1_alg».proof.Proof.IdealHalves1
import proofs.«108267_j14216341750214_1_alg».proof.Proof.Payload
import proofs.«108267_j14216341750214_1_alg».proof.Proof.MlpCongr
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

theorem hz1 : (![0, 0] : Fin 2 → Nat) = fun _ => 0 := funext fun a => by fin_cases a <;> rfl

/-- The result array as a function of the operand arrays: the fused perceptron of row `i 0`, at column `i 1`. -/
def G1 (X : FVec Ideal S50000x128 .f32) (w1 : FVec Ideal S128x128 .f32) (b1 s t : FVec Ideal S1x128 .f32)
    (w2 : FVec Ideal S128x128 .f32) (b2 : FVec Ideal S1x128 .f32) : FVec Ideal S50000x128 .f32 :=
  fun i => Cert.LibMlpTile.mlpAt X w1 b1 s t w2 b2 (i 0) (i 1)

/-- The printed index maps over the grid: the node operand moves with the result along the rows, every other operand
    is staged whole. -/
theorem idx_facts1 : ∀ t : Fin cfg1.N, win1_0.index t (0 : Fin 2) = win1_7.index t (0 : Fin 2)
    ∧ win1_0.index t (1 : Fin 2) = 0 ∧ win1_7.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 9 :=
  (by decide +kernel : ∀ t : Fin grid1.N, _)

/-- Every one of the ten row blocks is some point's. -/
theorem idx_onto1 : ∀ q0 : Fin 10, ∃ t : Fin cfg1.N, win1_7.index t = ![q0.val, 0] :=
  (by decide +kernel : ∀ q0 : Fin 10, ∃ t : Fin grid1.N, win1_7.index t = ![q0.val, 0])

/-- What point `t` writes back is block `t` of `G1` of the arrays as the launch finds them. -/
theorem flushed1_eq (c : Dev nD) (t : Fin cfg1.N) :
    (dat1 V c).flushed 7 t = ((cfg1.win 7).blk t).view.read (Elt Ideal)
      (G1 (V c main_v36) (V c main_arg11) (V c main_v43) (V c main_v44) (V c main_v45) (V c main_arg17) (V c main_v46)) := by
  show (cfg1.win 7).cut (grid1.coords t) ((dat1 V c).after 7 t) = _
  rw [after1_7]
  unfold out1_7
  rw [View.canon_unit_zero hz1]
  simp only [View.ld_unit_zero (S := S5000x128) hz1, View.ld_unit_zero (S := S128x128) hz1,
    View.ld_unit_zero (S := S1x128) hz1, View.ld_unit_zero (S := S128x128) hz1]
  obtain ⟨e0, e1, e2, e3, e4, e5, e6, e7, e8, e9, e10, e11, e12, e13, e14, e15⟩ := idx_facts1 t
  funext j
  obtain ⟨p, q, rfl⟩ : ∃ (p : Fin 5000) (q : Fin 128), j = ix2 p q := ⟨j 0, j 1, eq_ix2 j⟩
  have hQ : (((cfg1.win 7).blk t).view.emb (ix2 p q)) 1 = q :=
    Fin.ext (by show win1_7.index t (1 : Fin 2) * 128 + 1 * q.val = q.val; omega)
  show k1_pay1 (iblk1 V c 0 t) (iblk1 V c 1 t) (iblk1 V c 2 t) (iblk1 V c 3 t) (iblk1 V c 4 t) (iblk1 V c 5 t)
      (iblk1 V c 6 t) (ix2 p q)
    = Cert.LibMlpTile.mlpAt (V c main_v36) (V c main_arg11) (V c main_v43) (V c main_v44) (V c main_v45) (V c main_arg17) (V c main_v46)
        ((((cfg1.win 7).blk t).view.emb (ix2 p q)) 0) ((((cfg1.win 7).blk t).view.emb (ix2 p q)) 1)
  rw [hQ]
  refine (Cert.KernelIdeal.Pay.k1_apply (iblk1 V c 0 t) (iblk1 V c 1 t) (iblk1 V c 2 t) (iblk1 V c 3 t)
    (iblk1 V c 4 t) (iblk1 V c 5 t) (iblk1 V c 6 t) p q).trans ?_
  refine Cert.LibMlpTile.mlpAt_congr _ _ _ _ _ _ _ _ _ _ _ _ _ _ p _ q (fun i => ?_) (fun i k => ?_) (fun k => ?_)
    (fun k => ?_) (fun k => ?_) (fun k j => ?_) (fun j => ?_)
  · show V c main_v36 (((cfg1.win 0).blk t).view.emb (ix2 p i)) = V c main_v36 (ix2 _ i)
    refine congrArg (V c main_v36) (funext fun a => Fin.ext ?_)
    match a with
    | ⟨0, _⟩ => show win1_0.index t (0 : Fin 2) * 5000 + 1 * p.val = win1_7.index t (0 : Fin 2) * 5000 + 1 * p.val; omega
    | ⟨1, _⟩ => show win1_0.index t (1 : Fin 2) * 128 + 1 * i.val = i.val; omega
  · show V c main_arg11 (((cfg1.win 1).blk t).view.emb (ix2 i k)) = V c main_arg11 (ix2 i k)
    refine congrArg (V c main_arg11) (funext fun a => Fin.ext ?_)
    match a with
    | ⟨0, _⟩ => show win1_1.index t (0 : Fin 2) * 128 + 1 * i.val = i.val; omega
    | ⟨1, _⟩ => show win1_1.index t (1 : Fin 2) * 128 + 1 * k.val = k.val; omega
  · show V c main_v43 (((cfg1.win 2).blk t).view.emb (ix2 (0 : Fin 1) k)) = V c main_v43 (ix2 (0 : Fin 1) k)
    refine congrArg (V c main_v43) (funext fun a => Fin.ext ?_)
    match a with
    | ⟨0, _⟩ => show win1_2.index t (0 : Fin 2) * 1 + 1 * 0 = 0; omega
    | ⟨1, _⟩ => show win1_2.index t (1 : Fin 2) * 128 + 1 * k.val = k.val; omega
  · show V c main_v44 (((cfg1.win 3).blk t).view.emb (ix2 (0 : Fin 1) k)) = V c main_v44 (ix2 (0 : Fin 1) k)
    refine congrArg (V c main_v44) (funext fun a => Fin.ext ?_)
    match a with
    | ⟨0, _⟩ => show win1_3.index t (0 : Fin 2) * 1 + 1 * 0 = 0; omega
    | ⟨1, _⟩ => show win1_3.index t (1 : Fin 2) * 128 + 1 * k.val = k.val; omega
  · show V c main_v45 (((cfg1.win 4).blk t).view.emb (ix2 (0 : Fin 1) k)) = V c main_v45 (ix2 (0 : Fin 1) k)
    refine congrArg (V c main_v45) (funext fun a => Fin.ext ?_)
    match a with
    | ⟨0, _⟩ => show win1_4.index t (0 : Fin 2) * 1 + 1 * 0 = 0; omega
    | ⟨1, _⟩ => show win1_4.index t (1 : Fin 2) * 128 + 1 * k.val = k.val; omega
  · show V c main_arg17 (((cfg1.win 5).blk t).view.emb (ix2 k j)) = V c main_arg17 (ix2 k j)
    refine congrArg (V c main_arg17) (funext fun a => Fin.ext ?_)
    match a with
    | ⟨0, _⟩ => show win1_5.index t (0 : Fin 2) * 128 + 1 * k.val = k.val; omega
    | ⟨1, _⟩ => show win1_5.index t (1 : Fin 2) * 128 + 1 * j.val = j.val; omega
  · show V c main_v46 (((cfg1.win 6).blk t).view.emb (ix2 (0 : Fin 1) j)) = V c main_v46 (ix2 (0 : Fin 1) j)
    refine congrArg (V c main_v46) (funext fun a => Fin.ext ?_)
    match a with
    | ⟨0, _⟩ => show win1_6.index t (0 : Fin 2) * 1 + 1 * 0 = 0; omega
    | ⟨1, _⟩ => show win1_6.index t (1 : Fin 2) * 128 + 1 * j.val = j.val; omega

/-- An index of the result is in point `t`'s block iff each coordinate is in the block's range on its axis. -/
theorem mem_blk1 (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v47).slice (win1_7.rect t)).set ↔ _
  rw [View.set_slice_whole, Rect.mem_set_unit]
  exact Iff.rfl

/-- Every index of the result lies in some point's block: the point of its row's block of 5000. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  obtain ⟨t, ht⟩ := idx_onto1 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 128 ≤ (i 1).val ∧ (i 1).val < win1_7.index t (1 : Fin 2) * 128 + 128; omega

/-- The result array after the launch is `G1` of the arrays the launch was entered with. -/
theorem final1 (c : Dev nD) : (dat1 V c).arrAt 7 cfg1.N
    = G1 (V c main_v36) (V c main_arg11) (V c main_v43) (V c main_v44) (V c main_v45) (V c main_arg17) (V c main_v46) :=
  (dat1 V c).arrAt_eq_of_cover 7 _ (fun t _ => flushed1_eq V c t) (cover1)

end Cert.KernelIdeal.KV

end
-- ==== Proof.RegionValue2.lean ====
/-
  What launch 2 of the fused perceptron leaves in its output array, as one function of the arrays it is entered with.

  The grid has ten points; point `t` stages rows `5000·t … 5000·t + 4999` of the node array and the whole of every other
  operand, and writes back rows `5000·t …` of the result. An entry of the block depends on the block only through its
  own row, so what point `t` writes back is the restriction to its rows of ONE function `G2` of the whole arrays; the ten
  blocks tile the result, which therefore ends holding `G2`.
-/
import proofs.«108267_j14216341750214_1_alg».proof.Proof.IdealHalves2
import proofs.«108267_j14216341750214_1_alg».proof.Proof.Payload
import proofs.«108267_j14216341750214_1_alg».proof.Proof.MlpCongr
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

theorem hz2 : (![0, 0] : Fin 2 → Nat) = fun _ => 0 := funext fun a => by fin_cases a <;> rfl

/-- The result array as a function of the operand arrays: the fused perceptron of row `i 0`, at column `i 1`. -/
def G2 (X : FVec Ideal S50000x128 .f32) (w1 : FVec Ideal S128x128 .f32) (b1 s t : FVec Ideal S1x128 .f32)
    (w2 : FVec Ideal S128x128 .f32) (b2 : FVec Ideal S1x128 .f32) : FVec Ideal S50000x128 .f32 :=
  fun i => Cert.LibMlpTile.mlpAt X w1 b1 s t w2 b2 (i 0) (i 1)

/-- The printed index maps over the grid: the node operand moves with the result along the rows, every other operand
    is staged whole. -/
theorem idx_facts2 : ∀ t : Fin cfg2.N, win2_0.index t (0 : Fin 2) = win2_7.index t (0 : Fin 2)
    ∧ win2_0.index t (1 : Fin 2) = 0 ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) ≤ 9 :=
  (by decide +kernel : ∀ t : Fin grid2.N, _)

/-- Every one of the ten row blocks is some point's. -/
theorem idx_onto2 : ∀ q0 : Fin 10, ∃ t : Fin cfg2.N, win2_7.index t = ![q0.val, 0] :=
  (by decide +kernel : ∀ q0 : Fin 10, ∃ t : Fin grid2.N, win2_7.index t = ![q0.val, 0])

/-- What point `t` writes back is block `t` of `G2` of the arrays as the launch finds them. -/
theorem flushed2_eq (c : Dev nD) (t : Fin cfg2.N) :
    (dat2 V c).flushed 7 t = ((cfg2.win 7).blk t).view.read (Elt Ideal)
      (G2 (V c main_v58) (V c main_arg19) (V c main_v65) (V c main_v66) (V c main_v67) (V c main_arg25) (V c main_v68)) := by
  show (cfg2.win 7).cut (grid2.coords t) ((dat2 V c).after 7 t) = _
  rw [after2_7]
  unfold out2_7
  rw [View.canon_unit_zero hz2]
  simp only [View.ld_unit_zero (S := S5000x128) hz2, View.ld_unit_zero (S := S128x128) hz2,
    View.ld_unit_zero (S := S1x128) hz2, View.ld_unit_zero (S := S128x128) hz2]
  obtain ⟨e0, e1, e2, e3, e4, e5, e6, e7, e8, e9, e10, e11, e12, e13, e14, e15⟩ := idx_facts2 t
  funext j
  obtain ⟨p, q, rfl⟩ : ∃ (p : Fin 5000) (q : Fin 128), j = ix2 p q := ⟨j 0, j 1, eq_ix2 j⟩
  have hQ : (((cfg2.win 7).blk t).view.emb (ix2 p q)) 1 = q :=
    Fin.ext (by show win2_7.index t (1 : Fin 2) * 128 + 1 * q.val = q.val; omega)
  show k2_pay1 (iblk2 V c 0 t) (iblk2 V c 1 t) (iblk2 V c 2 t) (iblk2 V c 3 t) (iblk2 V c 4 t) (iblk2 V c 5 t)
      (iblk2 V c 6 t) (ix2 p q)
    = Cert.LibMlpTile.mlpAt (V c main_v58) (V c main_arg19) (V c main_v65) (V c main_v66) (V c main_v67) (V c main_arg25) (V c main_v68)
        ((((cfg2.win 7).blk t).view.emb (ix2 p q)) 0) ((((cfg2.win 7).blk t).view.emb (ix2 p q)) 1)
  rw [hQ]
  refine (Cert.KernelIdeal.Pay.k2_apply (iblk2 V c 0 t) (iblk2 V c 1 t) (iblk2 V c 2 t) (iblk2 V c 3 t)
    (iblk2 V c 4 t) (iblk2 V c 5 t) (iblk2 V c 6 t) p q).trans ?_
  refine Cert.LibMlpTile.mlpAt_congr _ _ _ _ _ _ _ _ _ _ _ _ _ _ p _ q (fun i => ?_) (fun i k => ?_) (fun k => ?_)
    (fun k => ?_) (fun k => ?_) (fun k j => ?_) (fun j => ?_)
  · show V c main_v58 (((cfg2.win 0).blk t).view.emb (ix2 p i)) = V c main_v58 (ix2 _ i)
    refine congrArg (V c main_v58) (funext fun a => Fin.ext ?_)
    match a with
    | ⟨0, _⟩ => show win2_0.index t (0 : Fin 2) * 5000 + 1 * p.val = win2_7.index t (0 : Fin 2) * 5000 + 1 * p.val; omega
    | ⟨1, _⟩ => show win2_0.index t (1 : Fin 2) * 128 + 1 * i.val = i.val; omega
  · show V c main_arg19 (((cfg2.win 1).blk t).view.emb (ix2 i k)) = V c main_arg19 (ix2 i k)
    refine congrArg (V c main_arg19) (funext fun a => Fin.ext ?_)
    match a with
    | ⟨0, _⟩ => show win2_1.index t (0 : Fin 2) * 128 + 1 * i.val = i.val; omega
    | ⟨1, _⟩ => show win2_1.index t (1 : Fin 2) * 128 + 1 * k.val = k.val; omega
  · show V c main_v65 (((cfg2.win 2).blk t).view.emb (ix2 (0 : Fin 1) k)) = V c main_v65 (ix2 (0 : Fin 1) k)
    refine congrArg (V c main_v65) (funext fun a => Fin.ext ?_)
    match a with
    | ⟨0, _⟩ => show win2_2.index t (0 : Fin 2) * 1 + 1 * 0 = 0; omega
    | ⟨1, _⟩ => show win2_2.index t (1 : Fin 2) * 128 + 1 * k.val = k.val; omega
  · show V c main_v66 (((cfg2.win 3).blk t).view.emb (ix2 (0 : Fin 1) k)) = V c main_v66 (ix2 (0 : Fin 1) k)
    refine congrArg (V c main_v66) (funext fun a => Fin.ext ?_)
    match a with
    | ⟨0, _⟩ => show win2_3.index t (0 : Fin 2) * 1 + 1 * 0 = 0; omega
    | ⟨1, _⟩ => show win2_3.index t (1 : Fin 2) * 128 + 1 * k.val = k.val; omega
  · show V c main_v67 (((cfg2.win 4).blk t).view.emb (ix2 (0 : Fin 1) k)) = V c main_v67 (ix2 (0 : Fin 1) k)
    refine congrArg (V c main_v67) (funext fun a => Fin.ext ?_)
    match a with
    | ⟨0, _⟩ => show win2_4.index t (0 : Fin 2) * 1 + 1 * 0 = 0; omega
    | ⟨1, _⟩ => show win2_4.index t (1 : Fin 2) * 128 + 1 * k.val = k.val; omega
  · show V c main_arg25 (((cfg2.win 5).blk t).view.emb (ix2 k j)) = V c main_arg25 (ix2 k j)
    refine congrArg (V c main_arg25) (funext fun a => Fin.ext ?_)
    match a with
    | ⟨0, _⟩ => show win2_5.index t (0 : Fin 2) * 128 + 1 * k.val = k.val; omega
    | ⟨1, _⟩ => show win2_5.index t (1 : Fin 2) * 128 + 1 * j.val = j.val; omega
  · show V c main_v68 (((cfg2.win 6).blk t).view.emb (ix2 (0 : Fin 1) j)) = V c main_v68 (ix2 (0 : Fin 1) j)
    refine congrArg (V c main_v68) (funext fun a => Fin.ext ?_)
    match a with
    | ⟨0, _⟩ => show win2_6.index t (0 : Fin 2) * 1 + 1 * 0 = 0; omega
    | ⟨1, _⟩ => show win2_6.index t (1 : Fin 2) * 128 + 1 * j.val = j.val; omega

/-- An index of the result is in point `t`'s block iff each coordinate is in the block's range on its axis. -/
theorem mem_blk2 (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v69).slice (win2_7.rect t)).set ↔ _
  rw [View.set_slice_whole, Rect.mem_set_unit]
  exact Iff.rfl

/-- Every index of the result lies in some point's block: the point of its row's block of 5000. -/
theorem cover2 (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  obtain ⟨t, ht⟩ := idx_onto2 ⟨(i 0).val / 5000, by omega⟩
  have q0 : win2_7.index t (0 : Fin 2) = (i 0).val / 5000 := congrFun ht 0
  have q1 : win2_7.index t (1 : Fin 2) = 0 := congrFun ht 1
  refine ⟨t, flush2_7 t, ?_⟩
  rw [mem_blk2]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The result array after the launch is `G2` of the arrays the launch was entered with. -/
theorem final2 (c : Dev nD) : (dat2 V c).arrAt 7 cfg2.N
    = G2 (V c main_v58) (V c main_arg19) (V c main_v65) (V c main_v66) (V c main_v67) (V c main_arg25) (V c main_v68) :=
  (dat2 V c).arrAt_eq_of_cover 7 _ (fun t _ => flushed2_eq V c t) (cover2)

end Cert.KernelIdeal.KV

end
-- ==== Proof.RegionValue3.lean ====
/-
  What the classifier launch leaves in its output array, as one function of the arrays it is entered with.

  The grid has one point, which stages every operand whole and writes the whole result back: the result array ends
  holding, at graph `g` and class `q`, the log-softmax over the ten classes of the head's logits of row `g`.
-/
import proofs.«108267_j14216341750214_1_alg».proof.Proof.IdealHalves3
import proofs.«108267_j14216341750214_1_alg».proof.Proof.Payload
import proofs.«108267_j14216341750214_1_alg».proof.Proof.MlpCongr
import Idealize.ShloMosaic.Lib.Pipeline.Value

set_option maxRecDepth 16384

noncomputable section

namespace Cert.KernelIdeal.KV

open Idealize.ShloMosaic Idealize.ShloMosaic.TcCoe Idealize.ShloMosaic.ValueIdx Idealize.SL.Sem
open Cert.KernelIdeal Cert.KernelIdeal.Gen Cert.KernelIdeal.Hand

variable (V : (c : Dev nD) → (b : Ref sig .tc) → Buf (Elt Ideal) ((c : Thread nD τ).loc b))

theorem hz3 : (![0, 0] : Fin 2 → Nat) = fun _ => 0 := funext fun a => by fin_cases a <;> rfl

/-- The result array as a function of the operand arrays. -/
def G3 (Hc : FVec Ideal S512x384 .f32) (w1 : FVec Ideal S384x384 .f32) (b1 : FVec Ideal S1x384 .f32)
    (w2 : FVec Ideal S384x10 .f32) (b2 : FVec Ideal S1x10 .f32) : FVec Ideal S512x10 .f32 :=
  fun i => Cert.Lib.LogSoftmax.logSoftmaxAt (fun c : Fin 10 => Cert.LibMlpTile.headAt Hc w1 b1 w2 b2 (i 0) c) (i 1)

/-- Every operand is staged whole at the one grid point. -/
theorem idx_facts3 : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- What the one point writes back is `G3` of the arrays as the launch finds them. -/
theorem flushed3_eq (c : Dev nD) (t : Fin cfg3.N) :
    (dat3 V c).flushed 5 t = ((cfg3.win 5).blk t).view.read (Elt Ideal)
      (G3 (V c main_v79) (V c main_arg27) (V c main_v80) (V c main_arg29) (V c main_v81)) := by
  show (cfg3.win 5).cut (grid3.coords t) ((dat3 V c).after 5 t) = _
  rw [after3_5]
  unfold out3_5
  rw [View.canon_unit_zero hz3]
  simp only [View.ld_unit_zero (S := S512x384) hz3, View.ld_unit_zero (S := S384x384) hz3,
    View.ld_unit_zero (S := S1x384) hz3, View.ld_unit_zero (S := S384x10) hz3, View.ld_unit_zero (S := S1x10) hz3]
  obtain ⟨e0, e1, e2, e3, e4, e5, e6, e7, e8, e9, e10, e11⟩ := idx_facts3 t
  funext j
  obtain ⟨g, q, rfl⟩ : ∃ (g : Fin 512) (q : Fin 10), j = ix2 g q := ⟨j 0, j 1, eq_ix2 j⟩
  have hP : (((cfg3.win 5).blk t).view.emb (ix2 g q)) 0 = g :=
    Fin.ext (by show win3_5.index t (0 : Fin 2) * 512 + 1 * g.val = g.val; omega)
  have hQ : (((cfg3.win 5).blk t).view.emb (ix2 g q)) 1 = q :=
    Fin.ext (by show win3_5.index t (1 : Fin 2) * 10 + 1 * q.val = q.val; omega)
  show k3_pay1 (iblk3 V c 0 t) (iblk3 V c 1 t) (iblk3 V c 2 t) (iblk3 V c 3 t) (iblk3 V c 4 t) (ix2 g q)
    = Cert.Lib.LogSoftmax.logSoftmaxAt (fun cl : Fin 10 => Cert.LibMlpTile.headAt (V c main_v79) (V c main_arg27)
        (V c main_v80) (V c main_arg29) (V c main_v81) ((((cfg3.win 5).blk t).view.emb (ix2 g q)) 0) cl)
        ((((cfg3.win 5).blk t).view.emb (ix2 g q)) 1)
  rw [hP, hQ]
  refine (Cert.KernelIdeal.Pay.k3_apply (iblk3 V c 0 t) (iblk3 V c 1 t) (iblk3 V c 2 t) (iblk3 V c 3 t) (iblk3 V c 4 t)
    g q).trans ?_
  refine congrArg (fun z : Fin 10 → EReal => Cert.Lib.LogSoftmax.logSoftmaxAt z q) (funext fun cl => ?_)
  refine Cert.LibMlpTile.headAt_congr _ _ _ _ _ _ _ _ _ _ g g cl (fun i => ?_) (fun i k => ?_) (fun k => ?_)
    (fun k j => ?_) (fun j => ?_)
  · show V c main_v79 (((cfg3.win 0).blk t).view.emb (ix2 g i)) = V c main_v79 (ix2 g i)
    refine congrArg (V c main_v79) (funext fun a => Fin.ext ?_)
    match a with
    | ⟨0, _⟩ => show win3_0.index t (0 : Fin 2) * 512 + 1 * g.val = g.val; omega
    | ⟨1, _⟩ => show win3_0.index t (1 : Fin 2) * 384 + 1 * i.val = i.val; omega
  · show V c main_arg27 (((cfg3.win 1).blk t).view.emb (ix2 i k)) = V c main_arg27 (ix2 i k)
    refine congrArg (V c main_arg27) (funext fun a => Fin.ext ?_)
    match a with
    | ⟨0, _⟩ => show win3_1.index t (0 : Fin 2) * 384 + 1 * i.val = i.val; omega
    | ⟨1, _⟩ => show win3_1.index t (1 : Fin 2) * 384 + 1 * k.val = k.val; omega
  · show V c main_v80 (((cfg3.win 2).blk t).view.emb (ix2 (0 : Fin 1) k)) = V c main_v80 (ix2 (0 : Fin 1) k)
    refine congrArg (V c main_v80) (funext fun a => Fin.ext ?_)
    match a with
    | ⟨0, _⟩ => show win3_2.index t (0 : Fin 2) * 1 + 1 * 0 = 0; omega
    | ⟨1, _⟩ => show win3_2.index t (1 : Fin 2) * 384 + 1 * k.val = k.val; omega
  · show V c main_arg29 (((cfg3.win 3).blk t).view.emb (ix2 k j)) = V c main_arg29 (ix2 k j)
    refine congrArg (V c main_arg29) (funext fun a => Fin.ext ?_)
    match a with
    | ⟨0, _⟩ => show win3_3.index t (0 : Fin 2) * 384 + 1 * k.val = k.val; omega
    | ⟨1, _⟩ => show win3_3.index t (1 : Fin 2) * 10 + 1 * j.val = j.val; omega
  · show V c main_v81 (((cfg3.win 4).blk t).view.emb (ix2 (0 : Fin 1) j)) = V c main_v81 (ix2 (0 : Fin 1) j)
    refine congrArg (V c main_v81) (funext fun a => Fin.ext ?_)
    match a with
    | ⟨0, _⟩ => show win3_4.index t (0 : Fin 2) * 1 + 1 * 0 = 0; omega
    | ⟨1, _⟩ => show win3_4.index t (1 : Fin 2) * 10 + 1 * j.val = j.val; omega

/-- An index of the result is in the one point's block iff each coordinate is in the block's range on its axis. -/
theorem mem_blk3 (t : Fin cfg3.N) (i : S512x10.Idx) :
    i ∈ ((cfg3.win 5).blk t).view.set ↔ ∀ a : Fin 2, win3_5.index t a * S512x10.size a ≤ (i a).val
      ∧ (i a).val < win3_5.index t a * S512x10.size a + S512x10.size a := by
  show i ∈ ((View.whole main_v82).slice (win3_5.rect t)).set ↔ _
  rw [View.set_slice_whole, Rect.mem_set_unit]
  exact Iff.rfl

/-- The one point's block is the whole result. -/
theorem cover3 (i : S512x10.Idx) :
    ∃ t : Fin cfg3.N, (cfg3.win 5).flush t = true ∧ i ∈ ((cfg3.win 5).blk t).view.set := by
  have hi0 : (i 0).val < 512 := (i 0).isLt
  have hi1 : (i 1).val < 10 := (i 1).isLt
  obtain ⟨e0, e1, e2, e3, e4, e5, e6, e7, e8, e9, e10, e11⟩ := idx_facts3 t3_0
  refine ⟨t3_0, flush3_5 t3_0, ?_⟩
  rw [mem_blk3]
  intro a
  match a with
  | ⟨0, _⟩ => show win3_5.index t3_0 (0 : Fin 2) * 512 ≤ (i 0).val ∧ (i 0).val < win3_5.index t3_0 (0 : Fin 2) * 512 + 512; omega
  | ⟨1, _⟩ => show win3_5.index t3_0 (1 : Fin 2) * 10 ≤ (i 1).val ∧ (i 1).val < win3_5.index t3_0 (1 : Fin 2) * 10 + 10; omega

/-- The result array after the launch is `G3` of the arrays the launch was entered with. -/
theorem final3 (c : Dev nD) : (dat3 V c).arrAt 5 cfg3.N
    = G3 (V c main_v79) (V c main_arg27) (V c main_v80) (V c main_arg29) (V c main_v81) :=
  (dat3 V c).arrAt_eq_of_cover 5 _ (fun t _ => flushed3_eq V c t) (cover3)

end Cert.KernelIdeal.KV

end
-- ==== Proof.KernelFn.lean ====
/-
  The kernel program as one function of its argument arrays, on the extended reals: three graph-convolution layers
  (neighbour sum, then the fused perceptron with its folded scale and shift rows), the three layers' outputs pooled
  per graph and laid side by side, and the classifier with its log-softmax.
-/
import proofs.«108267_j14216341750214_1_alg».proof.Proof.RegionValue0
import proofs.«108267_j14216341750214_1_alg».proof.Proof.RegionValue1
import proofs.«108267_j14216341750214_1_alg».proof.Proof.RegionValue2
import proofs.«108267_j14216341750214_1_alg».proof.Proof.RegionValue3
import proofs.«108267_j14216341750214_1_alg».proof.Proof.HostFns

noncomputable section

namespace Cert.KernelIdeal.KV

open Idealize.ShloMosaic Cert.KernelIdeal Cert.HostFns

/-- The first layer's output. -/
def layerA (x0 : FVec Ideal S50000x64 .f32) (x1 : IVec S2x800000 32) (x3 : FVec Ideal S64x128 .f32)
    (x4 x5 x6 x7 x8 : FVec Ideal S128 .f32) (x9 : FVec Ideal S128x128 .f32) (x10 : FVec Ideal S128 .f32) :
    FVec Ideal S50000x128 .f32 :=
  G0 (nsum64 x0 x1) x3 (row128 x4) (row128 (scaleVec x5 x8)) (row128 (shiftVec x5 x6 x7 x8)) x9 (row128 x10)

/-- The second layer's output, from the first layer's. -/
def layerB (h : FVec Ideal S50000x128 .f32) (x1 : IVec S2x800000 32) (x11 : FVec Ideal S128x128 .f32)
    (x12 x13 x14 x15 x16 : FVec Ideal S128 .f32) (x17 : FVec Ideal S128x128 .f32) (x18 : FVec Ideal S128 .f32) :
    FVec Ideal S50000x128 .f32 :=
  G1 (nsum128 h x1) x11 (row128 x12) (row128 (scaleVec x13 x16)) (row128 (shiftVec x13 x14 x15 x16)) x17 (row128 x18)

/-- The third layer's output, from the second layer's. -/
def layerC (h : FVec Ideal S50000x128 .f32) (x1 : IVec S2x800000 32) (x19 : FVec Ideal S128x128 .f32)
    (x20 x21 x22 x23 x24 : FVec Ideal S128 .f32) (x25 : FVec Ideal S128x128 .f32) (x26 : FVec Ideal S128 .f32) :
    FVec Ideal S50000x128 .f32 :=
  G2 (nsum128 h x1) x19 (row128 x20) (row128 (scaleVec x21 x24)) (row128 (shiftVec x21 x22 x23 x24)) x25 (row128 x26)

/-- The classifier on the three pooled layers. -/
def classify (h1 h2 h3 : FVec Ideal S50000x128 .f32) (x2 : IVec S50000 32) (x27 : FVec Ideal S384x384 .f32)
    (x28 : FVec Ideal S384 .f32) (x29 : FVec Ideal S384x10 .f32) (x30 : FVec Ideal S10 .f32) : FVec Ideal S512x10 .f32 :=
  G3 (cat3 (pool h1 x2) (pool h2 x2) (pool h3 x2)) x27 (row384 x28) x29 (row10 x30)

end Cert.KernelIdeal.KV

end
-- ==== Proof.KernelValue.lean ====
/-
  What the kernel program's run leaves in its result buffer, as the function `classify ∘ (layerA, layerB, layerC)` of the
  launch arrays: each launch's output array is its launch function of the arrays the launch is entered with, and the
  host operations before a launch compute those arrays from the launch arrays and the earlier launches' outputs.
-/
import proofs.«108267_j14216341750214_1_alg».proof.Proof.IdealRegs
import proofs.«108267_j14216341750214_1_alg».proof.Proof.KHost
import proofs.«108267_j14216341750214_1_alg».proof.Proof.KernelFn

noncomputable section

namespace Cert.KernelIdeal.KV

open Idealize.ShloMosaic Idealize.ShloMosaic.TcCoe Idealize.SL.Sem
open Cert.KernelIdeal Cert.KernelIdeal.Gen Cert.KernelIdeal.Hand Cert.HostFns

variable (m : (ℓ : Loc nD τ sig) → Buf (Elt Ideal) ℓ) (c : Dev nD)

/-- The first launch leaves the first layer's output. -/
theorem out1_eq : (outs m 2 main_v25 c : S50000x128.Idx → EReal)
    = layerA (m ((c : Thread nD τ).loc main_arg0)) (m ((c : Thread nD τ).loc main_arg1)) (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8)) (m ((c : Thread nD τ).loc main_arg9)) (m ((c : Thread nD τ).loc main_arg10)) := by
  rw [outs_2 m c]
  refine (final0 (atTc (Gen.V1 m)) c).trans ?_
  show G0 (V1 m c main_v14) (V1 m c main_arg3) (V1 m c main_v21) (V1 m c main_v22) (V1 m c main_v23) (V1 m c main_arg9)
    (V1 m c main_v24) = _
  rw [V1_v14 m c, V1_arg3 m c, V1_v21 m c, V1_v22 m c, V1_v23 m c, V1_arg9 m c, V1_v24 m c]
  rfl

/-- The second launch leaves the second layer's output, of the first launch's. -/
theorem out2_eq : (outs m 4 main_v47 c : S50000x128.Idx → EReal)
    = layerB (outs m 2 main_v25 c) (m ((c : Thread nD τ).loc main_arg1)) (m ((c : Thread nD τ).loc main_arg11)) (m ((c : Thread nD τ).loc main_arg12)) (m ((c : Thread nD τ).loc main_arg13))
        (m ((c : Thread nD τ).loc main_arg14)) (m ((c : Thread nD τ).loc main_arg15)) (m ((c : Thread nD τ).loc main_arg16)) (m ((c : Thread nD τ).loc main_arg17)) (m ((c : Thread nD τ).loc main_arg18)) := by
  rw [outs_4 m c]
  refine (final1 (atTc (Gen.V3 m (outs m))) c).trans ?_
  show G1 (V3 m (outs m) c main_v36) (V3 m (outs m) c main_arg11) (V3 m (outs m) c main_v43) (V3 m (outs m) c main_v44)
    (V3 m (outs m) c main_v45) (V3 m (outs m) c main_arg17) (V3 m (outs m) c main_v46) = _
  rw [V3_v36 m (outs m) c, V3_arg11 m (outs m) c, V3_v43 m (outs m) c, V3_v44 m (outs m) c, V3_v45 m (outs m) c,
    V3_arg17 m (outs m) c, V3_v46 m (outs m) c]
  rfl

/-- The third launch leaves the third layer's output, of the second launch's. -/
theorem out3_eq : (outs m 6 main_v69 c : S50000x128.Idx → EReal)
    = layerC (outs m 4 main_v47 c) (m ((c : Thread nD τ).loc main_arg1)) (m ((c : Thread nD τ).loc main_arg19)) (m ((c : Thread nD τ).loc main_arg20)) (m ((c : Thread nD τ).loc main_arg21))
        (m ((c : Thread nD τ).loc main_arg22)) (m ((c : Thread nD τ).loc main_arg23)) (m ((c : Thread nD τ).loc main_arg24)) (m ((c : Thread nD τ).loc main_arg25)) (m ((c : Thread nD τ).loc main_arg26)) := by
  rw [outs_6 m c]
  refine (final2 (atTc (Gen.V5 m (outs m))) c).trans ?_
  show G2 (V5 m (outs m) c main_v58) (V5 m (outs m) c main_arg19) (V5 m (outs m) c main_v65) (V5 m (outs m) c main_v66)
    (V5 m (outs m) c main_v67) (V5 m (outs m) c main_arg25) (V5 m (outs m) c main_v68) = _
  rw [V5_v58 m (outs m) c, V5_arg19 m (outs m) c, V5_v65 m (outs m) c, V5_v66 m (outs m) c, V5_v67 m (outs m) c,
    V5_arg25 m (outs m) c, V5_v68 m (outs m) c]
  rfl

/-- The classifier launch leaves the classifier's value of the three layers' outputs. -/
theorem out4_eq : (outs m 8 main_v82 c : S512x10.Idx → EReal)
    = classify (outs m 2 main_v25 c) (outs m 4 main_v47 c) (outs m 6 main_v69 c) (m ((c : Thread nD τ).loc main_arg2)) (m ((c : Thread nD τ).loc main_arg27))
        (m ((c : Thread nD τ).loc main_arg28)) (m ((c : Thread nD τ).loc main_arg29)) (m ((c : Thread nD τ).loc main_arg30)) := by
  rw [outs_8 m c]
  refine (final3 (atTc (Gen.V7 m (outs m))) c).trans ?_
  show G3 (V7 m (outs m) c main_v79) (V7 m (outs m) c main_arg27) (V7 m (outs m) c main_v80) (V7 m (outs m) c main_arg29)
    (V7 m (outs m) c main_v81) = _
  rw [V7_v79 m (outs m) c, V7_arg27 m (outs m) c, V7_v80 m (outs m) c, V7_arg29 m (outs m) c, V7_v81 m (outs m) c]
  rfl

/-- The result buffer after the run. -/
theorem result_eq : (Gen.V8 m (outs m) c main_v82 : S512x10.Idx → EReal)
    = classify
        (layerA (m ((c : Thread nD τ).loc main_arg0)) (m ((c : Thread nD τ).loc main_arg1)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)))
        (layerB (layerA (m ((c : Thread nD τ).loc main_arg0)) (m ((c : Thread nD τ).loc main_arg1)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)))
          (m ((c : Thread nD τ).loc main_arg1)) (m ((c : Thread nD τ).loc main_arg11)) (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) (m ((c : Thread nD τ).loc main_arg18)))
        (layerC (layerB (layerA (m ((c : Thread nD τ).loc main_arg0)) (m ((c : Thread nD τ).loc main_arg1)) (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) (m ((c : Thread nD τ).loc main_arg9)) (m ((c : Thread nD τ).loc main_arg10)))
          (m ((c : Thread nD τ).loc main_arg1)) (m ((c : Thread nD τ).loc main_arg11)) (m ((c : Thread nD τ).loc main_arg12)) (m ((c : Thread nD τ).loc main_arg13)) (m ((c : Thread nD τ).loc main_arg14))
          (m ((c : Thread nD τ).loc main_arg15)) (m ((c : Thread nD τ).loc main_arg16)) (m ((c : Thread nD τ).loc main_arg17)) (m ((c : Thread nD τ).loc main_arg18)))
          (m ((c : Thread nD τ).loc main_arg1)) (m ((c : Thread nD τ).loc main_arg19)) (m ((c : Thread nD τ).loc main_arg20)) (m ((c : Thread nD τ).loc main_arg21)) (m ((c : Thread nD τ).loc main_arg22))
          (m ((c : Thread nD τ).loc main_arg23)) (m ((c : Thread nD τ).loc main_arg24)) (m ((c : Thread nD τ).loc main_arg25)) (m ((c : Thread nD τ).loc main_arg26)))
        (m ((c : Thread nD τ).loc main_arg2)) (m ((c : Thread nD τ).loc main_arg27)) (m ((c : Thread nD τ).loc main_arg28)) (m ((c : Thread nD τ).loc main_arg29)) (m ((c : Thread nD τ).loc main_arg30)) := by
  have e8 : Gen.V8 m (outs m) c main_v82 = outs m 8 main_v82 c := Function.update_self _ _ _
  rw [e8, out4_eq m c, out3_eq m c, out2_eq m c, out1_eq m c]

end Cert.KernelIdeal.KV

end
-- ==== Proof.LibBnFold.lean ====
/-
  Eval-mode batch normalisation on the extended reals, in its two arrangements.

  With `r = rsqrt (v + ε)` the normalised value of `z` is `((z - m) · r) · g + be`. Folding the statistics into one
  scale `g · r` and one shift `be - m · (g · r)` gives `z · (g · r) + (be - m · (g · r))`. For real `m`, `g`, `be` and a
  POSITIVE REAL `r` the two agree at every extended real `z`: at a real `z` it is the ring identity, and at `z = ±∞`
  both sides are `±∞` with the sign of `g`, or `be` when `g = 0` (the product of an infinity with the real `0` is `0`).
  Positivity of `r` is where a non-negative variance and a positive `ε` are used: `rsqrt` of a positive real is the
  positive real `1 / √x`.
-/
import Idealize.ShloMosaic.PureOps.Ideal
import Idealize.ShloMosaic.PureOps.Ideal.Laws

noncomputable section

namespace Cert.BnLaw

open Idealize.ShloMosaic

/-- The two arrangements of the normalisation agree at every extended real `z`, for real statistics and a positive
    real reciprocal deviation `r`. -/
theorem fold_eq (z : EReal) (m g be r : ℝ) (hr : 0 < r) :
    z * ((g : EReal) * (r : EReal)) + ((be : EReal) - (m : EReal) * ((g : EReal) * (r : EReal)))
      = ((z - (m : EReal)) * (r : EReal)) * (g : EReal) + (be : EReal) := by
  induction z using EReal.rec with
  | bot =>
    rw [EReal.bot_sub, EReal.bot_mul_coe_of_pos hr]
    rcases lt_trichotomy g 0 with hg | hg | hg
    · have hgr : g * r < 0 := mul_neg_of_neg_of_pos hg hr
      rw [← EReal.coe_mul g r, ← EReal.coe_mul m, ← EReal.coe_sub, EReal.bot_mul_coe_of_neg hgr,
        EReal.bot_mul_coe_of_neg hg, EReal.top_add_coe, EReal.top_add_coe]
    · subst hg
      simp
    · have hgr : 0 < g * r := mul_pos hg hr
      rw [← EReal.coe_mul g r, ← EReal.coe_mul m, ← EReal.coe_sub, EReal.bot_mul_coe_of_pos hgr,
        EReal.bot_mul_coe_of_pos hg, EReal.bot_add, EReal.bot_add]
  | coe z =>
    rw [← EReal.coe_mul g r, ← EReal.coe_mul m, ← EReal.coe_sub, ← EReal.coe_mul z, ← EReal.coe_add,
      ← EReal.coe_sub z m, ← EReal.coe_mul, ← EReal.coe_mul, ← EReal.coe_add]
    congr 1
    ring
  | top =>
    rw [EReal.top_sub_coe, EReal.top_mul_coe_of_pos hr]
    rcases lt_trichotomy g 0 with hg | hg | hg
    · have hgr : g * r < 0 := mul_neg_of_neg_of_pos hg hr
      rw [← EReal.coe_mul g r, ← EReal.coe_mul m, ← EReal.coe_sub, EReal.top_mul_coe_of_neg hgr,
        EReal.top_mul_coe_of_neg hg, EReal.bot_add, EReal.bot_add]
    · subst hg
      simp
    · have hgr : 0 < g * r := mul_pos hg hr
      rw [← EReal.coe_mul g r, ← EReal.coe_mul m, ← EReal.coe_sub, EReal.top_mul_coe_of_pos hgr,
        EReal.top_mul_coe_of_pos hg, EReal.top_add_coe, EReal.top_add_coe]

/-- The reciprocal square root of a positive real is a positive real. -/
theorem rsqrt_pos (x : ℝ) (hx : 0 < x) : ∃ r : ℝ, 0 < r ∧ Ideal.rsqrt (x : EReal) = (r : EReal) := by
  refine ⟨(Real.sqrt x)⁻¹, inv_pos.mpr (Real.sqrt_pos.mpr hx), ?_⟩
  rw [Ideal.rsqrt_coe, if_neg (not_lt.mpr hx.le), if_neg hx.ne']

/-- The word of the single-precision number nearest to `10⁻⁵` denotes a positive real. -/
theorem eps_pos : ∃ e : ℝ, 0 < e ∧ Ideal.ofBits .f32 0x3727C5AC#32 = ((e : ℝ) : EReal) := by
  refine ⟨(10995116 : ℝ) / 2 ^ 40, by positivity, ?_⟩
  simp [Ideal.ofBits, Ideal.ieee, -EReal.coe_mul]
  norm_num

/-- Batch normalisation with a non-negative real variance: the folded scale-and-shift form equals the centred form at
    every extended real `z`. -/
theorem fold_rsqrt_eq (z : EReal) (m g be v : ℝ) (hv : 0 ≤ v) :
    z * ((g : EReal) * Ideal.rsqrt ((v : EReal) + Ideal.ofBits .f32 0x3727C5AC#32))
        + ((be : EReal) - (m : EReal) * ((g : EReal) * Ideal.rsqrt ((v : EReal) + Ideal.ofBits .f32 0x3727C5AC#32)))
      = ((z - (m : EReal)) * Ideal.rsqrt ((v : EReal) + Ideal.ofBits .f32 0x3727C5AC#32)) * (g : EReal) + (be : EReal) := by
  obtain ⟨e, he, hE⟩ := eps_pos
  obtain ⟨r, hr, hR⟩ := rsqrt_pos (v + e) (by linarith)
  rw [hE, ← EReal.coe_add, hR]
  exact fold_eq z m g be r hr

end Cert.BnLaw

end
-- ==== Proof.LibBnLayer.lean ====
/-
  One graph-convolution perceptron with eval-mode batch normalisation: the fused block with its statistics folded into
  a scale row and a shift row equals the centred form, entry by entry, on the extended reals.

  The scale row is `g · rsqrt (v + ε)` and the shift row `be - m · (g · rsqrt (v + ε))`, both computed on vectors and then
  re-laid as one row. With real `g`, `be`, `m`, `v` and `v ≥ 0` the reciprocal deviation is a positive real, and
  `BnLaw.fold_rsqrt_eq` turns `z · scale + shift` into `((z - m) · rsqrt (v + ε)) · g + be` at every extended real `z` —
  here `z` is the first affine map's value, about which nothing is assumed.
-/
import proofs.«108267_j14216341750214_1_alg».proof.Proof.LibMlpTile
import proofs.«108267_j14216341750214_1_alg».proof.Proof.LibBnFold
import Idealize.ShloMosaic.Lib.ValueLayout

noncomputable section

open scoped BigOperators

namespace Cert.LayerLaw

open Idealize.ShloMosaic Idealize.ShloMosaic.ValueIdx

variable {a K H C : Nat}

/-- The centred form of the layer at the entry `(p, q)`: affine map, subtract the mean, multiply by the reciprocal
    deviation and by the gain, add the offset, clamp at zero, affine map, clamp at zero. -/
def centredAt (X : FVec Ideal ⟨2, ![a, K]⟩ .f32) (w1 : FVec Ideal ⟨2, ![K, H]⟩ .f32)
    (b1 gg be mm vv : FVec Ideal ⟨1, ![H]⟩ .f32) (w2 : FVec Ideal ⟨2, ![H, C]⟩ .f32) (b2 : FVec Ideal ⟨1, ![C]⟩ .f32)
    (p : Fin a) (q : Fin C) : EReal :=
  max ((∑ k : Fin H, max (((((∑ i : Fin K, X (ix2 p i) * w1 (ix2 i k)) + b1 (ix1 k)) - mm (ix1 k))
        * Ideal.rsqrt (vv (ix1 k) + Ideal.ofBits .f32 0x3727C5AC#32)) * gg (ix1 k) + be (ix1 k)) 0 * w2 (ix2 k q))
    + b2 (ix1 q)) 0

/-- The reciprocal deviation vector `rsqrt (v + ε)` read at an entry. -/
theorem rdev_apply (vv : FVec Ideal ⟨1, ![H]⟩ .f32) (h0 : (⟨0, ![]⟩ : Shape).BroadcastsInDim ⟨1, ![H]⟩ (![] : Fin 0 → Fin 1))
    (k : Fin H) :
    Host.rsqrt (addf vv (broadcastInDim ⟨1, ![H]⟩ (![] : Fin 0 → Fin 1) h0
        (constant (F := Ideal) (⟨0, ![]⟩ : Shape) .f32 0x3727C5AC#32))) (ix1 k)
      = Ideal.rsqrt (vv (ix1 k) + Ideal.ofBits .f32 0x3727C5AC#32) := by
  show Ideal.rsqrt (vv (ix1 k) + (broadcastInDim ⟨1, ![H]⟩ (![] : Fin 0 → Fin 1) h0
        (constant (F := Ideal) (⟨0, ![]⟩ : Shape) .f32 0x3727C5AC#32)) (ix1 k)) = _
  rw [broadcastInDim_apply (![] : Fin 0 → Fin 1) h0 _ (ix1 k) ix0 (fun d => d.elim0)]
  rfl

/-- The fused block over the folded scale and shift rows is the centred form. -/
theorem folded_eq_centred (X : FVec Ideal ⟨2, ![a, K]⟩ .f32) (w1 : FVec Ideal ⟨2, ![K, H]⟩ .f32)
    (b1 gg be mm vv : FVec Ideal ⟨1, ![H]⟩ .f32) (w2 : FVec Ideal ⟨2, ![H, C]⟩ .f32) (b2 : FVec Ideal ⟨1, ![C]⟩ .f32)
    (hg : ∀ k, gg (ix1 k) = (((gg (ix1 k)).toReal : ℝ) : EReal))
    (hbe : ∀ k, be (ix1 k) = (((be (ix1 k)).toReal : ℝ) : EReal))
    (hm : ∀ k, mm (ix1 k) = (((mm (ix1 k)).toReal : ℝ) : EReal))
    (hv : ∀ k, vv (ix1 k) = (((vv (ix1 k)).toReal : ℝ) : EReal))
    (hv0 : ∀ k, (0 : EReal) ≤ vv (ix1 k))
    (hc : (⟨1, ![H]⟩ : Shape).ShapeCasts ⟨2, ![1, H]⟩) (hcC : (⟨1, ![C]⟩ : Shape).ShapeCasts ⟨2, ![1, C]⟩)
    (h0 : (⟨0, ![]⟩ : Shape).BroadcastsInDim ⟨1, ![H]⟩ (![] : Fin 0 → Fin 1)) (p : Fin a) (q : Fin C) :
    Cert.LibMlpTile.mlpAt X w1 (shapeCast ⟨2, ![1, H]⟩ b1 hc)
        (shapeCast ⟨2, ![1, H]⟩ (mulf gg (Host.rsqrt (addf vv (broadcastInDim ⟨1, ![H]⟩ (![] : Fin 0 → Fin 1) h0
          (constant (F := Ideal) (⟨0, ![]⟩ : Shape) .f32 0x3727C5AC#32))))) hc)
        (shapeCast ⟨2, ![1, H]⟩ (subf be (mulf mm (mulf gg (Host.rsqrt (addf vv (broadcastInDim ⟨1, ![H]⟩
          (![] : Fin 0 → Fin 1) h0 (constant (F := Ideal) (⟨0, ![]⟩ : Shape) .f32 0x3727C5AC#32))))))) hc)
        w2 (shapeCast ⟨2, ![1, C]⟩ b2 hcC) p q
      = centredAt X w1 b1 gg be mm vv w2 b2 p q := by
  unfold Cert.LibMlpTile.mlpAt centredAt
  rw [shapeCast_a_1a_apply b2 hcC (0 : Fin 1) q]
  refine congrArg (fun u : EReal => max (u + b2 (ix1 q)) 0) ?_
  refine Finset.sum_congr rfl fun k _ => ?_
  rw [shapeCast_a_1a_apply b1 hc (0 : Fin 1) k, shapeCast_a_1a_apply _ hc (0 : Fin 1) k,
    shapeCast_a_1a_apply _ hc (0 : Fin 1) k, subf_apply, mulf_apply, mulf_apply, rdev_apply vv h0 k]
  refine congrArg (fun u : EReal => max u 0 * w2 (ix2 k q)) ?_
  have hv0' : 0 ≤ (vv (ix1 k)).toReal := by
    have := hv0 k; rw [hv k] at this; exact_mod_cast this
  have key := Cert.BnLaw.fold_rsqrt_eq ((∑ i : Fin K, X (ix2 p i) * w1 (ix2 i k)) + b1 (ix1 k))
    (mm (ix1 k)).toReal (gg (ix1 k)).toReal (be (ix1 k)).toReal (vv (ix1 k)).toReal hv0'
  rw [← hg k, ← hbe k, ← hm k, ← hv k] at key
  exact key

end Cert.LayerLaw

end
-- ==== Proof.LibFiniteAll.lean ====
/-
  "Every entry is finite", read.

  A precondition `jnp.all(jnp.abs(x) < inf)` prints as the `and`-reduction, over all axes and from the bit 1, of the
  comparisons of |x| with the word of +∞.  If the reduction is 1 every comparison is 1; on the extended reals
  max(x, −x) < +∞ excludes both infinities, so every entry is the real number it denotes.  Stated for any shape and
  any list of reduced axes.
-/
import Idealize.ShloMosaic.Lib.ReduceAll
import Idealize.ShloMosaic.Lib.ValueIdx
import Idealize.ShloMosaic.Lib.Pipeline.Value
import Idealize.ShloMosaic.PureOps.Ideal.Laws

noncomputable section

namespace Cert.LibFiniteAll

open Idealize.ShloMosaic

/-- The word 0x7F800000 is +∞. -/
theorem inf_word : Ideal.ofBits .f32 0x7F800000#32 = ⊤ := by simp [Ideal.ofBits, Ideal.ieee]

/-- An extended real whose absolute value compares below +∞ is a real number. -/
theorem real_of_abs_lt (x : EReal) (h : Ideal.cmp .olt (max x (-x)) ⊤ = 1#1) : x = ((x.toReal : ℝ) : EReal) := by
  have hlt : max x (-x) < ⊤ := by
    by_contra hn
    have h0 : Ideal.cmp .olt (max x (-x)) ⊤ = 0#1 := by
      show BitVec.ofBool (decide (max x (-x) < ⊤)) = 0#1
      rw [decide_eq_false hn]; rfl
    rw [h0] at h
    exact absurd h (by decide)
  have h1 : x ≠ ⊤ := by
    rintro rfl
    exact absurd hlt (by simp)
  have h2 : x ≠ ⊥ := by
    rintro rfl
    exact absurd hlt (by simp)
  exact (EReal.coe_toReal h1 h2).symm

/-- The rank-zero shape has one index. -/
instance : Subsingleton (⟨0, ![]⟩ : Shape).Idx := ⟨fun a b => funext fun d => d.elim0⟩

/-- One argument's test: if "all entries have |x| < +∞" is 1, every entry is a real number. -/
theorem real_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .olt (Host.absf x) (broadcastInDim s ![] hbc (constant (F := Ideal) ⟨0, ![]⟩ .f32 0x7F800000#32)))
          (constantI ⟨0, ![]⟩ 1 1#1) red hu ValueIdx.ix0 = 1#1) (i : s.Idx) :
    x i = (((x i).toReal : ℝ) : EReal) := by
  have hi : Ideal.cmp .olt (max (x i) (-(x i)))
      (broadcastInDim s ![] hbc (constant (F := Ideal) ⟨0, ![]⟩ .f32 0x7F800000#32) i) = 1#1 :=
    Host.reduce_andi_all _ _ red hu ValueIdx.ix0 h i
  have hb : broadcastInDim s ![] hbc (constant (F := Ideal) ⟨0, ![]⟩ .f32 0x7F800000#32) i = ⊤ :=
    (broadcastInDim_apply _ hbc _ i (fun a => a.elim0) (fun a => a.elim0)).trans inf_word
  rw [hb] at hi
  exact real_of_abs_lt (x i) hi

end Cert.LibFiniteAll

end
-- ==== Proof.PreFacts.lean ====
/-
  The precondition, read at the twelve normalization vectors.

  The precondition is a conjunction of 32 bits: for each of the 29 floating-point arguments "every entry has
  |x| < +∞", then for the three variance vectors "every entry is ≥ 0".  Each bit is the `and`-reduction, over all
  axes and from the bit 1, of the entrywise comparisons.  If the conjunction is 1 every bit is 1; a reduction that is 1
  met only 1s; and on the extended reals |x| < +∞ says that x is the real number it denotes, while 0 ≤ x is read as
  it stands.  Only the twelve vectors of the three normalization layers (scale, shift, mean, variance) are read
  here; the other bits stay closed.
-/
import Idealize.ShloMosaic.Lib.ReduceAll
import Idealize.ShloMosaic.Lib.ValueIdx
import Idealize.ShloMosaic.Lib.Pipeline.Value
import Idealize.ShloMosaic.PureOps.Ideal.Laws
import proofs.«108267_j14216341750214_1_alg».proof.Pre_finite_inputs
import proofs.«108267_j14216341750214_1_alg».proof.Proof.LibFiniteAll

noncomputable section

namespace Cert.PreFacts

open Idealize.ShloMosaic
open Cert.Pre_finite_inputs

/-- An extended real that compares at or above 0 is non-negative. -/
theorem nonneg_of_oge (x : EReal) (h : Ideal.cmp .oge x 0 = 1#1) : (0 : EReal) ≤ x := by
  by_contra hn
  have h0 : Ideal.cmp .oge x 0 = 0#1 := by
    show BitVec.ofBool (decide ((0 : EReal) ≤ x)) = 0#1
    rw [decide_eq_false hn]; rfl
  rw [h0] at h
  exact absurd h (by decide)

/-- One argument's test: if "all entries have x ≥ 0" is 1, every entry is non-negative.  Any shape, any reduced axes. -/
theorem nonneg_of_all {s : Shape} {axes : List (Fin s.rank)} (x : FVec Ideal s .f32)
    (hbc : (⟨0, ![]⟩ : Shape).BroadcastsInDim s (![] : Fin 0 → Fin s.rank)) (red : s.ReducesTo axes ⟨0, ![]⟩)
    (hu : 0 < (⟨0, ![]⟩ : Shape).numel)
    (h : Host.reduce IntOp.andi
          (cmpf .oge x (broadcastInDim s ![] hbc (constant (F := Ideal) ⟨0, ![]⟩ .f32 0x00000000#32)))
          (constantI ⟨0, ![]⟩ 1 1#1) red hu ValueIdx.ix0 = 1#1) (i : s.Idx) :
    (0 : EReal) ≤ x i := by
  have hi : Ideal.cmp .oge (x i)
      (broadcastInDim s ![] hbc (constant (F := Ideal) ⟨0, ![]⟩ .f32 0x00000000#32) i) = 1#1 :=
    Host.reduce_andi_all _ _ red hu ValueIdx.ix0 h i
  have hb : broadcastInDim s ![] hbc (constant (F := Ideal) ⟨0, ![]⟩ .f32 0x00000000#32) i = 0 :=
    (broadcastInDim_apply _ hbc _ i (fun a => a.elim0) (fun a => a.elim0)).trans Ideal.ofBits_zero_f32
  rw [hb] at hi
  exact nonneg_of_oge (x i) hi

/-- The scalar conjunction, read at its one index: both conjuncts are 1. -/
theorem andi_ix0 (x y : IVec S_ 1) (h : andi x y ValueIdx.ix0 = 1#1) :
    x ValueIdx.ix0 = 1#1 ∧ y ValueIdx.ix0 = 1#1 := IntOp.andi_eq_one.1 h

/-- What the precondition says of the three normalization layers' vectors (scale `g`, shift `be`, mean `m`,
    variance `v` of layers 1, 2, 3): every entry is a real number, and the variances are non-negative. -/
structure NormFacts (a5 a6 a7 a8 a13 a14 a15 a16 a21 a22 a23 a24 : FVec Ideal S128 .f32) : Prop where
  g1 : ∀ i, a5 i = (((a5 i).toReal : ℝ) : EReal)
  be1 : ∀ i, a6 i = (((a6 i).toReal : ℝ) : EReal)
  m1 : ∀ i, a7 i = (((a7 i).toReal : ℝ) : EReal)
  v1 : ∀ i, a8 i = (((a8 i).toReal : ℝ) : EReal)
  g2 : ∀ i, a13 i = (((a13 i).toReal : ℝ) : EReal)
  be2 : ∀ i, a14 i = (((a14 i).toReal : ℝ) : EReal)
  m2 : ∀ i, a15 i = (((a15 i).toReal : ℝ) : EReal)
  v2 : ∀ i, a16 i = (((a16 i).toReal : ℝ) : EReal)
  g3 : ∀ i, a21 i = (((a21 i).toReal : ℝ) : EReal)
  be3 : ∀ i, a22 i = (((a22 i).toReal : ℝ) : EReal)
  m3 : ∀ i, a23 i = (((a23 i).toReal : ℝ) : EReal)
  v3 : ∀ i, a24 i = (((a24 i).toReal : ℝ) : EReal)
  v1_nonneg : ∀ i, (0 : EReal) ≤ a8 i
  v2_nonneg : ∀ i, (0 : EReal) ≤ a16 i
  v3_nonneg : ∀ i, (0 : EReal) ≤ a24 i

namespace NormFacts

variable {a5 a6 a7 a8 a13 a14 a15 a16 a21 a22 a23 a24 : FVec Ideal S128 .f32}

/-- The real a non-negative variance denotes is non-negative. -/
theorem v1_toReal_nonneg (f : NormFacts a5 a6 a7 a8 a13 a14 a15 a16 a21 a22 a23 a24) (i : S128.Idx) :
    0 ≤ (a8 i).toReal := EReal.toReal_nonneg (f.v1_nonneg i)
theorem v2_toReal_nonneg (f : NormFacts a5 a6 a7 a8 a13 a14 a15 a16 a21 a22 a23 a24) (i : S128.Idx) :
    0 ≤ (a16 i).toReal := EReal.toReal_nonneg (f.v2_nonneg i)
theorem v3_toReal_nonneg (f : NormFacts a5 a6 a7 a8 a13 a14 a15 a16 a21 a22 a23 a24) (i : S128.Idx) :
    0 ≤ (a24 i).toReal := EReal.toReal_nonneg (f.v3_nonneg i)

end NormFacts

/-- The precondition at Ideal, opened: the conjunction is split bit by bit from the outside (the three sign bits, then
    the finiteness bits of arguments 30 down to 3; what remains is argument 0's), and the fifteen bits that concern the
    normalization vectors are read entrywise. -/
theorem facts [Facts] (a0 : FVec Ideal S50000x64 .f32) (a1 : IVec S2x800000 32) (a2 : IVec S50000 32) (a3 : FVec Ideal S64x128 .f32) (a4 : FVec Ideal S128 .f32) (a5 : FVec Ideal S128 .f32) (a6 : FVec Ideal S128 .f32) (a7 : FVec Ideal S128 .f32) (a8 : FVec Ideal S128 .f32) (a9 : FVec Ideal S128x128 .f32) (a10 : FVec Ideal S128 .f32) (a11 : FVec Ideal S128x128 .f32) (a12 : FVec Ideal S128 .f32) (a13 : FVec Ideal S128 .f32) (a14 : FVec Ideal S128 .f32) (a15 : FVec Ideal S128 .f32) (a16 : FVec Ideal S128 .f32) (a17 : FVec Ideal S128x128 .f32) (a18 : FVec Ideal S128 .f32) (a19 : FVec Ideal S128x128 .f32) (a20 : FVec Ideal S128 .f32) (a21 : FVec Ideal S128 .f32) (a22 : FVec Ideal S128 .f32) (a23 : FVec Ideal S128 .f32) (a24 : FVec Ideal S128 .f32) (a25 : FVec Ideal S128x128 .f32) (a26 : FVec Ideal S128 .f32) (a27 : FVec Ideal S384x384 .f32) (a28 : FVec Ideal S384 .f32) (a29 : FVec Ideal S384x10 .f32) (a30 : FVec Ideal S10 .f32)
    (h : fn (F := Ideal) a0 a1 a2 a3 a4 a5 a6 a7 a8 a9 a10 a11 a12 a13 a14 a15 a16 a17 a18 a19 a20 a21 a22 a23 a24 a25 a26 a27 a28 a29 a30 = fun _ => 1#1) :
    NormFacts a5 a6 a7 a8 a13 a14 a15 a16 a21 a22 a23 a24 := by
  have h0 := congrFun h ValueIdx.ix0
  dsimp only [fn, fn_part1, fn_part2, fn_part3, fn_part4, fn_part5, fn_part6, fn_part7, fn_part8, fn_part9] at h0
  obtain ⟨h0, n24⟩ := andi_ix0 _ _ h0
  obtain ⟨h0, n16⟩ := andi_ix0 _ _ h0
  obtain ⟨h0, n8⟩ := andi_ix0 _ _ h0
  obtain ⟨h0, f30⟩ := andi_ix0 _ _ h0
  obtain ⟨h0, f29⟩ := andi_ix0 _ _ h0
  obtain ⟨h0, f28⟩ := andi_ix0 _ _ h0
  obtain ⟨h0, f27⟩ := andi_ix0 _ _ h0
  obtain ⟨h0, f26⟩ := andi_ix0 _ _ h0
  obtain ⟨h0, f25⟩ := andi_ix0 _ _ h0
  obtain ⟨h0, f24⟩ := andi_ix0 _ _ h0
  obtain ⟨h0, f23⟩ := andi_ix0 _ _ h0
  obtain ⟨h0, f22⟩ := andi_ix0 _ _ h0
  obtain ⟨h0, f21⟩ := andi_ix0 _ _ h0
  obtain ⟨h0, f20⟩ := andi_ix0 _ _ h0
  obtain ⟨h0, f19⟩ := andi_ix0 _ _ h0
  obtain ⟨h0, f18⟩ := andi_ix0 _ _ h0
  obtain ⟨h0, f17⟩ := andi_ix0 _ _ h0
  obtain ⟨h0, f16⟩ := andi_ix0 _ _ h0
  obtain ⟨h0, f15⟩ := andi_ix0 _ _ h0
  obtain ⟨h0, f14⟩ := andi_ix0 _ _ h0
  obtain ⟨h0, f13⟩ := andi_ix0 _ _ h0
  obtain ⟨h0, f12⟩ := andi_ix0 _ _ h0
  obtain ⟨h0, f11⟩ := andi_ix0 _ _ h0
  obtain ⟨h0, f10⟩ := andi_ix0 _ _ h0
  obtain ⟨h0, f9⟩ := andi_ix0 _ _ h0
  obtain ⟨h0, f8⟩ := andi_ix0 _ _ h0
  obtain ⟨h0, f7⟩ := andi_ix0 _ _ h0
  obtain ⟨h0, f6⟩ := andi_ix0 _ _ h0
  obtain ⟨h0, f5⟩ := andi_ix0 _ _ h0
  obtain ⟨h0, f4⟩ := andi_ix0 _ _ h0
  obtain ⟨h0, f3⟩ := andi_ix0 _ _ h0
  exact
    { g1 := fun i => Cert.LibFiniteAll.real_of_all _ _ _ _ f5 i
      be1 := fun i => Cert.LibFiniteAll.real_of_all _ _ _ _ f6 i
      m1 := fun i => Cert.LibFiniteAll.real_of_all _ _ _ _ f7 i
      v1 := fun i => Cert.LibFiniteAll.real_of_all _ _ _ _ f8 i
      g2 := fun i => Cert.LibFiniteAll.real_of_all _ _ _ _ f13 i
      be2 := fun i => Cert.LibFiniteAll.real_of_all _ _ _ _ f14 i
      m2 := fun i => Cert.LibFiniteAll.real_of_all _ _ _ _ f15 i
      v2 := fun i => Cert.LibFiniteAll.real_of_all _ _ _ _ f16 i
      g3 := fun i => Cert.LibFiniteAll.real_of_all _ _ _ _ f21 i
      be3 := fun i => Cert.LibFiniteAll.real_of_all _ _ _ _ f22 i
      m3 := fun i => Cert.LibFiniteAll.real_of_all _ _ _ _ f23 i
      v3 := fun i => Cert.LibFiniteAll.real_of_all _ _ _ _ f24 i
      v1_nonneg := fun i => nonneg_of_all _ _ _ _ n8 i
      v2_nonneg := fun i => nonneg_of_all _ _ _ _ n16 i
      v3_nonneg := fun i => nonneg_of_all _ _ _ _ n24 i }

end Cert.PreFacts

end
-- ==== Proof.RefRead.lean ====
import proofs.«108267_j14216341750214_1_alg».proof.Proof.Gen.ReferenceIdeal.Read

/-! The reference's run and its read-at-an-index lemmas, brought into scope for the
modules that read the reference's value. -/
-- ==== Proof.RefLayer.lean ====
import proofs.«108267_j14216341750214_1_alg».proof.Proof.RefRead

/-!
  The reference's three graph layers, each read at an entry.

  A layer takes the summed features X = h + Σ_{edges into the node} h[source] (the stage after the scatter-add; it is
  kept as that stage here and never opened) and computes

      relu( relu( ((X·W₁ + b₁ − m) · rsqrt(v + ε)) · g + β ) · W₂ + b₂ ),

  ε the word 0x3727C5AC (1e-5), with the normalisation associated as the program prints it. `hidden<l>_apply` reads
  the inner rectified normalisation at (node n, unit k), `layer<l>_apply` the layer's output at (node n, feature j).
-/

noncomputable section

open scoped BigOperators

namespace Cert.ReferenceIdeal.RefValue

open Cert.ReferenceIdeal Cert.ReferenceIdeal.Gen Cert.ReferenceIdeal.Read Idealize.ShloMosaic Idealize.ShloMosaic.ValueIdx

/-- Layer 1, the hidden units: the first linear map of the summed features, the normalisation with the stored mean and
    variance (in the association the program prints: ((h − m) · rsqrt(v + ε)) · g + b), and the rectifier, at node n,
    unit k. The summed features stay the stage `val_main_v14`. -/
theorem hidden1_apply (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (n : Fin 50000) (k : Fin 128) :
    val_main_v34 (F := Ideal) x0 x1 x3 x4 x5 x6 x7 x8 (ix2 n k)
      = max ((((∑ i : Fin 64, val_main_v14 (F := Ideal) x0 x1 (ix2 n i) * x3 (ix2 i k)) + x4 (ix1 k)) - x7 (ix1 k))
            * Ideal.rsqrt (x8 (ix1 k) + Ideal.ofBits .f32 0x3727C5AC#32) * x5 (ix1 k) + x6 (ix1 k)) 0 := by
  have el : ∀ i : Fin 64, lidx_main_v15 (ix2 n k) i = ix2 n i := fun i =>
    funext fun a => Fin.ext (by match a with | ⟨0, _⟩ => rfl | ⟨1, _⟩ => rfl)
  have er : ∀ i : Fin 64, ridx_main_v15 (ix2 n k) i = ix2 i k := fun i =>
    funext fun a => Fin.ext (by match a with | ⟨0, _⟩ => rfl | ⟨1, _⟩ => rfl)
  have e1 : idx_main_v16 (idx_main_v17 (ix2 n k)) = ix1 k :=
    funext fun a => Fin.ext (by match a with | ⟨0, _⟩ => rfl)
  have e2 : idx_main_v19 (idx_main_v20 (ix2 n k)) = ix1 k :=
    funext fun a => Fin.ext (by match a with | ⟨0, _⟩ => rfl)
  have e3 : idx_main_v25 (idx_main_v26 (ix2 n k)) = ix1 k :=
    funext fun a => Fin.ext (by match a with | ⟨0, _⟩ => rfl)
  have e4 : idx_main_v28 (idx_main_v29 (ix2 n k)) = ix1 k :=
    funext fun a => Fin.ext (by match a with | ⟨0, _⟩ => rfl)
  have e5 : idx_main_v31 (idx_main_v32 (ix2 n k)) = ix1 k :=
    funext fun a => Fin.ext (by match a with | ⟨0, _⟩ => rfl)
  rw [val_main_v34_apply, val_main_v33_apply, val_main_v30_apply, val_main_v27_apply, val_main_v21_apply,
    val_main_v18_apply, val_main_v15_apply, val_main_v17_apply, val_main_v16_apply, val_main_v20_apply,
    val_main_v19_apply, val_main_v26_apply, val_main_v25_apply, val_main_v24_apply, val_main_v23_apply,
    val_main_v22_apply, val_main_cst_1_apply, val_main_v29_apply, val_main_v28_apply, val_main_v32_apply,
    val_main_v31_apply, val_main_call0_v0_apply, val_main_call0_cst_apply, e1, e2, e3, e4, e5]
  simp only [el, er, Ideal.maximumf_def, Ideal.addf_def, Ideal.subf_def, Ideal.mulf_def, Ideal.hostUnary_rsqrt_def,
    Ideal.ofBits_def, Ideal.ofBits_zero_f32]

/-- Layer 1, the output: the second linear map of the hidden units and the rectifier, at node n, feature j. -/
theorem layer1_apply (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (n : Fin 50000) (j : Fin 128) :
    val_main_v39 (F := Ideal) x0 x1 x3 x4 x5 x6 x7 x8 x9 x10 (ix2 n j)
      = max ((∑ k : Fin 128,
              max ((((∑ i : Fin 64, val_main_v14 (F := Ideal) x0 x1 (ix2 n i) * x3 (ix2 i k)) + x4 (ix1 k)) - x7 (ix1 k))
                  * Ideal.rsqrt (x8 (ix1 k) + Ideal.ofBits .f32 0x3727C5AC#32) * x5 (ix1 k) + x6 (ix1 k)) 0
                * x9 (ix2 k j))
            + x10 (ix1 j)) 0 := by
  have el : ∀ k : Fin 128, lidx_main_v35 (ix2 n j) k = ix2 n k := fun k =>
    funext fun a => Fin.ext (by match a with | ⟨0, _⟩ => rfl | ⟨1, _⟩ => rfl)
  have er : ∀ k : Fin 128, ridx_main_v35 (ix2 n j) k = ix2 k j := fun k =>
    funext fun a => Fin.ext (by match a with | ⟨0, _⟩ => rfl | ⟨1, _⟩ => rfl)
  have e1 : idx_main_v36 (idx_main_v37 (ix2 n j)) = ix1 j :=
    funext fun a => Fin.ext (by match a with | ⟨0, _⟩ => rfl)
  rw [val_main_v39_apply, val_main_v38_apply, val_main_v35_apply, val_main_v37_apply, val_main_v36_apply,
    val_main_call1_v0_apply, val_main_call1_cst_apply, e1]
  simp only [el, er, hidden1_apply, Ideal.maximumf_def, Ideal.addf_def, Ideal.ofBits_def, Ideal.ofBits_zero_f32]

/-- Layer 2, the hidden units: the first linear map of the summed features, the normalisation with the stored mean and
    variance (in the association the program prints: ((h − m) · rsqrt(v + ε)) · g + b), and the rectifier, at node n,
    unit k. The summed features stay the stage `val_main_v50`. -/
theorem hidden2_apply (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (n : Fin 50000) (k : Fin 128) :
    val_main_v70 (F := Ideal) x0 x1 x3 x4 x5 x6 x7 x8 x9 x10 x11 x12 x13 x14 x15 x16 (ix2 n k)
      = max ((((∑ i : Fin 128, val_main_v50 (F := Ideal) x0 x1 x3 x4 x5 x6 x7 x8 x9 x10 (ix2 n i) * x11 (ix2 i k)) + x12 (ix1 k)) - x15 (ix1 k))
            * Ideal.rsqrt (x16 (ix1 k) + Ideal.ofBits .f32 0x3727C5AC#32) * x13 (ix1 k) + x14 (ix1 k)) 0 := by
  have el : ∀ i : Fin 128, lidx_main_v51 (ix2 n k) i = ix2 n i := fun i =>
    funext fun a => Fin.ext (by match a with | ⟨0, _⟩ => rfl | ⟨1, _⟩ => rfl)
  have er : ∀ i : Fin 128, ridx_main_v51 (ix2 n k) i = ix2 i k := fun i =>
    funext fun a => Fin.ext (by match a with | ⟨0, _⟩ => rfl | ⟨1, _⟩ => rfl)
  have e1 : idx_main_v52 (idx_main_v53 (ix2 n k)) = ix1 k :=
    funext fun a => Fin.ext (by match a with | ⟨0, _⟩ => rfl)
  have e2 : idx_main_v55 (idx_main_v56 (ix2 n k)) = ix1 k :=
    funext fun a => Fin.ext (by match a with | ⟨0, _⟩ => rfl)
  have e3 : idx_main_v61 (idx_main_v62 (ix2 n k)) = ix1 k :=
    funext fun a => Fin.ext (by match a with | ⟨0, _⟩ => rfl)
  have e4 : idx_main_v64 (idx_main_v65 (ix2 n k)) = ix1 k :=
    funext fun a => Fin.ext (by match a with | ⟨0, _⟩ => rfl)
  have e5 : idx_main_v67 (idx_main_v68 (ix2 n k)) = ix1 k :=
    funext fun a => Fin.ext (by match a with | ⟨0, _⟩ => rfl)
  rw [val_main_v70_apply, val_main_v69_apply, val_main_v66_apply, val_main_v63_apply, val_main_v57_apply,
    val_main_v54_apply, val_main_v51_apply, val_main_v53_apply, val_main_v52_apply, val_main_v56_apply,
    val_main_v55_apply, val_main_v62_apply, val_main_v61_apply, val_main_v60_apply, val_main_v59_apply,
    val_main_v58_apply, val_main_cst_5_apply, val_main_v65_apply, val_main_v64_apply, val_main_v68_apply,
    val_main_v67_apply, val_main_call2_v0_apply, val_main_call2_cst_apply, e1, e2, e3, e4, e5]
  simp only [el, er, Ideal.maximumf_def, Ideal.addf_def, Ideal.subf_def, Ideal.mulf_def, Ideal.hostUnary_rsqrt_def,
    Ideal.ofBits_def, Ideal.ofBits_zero_f32]

/-- Layer 2, the output: the second linear map of the hidden units and the rectifier, at node n, feature j. -/
theorem layer2_apply (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (n : Fin 50000) (j : Fin 128) :
    val_main_v75 (F := Ideal) x0 x1 x3 x4 x5 x6 x7 x8 x9 x10 x11 x12 x13 x14 x15 x16 x17 x18 (ix2 n j)
      = max ((∑ k : Fin 128,
              max ((((∑ i : Fin 128, val_main_v50 (F := Ideal) x0 x1 x3 x4 x5 x6 x7 x8 x9 x10 (ix2 n i) * x11 (ix2 i k)) + x12 (ix1 k)) - x15 (ix1 k))
                  * Ideal.rsqrt (x16 (ix1 k) + Ideal.ofBits .f32 0x3727C5AC#32) * x13 (ix1 k) + x14 (ix1 k)) 0
                * x17 (ix2 k j))
            + x18 (ix1 j)) 0 := by
  have el : ∀ k : Fin 128, lidx_main_v71 (ix2 n j) k = ix2 n k := fun k =>
    funext fun a => Fin.ext (by match a with | ⟨0, _⟩ => rfl | ⟨1, _⟩ => rfl)
  have er : ∀ k : Fin 128, ridx_main_v71 (ix2 n j) k = ix2 k j := fun k =>
    funext fun a => Fin.ext (by match a with | ⟨0, _⟩ => rfl | ⟨1, _⟩ => rfl)
  have e1 : idx_main_v72 (idx_main_v73 (ix2 n j)) = ix1 j :=
    funext fun a => Fin.ext (by match a with | ⟨0, _⟩ => rfl)
  rw [val_main_v75_apply, val_main_v74_apply, val_main_v71_apply, val_main_v73_apply, val_main_v72_apply,
    val_main_call3_v0_apply, val_main_call3_cst_apply, e1]
  simp only [el, er, hidden2_apply, Ideal.maximumf_def, Ideal.addf_def, Ideal.ofBits_def, Ideal.ofBits_zero_f32]

/-- Layer 3, the hidden units: the first linear map of the summed features, the normalisation with the stored mean and
    variance (in the association the program prints: ((h − m) · rsqrt(v + ε)) · g + b), and the rectifier, at node n,
    unit k. The summed features stay the stage `val_main_v86`. -/
theorem hidden3_apply (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (n : Fin 50000) (k : Fin 128) :
    val_main_v106 (F := Ideal) x0 x1 x3 x4 x5 x6 x7 x8 x9 x10 x11 x12 x13 x14 x15 x16 x17 x18 x19 x20 x21 x22 x23 x24 (ix2 n k)
      = max ((((∑ i : Fin 128, val_main_v86 (F := Ideal) x0 x1 x3 x4 x5 x6 x7 x8 x9 x10 x11 x12 x13 x14 x15 x16 x17 x18 (ix2 n i) * x19 (ix2 i k)) + x20 (ix1 k)) - x23 (ix1 k))
            * Ideal.rsqrt (x24 (ix1 k) + Ideal.ofBits .f32 0x3727C5AC#32) * x21 (ix1 k) + x22 (ix1 k)) 0 := by
  have el : ∀ i : Fin 128, lidx_main_v87 (ix2 n k) i = ix2 n i := fun i =>
    funext fun a => Fin.ext (by match a with | ⟨0, _⟩ => rfl | ⟨1, _⟩ => rfl)
  have er : ∀ i : Fin 128, ridx_main_v87 (ix2 n k) i = ix2 i k := fun i =>
    funext fun a => Fin.ext (by match a with | ⟨0, _⟩ => rfl | ⟨1, _⟩ => rfl)
  have e1 : idx_main_v88 (idx_main_v89 (ix2 n k)) = ix1 k :=
    funext fun a => Fin.ext (by match a with | ⟨0, _⟩ => rfl)
  have e2 : idx_main_v91 (idx_main_v92 (ix2 n k)) = ix1 k :=
    funext fun a => Fin.ext (by match a with | ⟨0, _⟩ => rfl)
  have e3 : idx_main_v97 (idx_main_v98 (ix2 n k)) = ix1 k :=
    funext fun a => Fin.ext (by match a with | ⟨0, _⟩ => rfl)
  have e4 : idx_main_v100 (idx_main_v101 (ix2 n k)) = ix1 k :=
    funext fun a => Fin.ext (by match a with | ⟨0, _⟩ => rfl)
  have e5 : idx_main_v103 (idx_main_v104 (ix2 n k)) = ix1 k :=
    funext fun a => Fin.ext (by match a with | ⟨0, _⟩ => rfl)
  rw [val_main_v106_apply, val_main_v105_apply, val_main_v102_apply, val_main_v99_apply, val_main_v93_apply,
    val_main_v90_apply, val_main_v87_apply, val_main_v89_apply, val_main_v88_apply, val_main_v92_apply,
    val_main_v91_apply, val_main_v98_apply, val_main_v97_apply, val_main_v96_apply, val_main_v95_apply,
    val_main_v94_apply, val_main_cst_9_apply, val_main_v101_apply, val_main_v100_apply, val_main_v104_apply,
    val_main_v103_apply, val_main_call4_v0_apply, val_main_call4_cst_apply, e1, e2, e3, e4, e5]
  simp only [el, er, Ideal.maximumf_def, Ideal.addf_def, Ideal.subf_def, Ideal.mulf_def, Ideal.hostUnary_rsqrt_def,
    Ideal.ofBits_def, Ideal.ofBits_zero_f32]

/-- Layer 3, the output: the second linear map of the hidden units and the rectifier, at node n, feature j. -/
theorem layer3_apply (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (n : Fin 50000) (j : Fin 128) :
    val_main_v111 (F := Ideal) x0 x1 x3 x4 x5 x6 x7 x8 x9 x10 x11 x12 x13 x14 x15 x16 x17 x18 x19 x20 x21 x22 x23 x24 x25 x26 (ix2 n j)
      = max ((∑ k : Fin 128,
              max ((((∑ i : Fin 128, val_main_v86 (F := Ideal) x0 x1 x3 x4 x5 x6 x7 x8 x9 x10 x11 x12 x13 x14 x15 x16 x17 x18 (ix2 n i) * x19 (ix2 i k)) + x20 (ix1 k)) - x23 (ix1 k))
                  * Ideal.rsqrt (x24 (ix1 k) + Ideal.ofBits .f32 0x3727C5AC#32) * x21 (ix1 k) + x22 (ix1 k)) 0
                * x25 (ix2 k j))
            + x26 (ix1 j)) 0 := by
  have el : ∀ k : Fin 128, lidx_main_v107 (ix2 n j) k = ix2 n k := fun k =>
    funext fun a => Fin.ext (by match a with | ⟨0, _⟩ => rfl | ⟨1, _⟩ => rfl)
  have er : ∀ k : Fin 128, ridx_main_v107 (ix2 n j) k = ix2 k j := fun k =>
    funext fun a => Fin.ext (by match a with | ⟨0, _⟩ => rfl | ⟨1, _⟩ => rfl)
  have e1 : idx_main_v108 (idx_main_v109 (ix2 n j)) = ix1 j :=
    funext fun a => Fin.ext (by match a with | ⟨0, _⟩ => rfl)
  rw [val_main_v111_apply, val_main_v110_apply, val_main_v107_apply, val_main_v109_apply, val_main_v108_apply,
    val_main_call5_v0_apply, val_main_call5_cst_apply, e1]
  simp only [el, er, hidden3_apply, Ideal.maximumf_def, Ideal.addf_def, Ideal.ofBits_def, Ideal.ofBits_zero_f32]

end Cert.ReferenceIdeal.RefValue

end
-- ==== Proof.RefTail.lean ====
import proofs.«108267_j14216341750214_1_alg».proof.Proof.RefRead
import proofs.«108267_j14216341750214_1_alg».proof.Proof.LibLogSoftmax

/-!
  The reference's classifier, read at an entry.

  From the joined pooled features H (the stage after the concatenate; kept as that stage and never opened):
  the logits relu(H·L₁ + c₁)·L₂ + c₂ at (graph g, class p) — `tailHidden_apply`, `logits_apply` — and the result,
  the log-softmax of row g of the logits at class q — `result_apply`, `tail_apply`.
-/

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Lib.LogSoftmax (logSoftmaxAt famMax)

/-- The classifier's hidden units: the first linear map of the joined pooled features and the rectifier, at
    (graph g, unit k). -/
theorem tailHidden_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (g : Fin 512) (k : Fin 384) :
    val_main_v126 (F := Ideal) x0 x1 x2 x3 x4 x5 x6 x7 x8 x9 x10 x11 x12 x13 x14 x15 x16 x17 x18 x19 x20 x21 x22 x23 x24 x25 x26 x27 x28 (ix2 g k)
      = max ((∑ i : Fin 384, val_main_v121 (F := Ideal) x0 x1 x2 x3 x4 x5 x6 x7 x8 x9 x10 x11 x12 x13 x14 x15 x16 x17 x18 x19 x20 x21 x22 x23 x24 x25 x26 (ix2 g i) * x27 (ix2 i k)) + x28 (ix1 k)) 0 := by
  have el : ∀ i : Fin 384, lidx_main_v122 (ix2 g k) i = ix2 g i := fun i =>
    funext fun a => Fin.ext (by match a with | ⟨0, _⟩ => rfl | ⟨1, _⟩ => rfl)
  have er : ∀ i : Fin 384, ridx_main_v122 (ix2 g k) i = ix2 i k := fun i =>
    funext fun a => Fin.ext (by match a with | ⟨0, _⟩ => rfl | ⟨1, _⟩ => rfl)
  have e1 : idx_main_v123 (idx_main_v124 (ix2 g k)) = ix1 k :=
    funext fun a => Fin.ext (by match a with | ⟨0, _⟩ => rfl)
  rw [val_main_v126_apply, val_main_v125_apply, val_main_v122_apply, val_main_v124_apply, val_main_v123_apply,
    val_main_call6_v0_apply, val_main_call6_cst_apply, e1]
  simp only [el, er, Ideal.maximumf_def, Ideal.addf_def, Ideal.ofBits_def, Ideal.ofBits_zero_f32]

/-- The logits: the second linear map of the classifier's hidden units, at (graph g, class p). -/
theorem logits_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x10, .f32⟩ : BufTy).Contents (Elt Ideal)) (x30 : (⟨S10, .f32⟩ : BufTy).Contents (Elt Ideal)) (g : Fin 512) (p : Fin 10) :
    val_main_v130 (F := Ideal) x0 x1 x2 x3 x4 x5 x6 x7 x8 x9 x10 x11 x12 x13 x14 x15 x16 x17 x18 x19 x20 x21 x22 x23 x24 x25 x26 x27 x28 x29 x30 (ix2 g p)
      = (∑ k : Fin 384, max ((∑ i : Fin 384, val_main_v121 (F := Ideal) x0 x1 x2 x3 x4 x5 x6 x7 x8 x9 x10 x11 x12 x13 x14 x15 x16 x17 x18 x19 x20 x21 x22 x23 x24 x25 x26 (ix2 g i) * x27 (ix2 i k)) + x28 (ix1 k)) 0 * x29 (ix2 k p))
          + x30 (ix1 p) := by
  have el : ∀ k : Fin 384, lidx_main_v127 (ix2 g p) k = ix2 g k := fun k =>
    funext fun a => Fin.ext (by match a with | ⟨0, _⟩ => rfl | ⟨1, _⟩ => rfl)
  have er : ∀ k : Fin 384, ridx_main_v127 (ix2 g p) k = ix2 k p := fun k =>
    funext fun a => Fin.ext (by match a with | ⟨0, _⟩ => rfl | ⟨1, _⟩ => rfl)
  have e1 : idx_main_v128 (idx_main_v129 (ix2 g p)) = ix1 p :=
    funext fun a => Fin.ext (by match a with | ⟨0, _⟩ => rfl)
  rw [val_main_v130_apply, val_main_v127_apply, val_main_v129_apply, val_main_v128_apply, e1]
  simp only [el, er, tailHidden_apply, Ideal.addf_def]

/-- The result is the log-softmax of the logits' rows: at (graph g, class q), the log-softmax of row g at q. -/
theorem result_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x10, .f32⟩ : BufTy).Contents (Elt Ideal)) (x30 : (⟨S10, .f32⟩ : BufTy).Contents (Elt Ideal)) (g : Fin 512) (q : Fin 10) :
    val_main_v131 (F := Ideal) x0 x1 x2 x3 x4 x5 x6 x7 x8 x9 x10 x11 x12 x13 x14 x15 x16 x17 x18 x19 x20 x21 x22 x23 x24 x25 x26 x27 x28 x29 x30 (ix2 g q)
      = logSoftmaxAt (fun p : Fin 10 => val_main_v130 (F := Ideal) x0 x1 x2 x3 x4 x5 x6 x7 x8 x9 x10 x11 x12 x13 x14 x15 x16 x17 x18 x19 x20 x21 x22 x23 x24 x25 x26 x27 x28 x29 x30 (ix2 g p)) q := by
  unfold val_main_v131 val_main_call7_v10 val_main_call7_v9 val_main_call7_v8 val_main_call7_v7 val_main_call7_v6
    val_main_call7_v5 val_main_call7_v4 val_main_call7_v3 val_main_call7_v2 val_main_call7_v1 val_main_call7_v0
    val_main_call7_cst val_main_call7_cst_0 val_main_call7_cst_1
  generalize val_main_v130 (F := Ideal) x0 x1 x2 x3 x4 x5 x6 x7 x8 x9 x10 x11 x12 x13 x14 x15 x16 x17 x18 x19 x20 x21 x22 x23 x24 x25 x26 x27 x28 x29 x30 = z
  exact Cert.Lib.LogSoftmax.host_apply z reducesTo_S512x10_S512_d1 (by decide) h_S_ bcast_S_S512 bcast_S512_S512x1_0
    bcast_S512x1_S512x10_0_1 g q

/-- The result at (graph g, class q) from the joined pooled features: the log-softmax over the classes p of
    Σ_k relu(Σ_i H(g,i)·L₁(i,k) + c₁(k))·L₂(k,p) + c₂(p). -/
theorem tail_apply (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x10, .f32⟩ : BufTy).Contents (Elt Ideal)) (x30 : (⟨S10, .f32⟩ : BufTy).Contents (Elt Ideal)) (g : Fin 512) (q : Fin 10) :
    val_main_v131 (F := Ideal) x0 x1 x2 x3 x4 x5 x6 x7 x8 x9 x10 x11 x12 x13 x14 x15 x16 x17 x18 x19 x20 x21 x22 x23 x24 x25 x26 x27 x28 x29 x30 (ix2 g q)
      = logSoftmaxAt (fun p : Fin 10 =>
          (∑ k : Fin 384, max ((∑ i : Fin 384, val_main_v121 (F := Ideal) x0 x1 x2 x3 x4 x5 x6 x7 x8 x9 x10 x11 x12 x13 x14 x15 x16 x17 x18 x19 x20 x21 x22 x23 x24 x25 x26 (ix2 g i) * x27 (ix2 i k)) + x28 (ix1 k)) 0 * x29 (ix2 k p))
            + x30 (ix1 p)) q := by
  rw [result_apply]
  simp only [logits_apply]

end Cert.ReferenceIdeal.RefValue

end
-- ==== Proof.Bridge.lean ====
import proofs.«108267_j14216341750214_1_alg».proof.Proof.RegionValue0
import proofs.«108267_j14216341750214_1_alg».proof.Proof.RegionValue1
import proofs.«108267_j14216341750214_1_alg».proof.Proof.RegionValue2
import proofs.«108267_j14216341750214_1_alg».proof.Proof.RegionValue3
import proofs.«108267_j14216341750214_1_alg».proof.Proof.HostFns
import proofs.«108267_j14216341750214_1_alg».proof.Proof.LibBnLayer
import proofs.«108267_j14216341750214_1_alg».proof.Proof.PreFacts
import proofs.«108267_j14216341750214_1_alg».proof.Proof.RefLayer
import proofs.«108267_j14216341750214_1_alg».proof.Proof.RefTail

/-!
  The kernel's four launch functions are the reference's stages, as whole arrays on the extended reals.

  Each of the three layer launches computes the fused block relu(relu((X·W₁ + b₁)·s + t)·W₂ + b₂) from a scale row
  s = g·rsqrt(v + ε) and a shift row t = β − m·s; the reference computes the centred form
  relu(relu(((X·W₁ + b₁ − m)·rsqrt(v + ε))·g + β)·W₂ + b₂). With real g, β, m, v and v ≥ 0 the two agree at every
  entry, whatever the summed features X are. The classifier launch and the reference's tail are the same expression,
  the bias vectors read as rows.
-/

noncomputable section

open scoped BigOperators

namespace Cert.Bridge

open Cert.ReferenceIdeal Cert.ReferenceIdeal.Gen Cert.ReferenceIdeal.Read Cert.ReferenceIdeal.RefValue
  Idealize.ShloMosaic Idealize.ShloMosaic.ValueIdx
open Cert.HostFns (row128 row384 row10 scaleVec shiftVec)
open Cert.Lib.LogSoftmax (logSoftmaxAt)

/-- Layer 1: the fused block over the summed features, with the layer's statistics folded into a scale row and a
    shift row, is the reference's layer output (the centred form), as whole arrays. -/
theorem layer1_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal))
    (f : Cert.PreFacts.NormFacts x5 x6 x7 x8 x13 x14 x15 x16 x21 x22 x23 x24) :
    Cert.KernelIdeal.KV.G0 (val_main_v14 (F := Ideal) x0 x1) x3 (row128 x4) (row128 (scaleVec x5 x8))
        (row128 (shiftVec x5 x6 x7 x8)) x9 (row128 x10)
      = val_main_v39 (F := Ideal) x0 x1 x3 x4 x5 x6 x7 x8 x9 x10 := by
  funext i
  obtain ⟨n, j, rfl⟩ : ∃ (n : Fin 50000) (j : Fin 128), i = ix2 n j := ⟨i 0, i 1, eq_ix2 i⟩
  rw [layer1_apply]
  exact Cert.LayerLaw.folded_eq_centred (val_main_v14 (F := Ideal) x0 x1) x3 x4 x5 x6 x7 x8 x9 x10
    (fun k => f.g1 (ix1 k)) (fun k => f.be1 (ix1 k)) (fun k => f.m1 (ix1 k)) (fun k => f.v1 (ix1 k))
    (fun k => f.v1_nonneg (ix1 k)) Cert.KernelIdeal.Facts₀.shapeCasts_S128_S1x128
    Cert.KernelIdeal.Facts₀.shapeCasts_S128_S1x128 Cert.KernelIdeal.Facts₀.bcast_S_S128 n j

/-- Layer 2: the fused block over the summed features, with the layer's statistics folded into a scale row and a
    shift row, is the reference's layer output (the centred form), as whole arrays. -/
theorem layer2_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal))
    (f : Cert.PreFacts.NormFacts x5 x6 x7 x8 x13 x14 x15 x16 x21 x22 x23 x24) :
    Cert.KernelIdeal.KV.G1 (val_main_v50 (F := Ideal) x0 x1 x3 x4 x5 x6 x7 x8 x9 x10) x11 (row128 x12) (row128 (scaleVec x13 x16))
        (row128 (shiftVec x13 x14 x15 x16)) x17 (row128 x18)
      = val_main_v75 (F := Ideal) x0 x1 x3 x4 x5 x6 x7 x8 x9 x10 x11 x12 x13 x14 x15 x16 x17 x18 := by
  funext i
  obtain ⟨n, j, rfl⟩ : ∃ (n : Fin 50000) (j : Fin 128), i = ix2 n j := ⟨i 0, i 1, eq_ix2 i⟩
  rw [layer2_apply]
  exact Cert.LayerLaw.folded_eq_centred (val_main_v50 (F := Ideal) x0 x1 x3 x4 x5 x6 x7 x8 x9 x10) x11 x12 x13 x14 x15 x16 x17 x18
    (fun k => f.g2 (ix1 k)) (fun k => f.be2 (ix1 k)) (fun k => f.m2 (ix1 k)) (fun k => f.v2 (ix1 k))
    (fun k => f.v2_nonneg (ix1 k)) Cert.KernelIdeal.Facts₀.shapeCasts_S128_S1x128
    Cert.KernelIdeal.Facts₀.shapeCasts_S128_S1x128 Cert.KernelIdeal.Facts₀.bcast_S_S128 n j

/-- Layer 3: the fused block over the summed features, with the layer's statistics folded into a scale row and a
    shift row, is the reference's layer output (the centred form), as whole arrays. -/
theorem layer3_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal))
    (f : Cert.PreFacts.NormFacts x5 x6 x7 x8 x13 x14 x15 x16 x21 x22 x23 x24) :
    Cert.KernelIdeal.KV.G2 (val_main_v86 (F := Ideal) x0 x1 x3 x4 x5 x6 x7 x8 x9 x10 x11 x12 x13 x14 x15 x16 x17 x18) x19 (row128 x20) (row128 (scaleVec x21 x24))
        (row128 (shiftVec x21 x22 x23 x24)) x25 (row128 x26)
      = val_main_v111 (F := Ideal) x0 x1 x3 x4 x5 x6 x7 x8 x9 x10 x11 x12 x13 x14 x15 x16 x17 x18 x19 x20 x21 x22 x23 x24 x25 x26 := by
  funext i
  obtain ⟨n, j, rfl⟩ : ∃ (n : Fin 50000) (j : Fin 128), i = ix2 n j := ⟨i 0, i 1, eq_ix2 i⟩
  rw [layer3_apply]
  exact Cert.LayerLaw.folded_eq_centred (val_main_v86 (F := Ideal) x0 x1 x3 x4 x5 x6 x7 x8 x9 x10 x11 x12 x13 x14 x15 x16 x17 x18) x19 x20 x21 x22 x23 x24 x25 x26
    (fun k => f.g3 (ix1 k)) (fun k => f.be3 (ix1 k)) (fun k => f.m3 (ix1 k)) (fun k => f.v3 (ix1 k))
    (fun k => f.v3_nonneg (ix1 k)) Cert.KernelIdeal.Facts₀.shapeCasts_S128_S1x128
    Cert.KernelIdeal.Facts₀.shapeCasts_S128_S1x128 Cert.KernelIdeal.Facts₀.bcast_S_S128 n j

/-- The classifier launch over the joined pooled features is the reference's result, as whole arrays. -/
theorem tail_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x10, .f32⟩ : BufTy).Contents (Elt Ideal)) (x30 : (⟨S10, .f32⟩ : BufTy).Contents (Elt Ideal)) :
    Cert.KernelIdeal.KV.G3 (val_main_v121 (F := Ideal) x0 x1 x2 x3 x4 x5 x6 x7 x8 x9 x10 x11 x12 x13 x14 x15 x16 x17 x18 x19 x20 x21 x22 x23 x24 x25 x26) x27 (row384 x28) x29 (row10 x30)
      = val_main_v131 (F := Ideal) x0 x1 x2 x3 x4 x5 x6 x7 x8 x9 x10 x11 x12 x13 x14 x15 x16 x17 x18 x19 x20 x21 x22 x23 x24 x25 x26 x27 x28 x29 x30 := by
  funext i
  obtain ⟨g, q, rfl⟩ : ∃ (g : Fin 512) (q : Fin 10), i = ix2 g q := ⟨i 0, i 1, eq_ix2 i⟩
  rw [tail_apply]
  show logSoftmaxAt (fun c : Fin 10 => Cert.LibMlpTile.headAt (val_main_v121 (F := Ideal) x0 x1 x2 x3 x4 x5 x6 x7 x8 x9 x10 x11 x12 x13 x14 x15 x16 x17 x18 x19 x20 x21 x22 x23 x24 x25 x26) x27 (row384 x28) x29 (row10 x30) g c) q = _
  refine congrArg (fun z : Fin 10 → EReal => logSoftmaxAt z q) (funext fun p => ?_)
  unfold Cert.LibMlpTile.headAt Cert.HostFns.row384 Cert.HostFns.row10
  rw [shapeCast_a_1a_apply x30 _ (0 : Fin 1) p]
  refine congrArg (fun u : EReal => u + x30 (ix1 p)) (Finset.sum_congr rfl fun k _ => ?_)
  rw [shapeCast_a_1a_apply x28 _ (0 : Fin 1) k]

end Cert.Bridge

end
-- ==== Proof.RefHost.lean ====
/-
  The reference's host stretches, as the same functions of arrays as the kernel's.

  The reference program spells the neighbour sum (slice, reshape, wrap, gather, scatter-add, add), the pooling
  (scatter-add from zero by the graph index) and the concatenation with the operations the kernel's host code uses, over
  shape relations that are the same statements under other names.  Unfolding the stage functions down to the stage
  they start from leaves the host function of that stage, read as it stands.
-/
import proofs.«108267_j14216341750214_1_alg».proof.Proof.Gen.ReferenceIdeal.Read
import proofs.«108267_j14216341750214_1_alg».proof.Proof.HostFns

noncomputable section

namespace Cert.ReferenceIdeal.RefValue2

open Idealize.ShloMosaic Cert.ReferenceIdeal Cert.ReferenceIdeal.Read Cert.HostFns

variable [Cert.KernelIdeal.Facts₀]

/-- The first layer's neighbour sum. -/
theorem val_main_v14_eq (x0 : (⟨S50000x64, .f32⟩ : BufTy).Contents (Elt Ideal)) (x1 : (⟨S2x800000, .i32⟩ : BufTy).Contents (Elt Ideal)) :
    val_main_v14 (F := Ideal) x0 x1 = nsum64 x0 x1 := by
  unfold val_main_v14 val_main_v13 val_main_v12 val_main_v11 val_main_v10 val_main_v9 val_main_v8 val_main_v7 val_main_v6
    val_main_v5 val_main_v4 val_main_v3 val_main_v2 val_main_v1 val_main_v0 val_main_c val_main_c_0 val_main_cst
  rfl

/-- The second layer's neighbour sum, of the first layer's output. -/
theorem val_main_v50_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) :
    val_main_v50 (F := Ideal) x0 x1 x3 x4 x5 x6 x7 x8 x9 x10 = nsum128 (val_main_v39 (F := Ideal) x0 x1 x3 x4 x5 x6 x7 x8 x9 x10) x1 := by
  unfold val_main_v50 val_main_v49 val_main_v48 val_main_v47 val_main_v46 val_main_v45 val_main_v44 val_main_v43 val_main_v42
    val_main_v41 val_main_v40 val_main_v3 val_main_v2 val_main_v1 val_main_v0 val_main_c_2 val_main_c_3 val_main_cst_4
  generalize val_main_v39 (F := Ideal) x0 x1 x3 x4 x5 x6 x7 x8 x9 x10 = h
  rfl

/-- The third layer's neighbour sum, of the second layer's output. -/
theorem val_main_v86_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    val_main_v86 (F := Ideal) x0 x1 x3 x4 x5 x6 x7 x8 x9 x10 x11 x12 x13 x14 x15 x16 x17 x18 = nsum128 (val_main_v75 (F := Ideal) x0 x1 x3 x4 x5 x6 x7 x8 x9 x10 x11 x12 x13 x14 x15 x16 x17 x18) x1 := by
  unfold val_main_v86 val_main_v85 val_main_v84 val_main_v83 val_main_v82 val_main_v81 val_main_v80 val_main_v79 val_main_v78
    val_main_v77 val_main_v76 val_main_v3 val_main_v2 val_main_v1 val_main_v0 val_main_c_6 val_main_c_7 val_main_cst_8
  generalize val_main_v75 (F := Ideal) x0 x1 x3 x4 x5 x6 x7 x8 x9 x10 x11 x12 x13 x14 x15 x16 x17 x18 = h
  rfl

/-- The three layers' outputs pooled per graph, side by side. -/
theorem val_main_v121_eq (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) :
    val_main_v121 (F := Ideal) x0 x1 x2 x3 x4 x5 x6 x7 x8 x9 x10 x11 x12 x13 x14 x15 x16 x17 x18 x19 x20 x21 x22 x23 x24 x25 x26
      = cat3 (pool (val_main_v39 (F := Ideal) x0 x1 x3 x4 x5 x6 x7 x8 x9 x10) x2) (pool (val_main_v75 (F := Ideal) x0 x1 x3 x4 x5 x6 x7 x8 x9 x10 x11 x12 x13 x14 x15 x16 x17 x18) x2)
          (pool (val_main_v111 (F := Ideal) x0 x1 x3 x4 x5 x6 x7 x8 x9 x10 x11 x12 x13 x14 x15 x16 x17 x18 x19 x20 x21 x22 x23 x24 x25 x26) x2) := by
  unfold val_main_v121 val_main_v120 val_main_v119 val_main_v118 val_main_v117 val_main_v116 val_main_v115 val_main_v114
    val_main_v113 val_main_v112 val_main_cst_10 val_main_cst_11 val_main_cst_12
  generalize val_main_v39 (F := Ideal) x0 x1 x3 x4 x5 x6 x7 x8 x9 x10 = h1
  generalize val_main_v75 (F := Ideal) x0 x1 x3 x4 x5 x6 x7 x8 x9 x10 x11 x12 x13 x14 x15 x16 x17 x18 = h2
  generalize val_main_v111 (F := Ideal) x0 x1 x3 x4 x5 x6 x7 x8 x9 x10 x11 x12 x13 x14 x15 x16 x17 x18 x19 x20 x21 x22 x23 x24 x25 x26 = h3
  rfl

end Cert.ReferenceIdeal.RefValue2

end
-- ==== Proof.FnEq.lean ====
import proofs.«108267_j14216341750214_1_alg».proof.Proof.Bridge
import proofs.«108267_j14216341750214_1_alg».proof.Proof.RefHost
import proofs.«108267_j14216341750214_1_alg».proof.Proof.KernelFn

/-!
  The kernel's function of the arguments is the reference's result, as whole arrays on the extended reals.

  The kernel side composes, layer by layer, the neighbour sum with the fused block, then pools the three layers'
  outputs, joins them and classifies. The reference's stages are the same compositions: each layer's input stage is the
  neighbour sum of the layer before, each fused block is the layer's centred form (the normalization vectors being
  real and the variances non-negative), and the joined pooled stage feeds the same classifier.
-/

noncomputable section

namespace Cert.Bridge

open Cert.ReferenceIdeal Cert.ReferenceIdeal.Gen Cert.ReferenceIdeal.Read Cert.ReferenceIdeal.RefValue2
  Idealize.ShloMosaic
open Cert.KernelIdeal.KV (layerA layerB layerC classify)

/-- Layer 1 of the kernel side is the reference's first layer output. -/
theorem layerA_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal))
    (f : Cert.PreFacts.NormFacts x5 x6 x7 x8 x13 x14 x15 x16 x21 x22 x23 x24) :
    layerA x0 x1 x3 x4 x5 x6 x7 x8 x9 x10 = val_main_v39 (F := Ideal) x0 x1 x3 x4 x5 x6 x7 x8 x9 x10 := by
  unfold Cert.KernelIdeal.KV.layerA
  rw [← val_main_v14_eq]
  exact layer1_eq x0 x1 x3 x4 x5 x6 x7 x8 x9 x10 x13 x14 x15 x16 x21 x22 x23 x24 f

/-- Layer 2 of the kernel side, on the reference's first layer output, is the reference's second layer output. -/
theorem layerB_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal))
    (f : Cert.PreFacts.NormFacts x5 x6 x7 x8 x13 x14 x15 x16 x21 x22 x23 x24) :
    layerB (val_main_v39 (F := Ideal) x0 x1 x3 x4 x5 x6 x7 x8 x9 x10) x1 x11 x12 x13 x14 x15 x16 x17 x18
      = val_main_v75 (F := Ideal) x0 x1 x3 x4 x5 x6 x7 x8 x9 x10 x11 x12 x13 x14 x15 x16 x17 x18 := by
  unfold Cert.KernelIdeal.KV.layerB
  rw [← val_main_v50_eq]
  exact layer2_eq x0 x1 x3 x4 x5 x6 x7 x8 x9 x10 x11 x12 x13 x14 x15 x16 x17 x18 x21 x22 x23 x24 f

/-- Layer 3 of the kernel side, on the reference's second layer output, is the reference's third layer output. -/
theorem layerC_eq (x0 : (⟨S50000x64, .f32⟩ : BufTy).Contents (Elt Ideal)) (x1 : (⟨S2x800000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal))
    (f : Cert.PreFacts.NormFacts x5 x6 x7 x8 x13 x14 x15 x16 x21 x22 x23 x24) :
    layerC (val_main_v75 (F := Ideal) x0 x1 x3 x4 x5 x6 x7 x8 x9 x10 x11 x12 x13 x14 x15 x16 x17 x18) x1 x19 x20 x21 x22 x23 x24 x25 x26
      = val_main_v111 (F := Ideal) x0 x1 x3 x4 x5 x6 x7 x8 x9 x10 x11 x12 x13 x14 x15 x16 x17 x18 x19 x20 x21 x22 x23 x24 x25 x26 := by
  unfold Cert.KernelIdeal.KV.layerC
  rw [← val_main_v86_eq]
  exact layer3_eq x0 x1 x3 x4 x5 x6 x7 x8 x9 x10 x11 x12 x13 x14 x15 x16 x17 x18 x19 x20 x21 x22 x23 x24 x25 x26 f

/-- The kernel side's whole function of the arguments is the reference's result. -/
theorem kernelFn_eq_ref (x0 : (⟨S50000x64, .f32⟩ : BufTy).Contents (Elt Ideal)) (x1 : (⟨S2x800000, .i32⟩ : BufTy).Contents (Elt Ideal)) (x2 : (⟨S50000, .i32⟩ : BufTy).Contents (Elt Ideal)) (x3 : (⟨S64x128, .f32⟩ : BufTy).Contents (Elt Ideal)) (x4 : (⟨S128, .f32⟩ : BufTy).Contents (Elt Ideal)) (x5 : (⟨S128, .f32⟩ : BufTy).Contents (Elt Ideal)) (x6 : (⟨S128, .f32⟩ : BufTy).Contents (Elt Ideal)) (x7 : (⟨S128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S128, .f32⟩ : BufTy).Contents (Elt Ideal)) (x14 : (⟨S128, .f32⟩ : BufTy).Contents (Elt Ideal)) (x15 : (⟨S128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (x19 : (⟨S128x128, .f32⟩ : BufTy).Contents (Elt Ideal)) (x20 : (⟨S128, .f32⟩ : BufTy).Contents (Elt Ideal)) (x21 : (⟨S128, .f32⟩ : BufTy).Contents (Elt Ideal)) (x22 : (⟨S128, .f32⟩ : BufTy).Contents (Elt Ideal)) (x23 : (⟨S128, .f32⟩ : BufTy).Contents (Elt Ideal)) (x24 : (⟨S128, .f32⟩ : BufTy).Contents (Elt Ideal)) (x25 : (⟨S128x128, .f32⟩ : BufTy).Contents (Elt Ideal)) (x26 : (⟨S128, .f32⟩ : BufTy).Contents (Elt Ideal)) (x27 : (⟨S384x384, .f32⟩ : BufTy).Contents (Elt Ideal)) (x28 : (⟨S384, .f32⟩ : BufTy).Contents (Elt Ideal)) (x29 : (⟨S384x10, .f32⟩ : BufTy).Contents (Elt Ideal)) (x30 : (⟨S10, .f32⟩ : BufTy).Contents (Elt Ideal))
    (f : Cert.PreFacts.NormFacts x5 x6 x7 x8 x13 x14 x15 x16 x21 x22 x23 x24) :
    classify (layerA x0 x1 x3 x4 x5 x6 x7 x8 x9 x10)
        (layerB (layerA x0 x1 x3 x4 x5 x6 x7 x8 x9 x10) x1 x11 x12 x13 x14 x15 x16 x17 x18)
        (layerC (layerB (layerA x0 x1 x3 x4 x5 x6 x7 x8 x9 x10) x1 x11 x12 x13 x14 x15 x16 x17 x18) x1 x19 x20 x21 x22 x23 x24 x25 x26)
        x2 x27 x28 x29 x30
      = val_main_v131 (F := Ideal) x0 x1 x2 x3 x4 x5 x6 x7 x8 x9 x10 x11 x12 x13 x14 x15 x16 x17 x18 x19 x20 x21 x22 x23 x24 x25 x26 x27 x28 x29 x30 := by
  rw [layerA_eq x0 x1 x3 x4 x5 x6 x7 x8 x9 x10 x13 x14 x15 x16 x21 x22 x23 x24 f, layerB_eq x0 x1 x3 x4 x5 x6 x7 x8 x9 x10 x11 x12 x13 x14 x15 x16 x17 x18 x21 x22 x23 x24 f, layerC_eq x0 x1 x3 x4 x5 x6 x7 x8 x9 x10 x11 x12 x13 x14 x15 x16 x17 x18 x19 x20 x21 x22 x23 x24 x25 x26 f]
  unfold Cert.KernelIdeal.KV.classify
  rw [← val_main_v121_eq]
  exact tail_eq x0 x1 x2 x3 x4 x5 x6 x7 x8 x9 x10 x11 x12 x13 x14 x15 x16 x17 x18 x19 x20 x21 x22 x23 x24 x25 x26 x27 x28 x29 x30

end Cert.Bridge

end
-- ==== Proof.RefResult.lean ====
import proofs.«108267_j14216341750214_1_alg».proof.Proof.RefTail

/-!
  The reference's result buffer after its run, as the last stage of the read-back chain applied to the argument
  buffers' launch contents, and that stage at an entry.
-/

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open Cert.Lib.LogSoftmax (logSoftmaxAt)

/-- The term the reference's run leaves in its result buffer is the last stage, taken at the arguments' launch
    contents. -/
theorem ref_result (m : (ℓ : Loc nD τ sig) → Buf (Elt Ideal) ℓ) (c : Dev nD) :
    Cert.ReferenceIdeal.Value.res_main_v131 m c
      = val_main_v131 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22))
      (m ((c.tc : Thread nD τ).loc main_arg23))
      (m ((c.tc : Thread nD τ).loc main_arg24))
      (m ((c.tc : Thread nD τ).loc main_arg25))
      (m ((c.tc : Thread nD τ).loc main_arg26))
      (m ((c.tc : Thread nD τ).loc main_arg27))
      (m ((c.tc : Thread nD τ).loc main_arg28))
      (m ((c.tc : Thread nD τ).loc main_arg29))
      (m ((c.tc : Thread nD τ).loc main_arg30)) :=
  val_main_v131_eq m c

/-- The run's result at (graph g, class q): the log-softmax of row g of the logits at q, the logits a stage of the
    arguments' launch contents. -/
theorem ref_result_apply (m : (ℓ : Loc nD τ sig) → Buf (Elt Ideal) ℓ) (c : Dev nD) (g : Fin 512) (q : Fin 10) :
    (Cert.ReferenceIdeal.Value.res_main_v131 m c : (⟨S512x10, .f32⟩ : BufTy).Contents (Elt Ideal)) (ix2 g q)
      = logSoftmaxAt (fun p : Fin 10 => val_main_v130 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6))
      (m ((c.tc : Thread nD τ).loc main_arg7))
      (m ((c.tc : Thread nD τ).loc main_arg8))
      (m ((c.tc : Thread nD τ).loc main_arg9))
      (m ((c.tc : Thread nD τ).loc main_arg10))
      (m ((c.tc : Thread nD τ).loc main_arg11))
      (m ((c.tc : Thread nD τ).loc main_arg12))
      (m ((c.tc : Thread nD τ).loc main_arg13))
      (m ((c.tc : Thread nD τ).loc main_arg14))
      (m ((c.tc : Thread nD τ).loc main_arg15))
      (m ((c.tc : Thread nD τ).loc main_arg16))
      (m ((c.tc : Thread nD τ).loc main_arg17))
      (m ((c.tc : Thread nD τ).loc main_arg18))
      (m ((c.tc : Thread nD τ).loc main_arg19))
      (m ((c.tc : Thread nD τ).loc main_arg20))
      (m ((c.tc : Thread nD τ).loc main_arg21))
      (m ((c.tc : Thread nD τ).loc main_arg22))
      (m ((c.tc : Thread nD τ).loc main_arg23))
      (m ((c.tc : Thread nD τ).loc main_arg24))
      (m ((c.tc : Thread nD τ).loc main_arg25))
      (m ((c.tc : Thread nD τ).loc main_arg26))
      (m ((c.tc : Thread nD τ).loc main_arg27))
      (m ((c.tc : Thread nD τ).loc main_arg28))
      (m ((c.tc : Thread nD τ).loc main_arg29))
      (m ((c.tc : Thread nD τ).loc main_arg30)) (ix2 g p)) q := by
  rw [ref_result m c]
  exact result_apply _ _ _ _ _ _ _ _ _ _ _ _ _ _ _ _ _ _ _ _ _ _ _ _ _ _ _ _ _ _ _ g q

end Cert.ReferenceIdeal.RefValue

end
-- ==== Proof.lean ====
/-
  A three-layer graph isomorphism network with a classifier head: the kernel program against its reference.

  Each layer adds to every node's features the sum of its in-neighbours' features and applies a two-layer perceptron
  with eval-mode batch normalisation between the layers; the three layers' outputs are summed per graph, laid side by
  side, and passed through a two-layer classifier and a row-wise log-softmax. The kernel program runs the perceptron of
  each layer, and the classifier, as kernel launches over row blocks, with the normalisation's statistics folded on the
  host into one scale `g · rsqrt (v + ε)` and one shift `be - m · (g · rsqrt (v + ε))`; the reference normalises in the
  centred form `((z - m) · rsqrt (v + ε)) · g + be`. The neighbour sums, the pooling and the concatenation are the same
  host operations in both programs.

  On the extended reals the two forms of the normalisation agree at EVERY value `z` of the first affine map as soon as
  `m`, `g`, `be`, `v` are real and `v ≥ 0` (then `rsqrt (v + ε)` is a positive real): `Cert.BnLaw`. That is where the
  precondition is used — finiteness of the statistics and non-negativity of the variances — and nowhere else: matrix
  products are the same sums on both sides, changes of float format are the identity, and the log-softmax is spelt the
  same way. So, layer by layer, each launch's output array equals the reference's stage of the same arguments
  (`Cert.Bridge`), and the results agree.

  The frames: every launch of the kernel program stages whole blocks, computes one payload and stores it whole; the four
  launches and the host operations between them are chained from one segment record per launch
  (`Cert.Kernel.Hand`, `Cert.KernelIdeal.Hand`). The reference is a host program, and its run is read back
  operation by operation.
-/
import proofs.«108267_j14216341750214_1_alg».proof.Defs
import proofs.«108267_j14216341750214_1_alg».proof.Proof.Gen.Kernel
import proofs.«108267_j14216341750214_1_alg».proof.Proof.Gen.KernelIdeal
import proofs.«108267_j14216341750214_1_alg».proof.Proof.Gen.ReferenceIdeal
import proofs.«108267_j14216341750214_1_alg».proof.Proof.Gen.Pre_finite_inputs
import proofs.«108267_j14216341750214_1_alg».proof.Proof.BitsRun
import proofs.«108267_j14216341750214_1_alg».proof.Proof.IdealRun
import proofs.«108267_j14216341750214_1_alg».proof.Proof.KernelValue
import proofs.«108267_j14216341750214_1_alg».proof.Proof.FnEq
import proofs.«108267_j14216341750214_1_alg».proof.Proof.RefResult
import proofs.«108267_j14216341750214_1_alg».proof.Proof.PreFacts
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as launched. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with the same result: the kernel program's
    result buffer holds the classifier of the three layers' launch functions, the reference's its last stage, and under
    the precondition these are one function of the arguments. -/
theorem algebraic : Cert.algebraic_KernelIdeal_ReferenceIdeal := by
  intro m ρ m' ρ' hpre hagree
  refine ⟨fun c => Cert.KernelIdeal.Gen.V8 m (Cert.KernelIdeal.Hand.outs m) c Cert.KernelIdeal.main_v82,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  have f := Cert.PreFacts.facts _ _ _ _ _ _ _ _ _ _ _ _ _ _ _ _ _ _ _ _ _ _ _ _ _ _ _ _ _ _ _ (hpre c)
  obtain ⟨a0, a1, a2, a3, a4, a5, a6, a7, a8, a9, a10, a11, a12, a13, a14, a15, a16, a17, a18, a19, a20, a21, a22, a23, a24, a25, a26, a27, a28, a29, a30⟩ := hagree c
  rw [Cert.ReferenceIdeal.RefValue.ref_result m' c, a0, a1, a2, a3, a4, a5, a6, a7, a8, a9, a10, a11, a12, a13, a14, a15, a16, a17, a18, a19, a20, a21, a22, a23, a24, a25, a26, a27, a28, a29, a30]
  exact ((Cert.Bridge.kernelFn_eq_ref _ _ _ _ _ _ _ _ _ _ _ _ _ _ _ _ _ _ _ _ _ _ _ _ _ _ _ _ _ _ _ f).symm.trans (Cert.KernelIdeal.KV.result_eq m c).symm)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
